-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v308) = v4 c
          ∧ r.2.mem ((c.tc : Thread Cert.ReferenceIdeal.nD Cert.ReferenceIdeal.τ).loc Cert.ReferenceIdeal.main_v311) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S1000000x7 : Shape := ⟨2, ![1000000, 7]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S1000000x7 : S_.BroadcastsInDim S1000000x7 (![] : Fin 0 → Fin S1000000x7.rank)
  reducesTo_S1000000x7_S_d0_1 : S1000000x7.ReducesTo [0, 1] S_

variable [Facts]

def fn_part1 {F : FTy → Type} [FloatOps F] (main_v13 : IVec S_ 1) (main_v16 : IVec S1000000x7 1) : IVec S_ 1 :=
  let main_c_5 : IVec S_ 1 := constantI S_ 1 1#1
  let main_v17 : IVec S_ 1 := (fun x v => Host.reduce IntOp.andi x v reducesTo_S1000000x7_S_d0_1 h_S_) main_v16 main_c_5
  let main_v18 : IVec S_ 1 := andi main_v13 main_v17
  main_v18

def fn {F : FTy → Type} [FloatOps F] (main_arg0 : FVec F S1000000x2 .f32) (main_arg1 : FVec F S1000000x2 .f32) (main_arg2 : FVec F S1000000x7 .f32) (main_arg3 : FVec F S1000000x7 .f32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S1000000x2 .f32 := Host.absf main_arg1
  let main_cst_0 : FVec F S_ .f32 := constant S_ .f32 0x7F800000#32
  let main_v5 : FVec F S1000000x2 .f32 := broadcastInDim S1000000x2 ![] bcast_S_S1000000x2 main_cst_0
  let main_v6 : IVec S1000000x2 1 := cmpf .olt main_v4 main_v5
  let main_c_1 : IVec S_ 1 := constantI S_ 1 1#1
  let main_v7 : IVec S_ 1 := (fun x v => Host.reduce IntOp.andi x v reducesTo_S1000000x2_S_d0_1 h_S_) main_v6 main_c_1
  let main_v8 : IVec S_ 1 := andi main_v3 main_v7
  let main_v9 : FVec F S1000000x7 .f32 := Host.absf main_arg2
  let main_cst_2 : FVec F S_ .f32 := constant S_ .f32 0x7F800000#32
  let main_v10 : FVec F S1000000x7 .f32 := broadcastInDim S1000000x7 ![] bcast_S_S1000000x7 main_cst_2
  let main_v11 : IVec S1000000x7 1 := cmpf .olt main_v9 main_v10
  let main_c_3 : IVec S_ 1 := constantI S_ 1 1#1
  let main_v12 : IVec S_ 1 := (fun x v => Host.reduce IntOp.andi x v reducesTo_S1000000x7_S_d0_1 h_S_) main_v11 main_c_3
  let main_v13 : IVec S_ 1 := andi main_v8 main_v12
  let main_v14 : FVec F S1000000x7 .f32 := Host.absf main_arg3
  let main_cst_4 : FVec F S_ .f32 := constant S_ .f32 0x7F800000#32
  let main_v15 : FVec F S1000000x7 .f32 := broadcastInDim S1000000x7 ![] bcast_S_S1000000x7 main_cst_4
  let main_v16 : IVec S1000000x7 1 := cmpf .olt main_v14 main_v15
  fn_part1 (F := F) main_v13 main_v16
-- ==== Kernel.lean ====
abbrev S1000000x2 : Shape := ⟨2, ![1000000, 2]⟩
abbrev S1000000x7 : Shape := ⟨2, ![1000000, 7]⟩
abbrev S1000000x4 : Shape := ⟨2, ![1000000, 4]⟩
abbrev S1000000x14 : Shape := ⟨2, ![1000000, 14]⟩
abbrev S3072x2 : Shape := ⟨2, ![3072, 2]⟩
abbrev S3072x7 : Shape := ⟨2, ![3072, 7]⟩
abbrev S3072x4 : Shape := ⟨2, ![3072, 4]⟩
abbrev S3072x14 : Shape := ⟨2, ![3072, 14]⟩
abbrev S2x3072 : Shape := ⟨2, ![2, 3072]⟩
abbrev S4x3072 : Shape := ⟨2, ![4, 3072]⟩
abbrev S14x3072 : Shape := ⟨2, ![14, 3072]⟩
abbrev S7x3072 : Shape := ⟨2, ![7, 3072]⟩
abbrev S1x3072 : Shape := ⟨2, ![1, 3072]⟩
abbrev S3072 : Shape := ⟨1, ![3072]⟩
abbrev S1000000x2x2 : Shape := ⟨3, ![1000000, 2, 2]⟩
abbrev S1000000x2x7 : Shape := ⟨3, ![1000000, 2, 7]⟩

abbrev nBuf : Space → Nat
  | .hbm => 13
  | .vmem => 25
  | .smem => 0
  | _ => 0

abbrev bufTy : (tb : Table) → Fin (tcTables nBuf tb) → BufTy
  | .hbm, ⟨0, _⟩ => ⟨S1000000x2, .f32⟩
  | .hbm, ⟨1, _⟩ => ⟨S1000000x2, .f32⟩
  | .hbm, ⟨2, _⟩ => ⟨S1000000x7, .f32⟩
  | .hbm, ⟨3, _⟩ => ⟨S1000000x7, .f32⟩
  | .hbm, ⟨4, _⟩ => ⟨S1000000x2, .f32⟩
  | .hbm, ⟨5, _⟩ => ⟨S1000000x4, .f32⟩
  | .hbm, ⟨6, _⟩ => ⟨S1000000x4, .f32⟩
  | .hbm, ⟨7, _⟩ => ⟨S1000000x14, .f32⟩
  | .hbm, ⟨8, _⟩ => ⟨S1000000x7, .f32⟩
  | .hbm, ⟨9, _⟩ => ⟨S1000000x7, .f32⟩
  | .hbm, ⟨10, _⟩ => ⟨S1000000x2x2, .f32⟩
  | .hbm, ⟨11, _⟩ => ⟨S1000000x2x2, .f32⟩
  | .hbm, ⟨12, _⟩ => ⟨S1000000x2x7, .f32⟩
  | .local _ .vmem, ⟨0, _⟩ => ⟨S3072x2, .f32⟩
  | .local _ .vmem, ⟨1, _⟩ => ⟨S3072x2, .f32⟩
  | .local _ .vmem, ⟨2, _⟩ => ⟨S3072x2, .f32⟩
  | .local _ .vmem, ⟨3, _⟩ => ⟨S3072x2, .f32⟩
  | .local _ .vmem, ⟨4, _⟩ => ⟨S3072x7, .f32⟩
  | .local _ .vmem, ⟨5, _⟩ => ⟨S3072x7, .f32⟩
  | .local _ .vmem, ⟨6, _⟩ => ⟨S3072x7, .f32⟩
  | .local _ .vmem, ⟨7, _⟩ => ⟨S3072x7, .f32⟩
  | .local _ .vmem, ⟨8, _⟩ => ⟨S3072x2, .f32⟩
  | .local _ .vmem, ⟨9, _⟩ => ⟨S3072x2, .f32⟩
  | .local _ .vmem, ⟨10, _⟩ => ⟨S3072x4, .f32⟩
  | .local _ .vmem, ⟨11, _⟩ => ⟨S3072x4, .f32⟩
  | .local _ .vmem, ⟨12, _⟩ => ⟨S3072x4, .f32⟩
  | .local _ .vmem, ⟨13, _⟩ => ⟨S3072x4, .f32⟩
  | .local _ .vmem, ⟨14, _⟩ => ⟨S3072x14, .f32⟩
  | .local _ .vmem, ⟨15, _⟩ => ⟨S3072x14, .f32⟩
  | .local _ .vmem, ⟨16, _⟩ => ⟨S3072x7, .f32⟩
  | .local _ .vmem, ⟨17, _⟩ => ⟨S3072x7, .f32⟩
  | .local _ .vmem, ⟨18, _⟩ => ⟨S3072x7, .f32⟩
  | .local _ .vmem, ⟨19, _⟩ => ⟨S3072x7, .f32⟩
  | .local _ .vmem, ⟨20, _⟩ => ⟨S2x3072, .f32⟩
  | .local _ .vmem, ⟨21, _⟩ => ⟨S4x3072, .f32⟩
  | .local _ .vmem, ⟨22, _⟩ => ⟨S4x3072, .f32⟩
  | .local _ .vmem, ⟨23, _⟩ => ⟨S14x3072, .f32⟩
  | .local _ .vmem, ⟨24, _⟩ => ⟨S7x3072, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![326], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3072x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3072x7 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3072x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S3072x14 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3072x7 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3072x7 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  inb_S3072x2_S3072x2_0_0 : ∀ a, (![0, 0] : Fin 2 → Nat) a + S3072x2.size a ≤ S3072x2.size a
  h_S3072x2 : 0 < S3072x2.numel
  transposes_S3072x2_p1_0_S2x3072 : S3072x2.Transposes [1, 0] S2x3072
  slices_S2x3072_o0_0_S1x3072 : S2x3072.Slices ![0, 0] S1x3072
  shapeCasts_S1x3072_S3072 : S1x3072.ShapeCasts S3072
  slices_S2x3072_o1_0_S1x3072 : S2x3072.Slices ![1, 0] S1x3072
  inb_S2x3072_S1x3072_0_0 : ∀ a, (![0, 0] : Fin 2 → Nat) a + S1x3072.size a ≤ S2x3072.size a
  h_S1x3072 : 0 < S1x3072.numel
  shapeCasts_S3072_S1x3072 : S3072.ShapeCasts S1x3072
  inb_S2x3072_S1x3072_1_0 : ∀ a, (![1, 0] : Fin 2 → Nat) a + S1x3072.size a ≤ S2x3072.size a
  inb_S2x3072_S2x3072_0_0 : ∀ a, (![0, 0] : Fin 2 → Nat) a + S2x3072.size a ≤ S2x3072.size a
  h_S2x3072 : 0 < S2x3072.numel
  transposes_S2x3072_p1_0_S3072x2 : S2x3072.Transposes [1, 0] S3072x2
  inb_S4x3072_S1x3072_0_0 : ∀ a, (![0, 0] : Fin 2 → Nat) a + S1x3072.size a ≤ S4x3072.size a
  inb_S4x3072_S1x3072_1_0 : ∀ a, (![1, 0] : Fin 2 → Nat) a + S1x3072.size a ≤ S4x3072.size a
  inb_S4x3072_S1x3072_2_0 : ∀ a, (![2, 0] : Fin 2 → Nat) a + S1x3072.size a ≤ S4x3072.size a
  inb_S4x3072_S1x3072_3_0 : ∀ a, (![3, 0] : Fin 2 → Nat) a + S1x3072.size a ≤ S4x3072.size a
  inb_S4x3072_S4x3072_0_0 : ∀ a, (![0, 0] : Fin 2 → Nat) a + S4x3072.size a ≤ S4x3072.size a
  h_S4x3072 : 0 < S4x3072.numel
  transposes_S4x3072_p1_0_S3072x4 : S4x3072.Transposes [1, 0] S3072x4
  inb_S3072x4_S3072x4_0_0 : ∀ a, (![0, 0] : Fin 2 → Nat) a + S3072x4.size a ≤ S3072x4.size a
  h_S3072x4 : 0 < S3072x4.numel
  inb_S14x3072_S1x3072_0_0 : ∀ a, (![0, 0] : Fin 2 → Nat) a + S1x3072.size a ≤ S14x3072.size a
  inb_S14x3072_S1x3072_1_0 : ∀ a, (![1, 0] : Fin 2 → Nat) a + S1x3072.size a ≤ S14x3072.size a
  inb_S14x3072_S1x3072_2_0 : ∀ a, (![2, 0] : Fin 2 → Nat) a + S1x3072.size a ≤ S14x3072.size a
  inb_S14x3072_S1x3072_3_0 : ∀ a, (![3, 0] : Fin 2 → Nat) a + S1x3072.size a ≤ S14x3072.size a
  inb_S14x3072_S1x3072_4_0 : ∀ a, (![4, 0] : Fin 2 → Nat) a + S1x3072.size a ≤ S14x3072.size a
  inb_S14x3072_S1x3072_5_0 : ∀ a, (![5, 0] : Fin 2 → Nat) a + S1x3072.size a ≤ S14x3072.size a
  inb_S14x3072_S1x3072_6_0 : ∀ a, (![6, 0] : Fin 2 → Nat) a + S1x3072.size a ≤ S14x3072.size a
  inb_S14x3072_S1x3072_7_0 : ∀ a, (![7, 0] : Fin 2 → Nat) a + S1x3072.size a ≤ S14x3072.size a
  inb_S14x3072_S1x3072_8_0 : ∀ a, (![8, 0] : Fin 2 → Nat) a + S1x3072.size a ≤ S14x3072.size a
  inb_S14x3072_S1x3072_9_0 : ∀ a, (![9, 0] : Fin 2 → Nat) a + S1x3072.size a ≤ S14x3072.size a
  inb_S14x3072_S1x3072_10_0 : ∀ a, (![10, 0] : Fin 2 → Nat) a + S1x3072.size a ≤ S14x3072.size a
  inb_S14x3072_S1x3072_11_0 : ∀ a, (![11, 0] : Fin 2 → Nat) a + S1x3072.size a ≤ S14x3072.size a
  inb_S14x3072_S1x3072_12_0 : ∀ a, (![12, 0] : Fin 2 → Nat) a + S1x3072.size a ≤ S14x3072.size a
  inb_S14x3072_S1x3072_13_0 : ∀ a, (![13, 0] : Fin 2 → Nat) a + S1x3072.size a ≤ S14x3072.size a
  inb_S14x3072_S14x3072_0_0 : ∀ a, (![0, 0] : Fin 2 → Nat) a + S14x3072.size a ≤ S14x3072.size a
  h_S14x3072 : 0 < S14x3072.numel
  transposes_S14x3072_p1_0_S3072x14 : S14x3072.Transposes [1, 0] S3072x14
  inb_S3072x14_S3072x14_0_0 : ∀ a, (![0, 0] : Fin 2 → Nat) a + S3072x14.size a ≤ S3072x14.size a
  h_S3072x14 : 0 < S3072x14.numel
  inb_S7x3072_S1x3072_0_0 : ∀ a, (![0, 0] : Fin 2 → Nat) a + S1x3072.size a ≤ S7x3072.size a
  inb_S7x3072_S1x3072_1_0 : ∀ a, (![1, 0] : Fin 2 → Nat) a + S1x3072.size a ≤ S7x3072.size a
  inb_S7x3072_S1x3072_2_0 : ∀ a, (![2, 0] : Fin 2 → Nat) a + S1x3072.size a ≤ S7x3072.size a
  inb_S7x3072_S1x3072_3_0 : ∀ a, (![3, 0] : Fin 2 → Nat) a + S1x3072.size a ≤ S7x3072.size a
  inb_S7x3072_S1x3072_4_0 : ∀ a, (![4, 0] : Fin 2 → Nat) a + S1x3072.size a ≤ S7x3072.size a
  inb_S7x3072_S1x3072_5_0 : ∀ a, (![5, 0] : Fin 2 → Nat) a + S1x3072.size a ≤ S7x3072.size a
  inb_S7x3072_S1x3072_6_0 : ∀ a, (![6, 0] : Fin 2 → Nat) a + S1x3072.size a ≤ S7x3072.size a
  inb_S7x3072_S7x3072_0_0 : ∀ a, (![0, 0] : Fin 2 → Nat) a + S7x3072.size a ≤ S7x3072.size a
  h_S7x3072 : 0 < S7x3072.numel
  transposes_S7x3072_p1_0_S3072x7 : S7x3072.Transposes [1, 0] S3072x7
  inb_S3072x7_S3072x7_0_0 : ∀ a, (![0, 0] : Fin 2 → Nat) a + S3072x7.size a ≤ S3072x7.size a
  h_S3072x7 : 0 < S3072x7.numel
  shapeCasts_S1000000x4_S1000000x2x2 : S1000000x4.ShapeCasts S1000000x2x2
  shapeCasts_S1000000x14_S1000000x2x7 : S1000000x14.ShapeCasts S1000000x2x7
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3072x2.size a < S1000000x2.size a
  hwx0_0 : ∀ i : grid0.Coords, EltTy.bits .f32 = 32 ∨ (Rect.unit (s := S1000000x2) (fun a => cc0_transform_0 i a * S3072x2.size a) (fun a => (Pipeline.Clip.of (cc0_transform_0 i a) (S3072x2.size a) (S1000000x2.size a)).extent (S3072x2.size a)) fun a => Pipeline.Clip.inb (Pipeline.Clip.ok_of (hstart0_0 i a))).WholeWords (EltTy.packing .f32)
  hwxs0_0 : ∀ i : grid0.Coords, EltTy.bits .f32 = 32 ∨ (Rect.unit (s := S3072x2) (fun _ => 0) (fun a => (Pipeline.Clip.of (cc0_transform_0 i a) (S3072x2.size a) (S1000000x2.size a)).extent (S3072x2.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S3072x2.size a < S1000000x2.size a
  hwx0_1 : ∀ i : grid0.Coords, EltTy.bits .f32 = 32 ∨ (Rect.unit (s := S1000000x2) (fun a => cc0_transform_1 i a * S3072x2.size a) (fun a => (Pipeline.Clip.of (cc0_transform_1 i a) (S3072x2.size a) (S1000000x2.size a)).extent (S3072x2.size a)) fun a => Pipeline.Clip.inb (Pipeline.Clip.ok_of (hstart0_1 i a))).WholeWords (EltTy.packing .f32)
  hwxs0_1 : ∀ i : grid0.Coords, EltTy.bits .f32 = 32 ∨ (Rect.unit (s := S3072x2) (fun _ => 0) (fun a => (Pipeline.Clip.of (cc0_transform_1 i a) (S3072x2.size a) (S1000000x2.size a)).extent (S3072x2.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S3072x7.size a < S1000000x7.size a
  hwx0_2 : ∀ i : grid0.Coords, EltTy.bits .f32 = 32 ∨ (Rect.unit (s := S1000000x7) (fun a => cc0_transform_2 i a * S3072x7.size a) (fun a => (Pipeline.Clip.of (cc0_transform_2 i a) (S3072x7.size a) (S1000000x7.size a)).extent (S3072x7.size a)) fun a => Pipeline.Clip.inb (Pipeline.Clip.ok_of (hstart0_2 i a))).WholeWords (EltTy.packing .f32)
  hwxs0_2 : ∀ i : grid0.Coords, EltTy.bits .f32 = 32 ∨ (Rect.unit (s := S3072x7) (fun _ => 0) (fun a => (Pipeline.Clip.of (cc0_transform_2 i a) (S3072x7.size a) (S1000000x7.size a)).extent (S3072x7.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S3072x7.size a < S1000000x7.size a
  hwx0_3 : ∀ i : grid0.Coords, EltTy.bits .f32 = 32 ∨ (Rect.unit (s := S1000000x7) (fun a => cc0_transform_3 i a * S3072x7.size a) (fun a => (Pipeline.Clip.of (cc0_transform_3 i a) (S3072x7.size a) (S1000000x7.size a)).extent (S3072x7.size a)) fun a => Pipeline.Clip.inb (Pipeline.Clip.ok_of (hstart0_3 i a))).WholeWords (EltTy.packing .f32)
  hwxs0_3 : ∀ i : grid0.Coords, EltTy.bits .f32 = 32 ∨ (Rect.unit (s := S3072x7) (fun _ => 0) (fun a => (Pipeline.Clip.of (cc0_transform_3 i a) (S3072x7.size a) (S1000000x7.size a)).extent (S3072x7.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S3072x2.size a < S1000000x2.size a
  hwx0_4 : ∀ i : grid0.Coords, EltTy.bits .f32 = 32 ∨ (Rect.unit (s := S1000000x2) (fun a => cc0_transform_4 i a * S3072x2.size a) (fun a => (Pipeline.Clip.of (cc0_transform_4 i a) (S3072x2.size a) (S1000000x2.size a)).extent (S3072x2.size a)) fun a => Pipeline.Clip.inb (Pipeline.Clip.ok_of (hstart0_4 i a))).WholeWords (EltTy.packing .f32)
  hwxs0_4 : ∀ i : grid0.Coords, EltTy.bits .f32 = 32 ∨ (Rect.unit (s := S3072x2) (fun _ => 0) (fun a => (Pipeline.Clip.of (cc0_transform_4 i a) (S3072x2.size a) (S1000000x2.size a)).extent (S3072x2.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S3072x4.size a < S1000000x4.size a
  hwx0_5 : ∀ i : grid0.Coords, EltTy.bits .f32 = 32 ∨ (Rect.unit (s := S1000000x4) (fun a => cc0_transform_5 i a * S3072x4.size a) (fun a => (Pipeline.Clip.of (cc0_transform_5 i a) (S3072x4.size a) (S1000000x4.size a)).extent (S3072x4.size a)) fun a => Pipeline.Clip.inb (Pipeline.Clip.ok_of (hstart0_5 i a))).WholeWords (EltTy.packing .f32)
  hwxs0_5 : ∀ i : grid0.Coords, EltTy.bits .f32 = 32 ∨ (Rect.unit (s := S3072x4) (fun _ => 0) (fun a => (Pipeline.Clip.of (cc0_transform_5 i a) (S3072x4.size a) (S1000000x4.size a)).extent (S3072x4.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S3072x4.size a < S1000000x4.size a
  hwx0_6 : ∀ i : grid0.Coords, EltTy.bits .f32 = 32 ∨ (Rect.unit (s := S1000000x4) (fun a => cc0_transform_6 i a * S3072x4.size a) (fun a => (Pipeline.Clip.of (cc0_transform_6 i a) (S3072x4.size a) (S1000000x4.size a)).extent (S3072x4.size a)) fun a => Pipeline.Clip.inb (Pipeline.Clip.ok_of (hstart0_6 i a))).WholeWords (EltTy.packing .f32)
  hwxs0_6 : ∀ i : grid0.Coords, EltTy.bits .f32 = 32 ∨ (Rect.unit (s := S3072x4) (fun _ => 0) (fun a => (Pipeline.Clip.of (cc0_transform_6 i a) (S3072x4.size a) (S1000000x4.size a)).extent (S3072x4.size a)) fun a => (Nat.zero_add _).trans_le (Pipeline.Clip.extent_le (Pipeline.Clip.ok_of (hstart0_6 i a)))).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S3072x14.size a < S1000000x14.size a
  hwx0_7 : ∀ i : grid0.Coords, EltTy.bits .f32 = 32 ∨ (Rect.unit (s := S1000000x14) (fun a => cc0_transform_7 i a * S3072x14.size a) (fun a => (Pipeline.Clip.of (cc0_transform_7 i a) (S3072x14.size a) (S1000000x14.size a)).extent (S3072x14.size a)) fun a => Pipeline.Clip.inb (Pipeline.Clip.ok_of (hstart0_7 i a))).WholeWords (EltTy.packing .f32)
  hwxs0_7 : ∀ i : grid0.Coords, EltTy.bits .f32 = 32 ∨ (Rect.unit (s := S3072x14) (fun _ => 0) (fun a => (Pipeline.Clip.of (cc0_transform_7 i a) (S3072x14.size a) (S1000000x14.size a)).extent (S3072x14.size a)) fun a => (Nat.zero_add _).trans_le (Pipeline.Clip.extent_le (Pipeline.Clip.ok_of (hstart0_7 i a)))).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hstart0_8 : ∀ (i : grid0.Coords) a, cc0_transform_8 i a * S3072x7.size a < S1000000x7.size a
  hwx0_8 : ∀ i : grid0.Coords, EltTy.bits .f32 = 32 ∨ (Rect.unit (s := S1000000x7) (fun a => cc0_transform_8 i a * S3072x7.size a) (fun a => (Pipeline.Clip.of (cc0_transform_8 i a) (S3072x7.size a) (S1000000x7.size a)).extent (S3072x7.size a)) fun a => Pipeline.Clip.inb (Pipeline.Clip.ok_of (hstart0_8 i a))).WholeWords (EltTy.packing .f32)
  hwxs0_8 : ∀ i : grid0.Coords, EltTy.bits .f32 = 32 ∨ (Rect.unit (s := S3072x7) (fun _ => 0) (fun a => (Pipeline.Clip.of (cc0_transform_8 i a) (S3072x7.size a) (S1000000x7.size a)).extent (S3072x7.size a)) fun a => (Nat.zero_add _).trans_le (Pipeline.Clip.extent_le (Pipeline.Clip.ok_of (hstart0_8 i a)))).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hstart0_9 : ∀ (i : grid0.Coords) a, cc0_transform_9 i a * S3072x7.size a < S1000000x7.size a
  hwx0_9 : ∀ i : grid0.Coords, EltTy.bits .f32 = 32 ∨ (Rect.unit (s := S1000000x7) (fun a => cc0_transform_9 i a * S3072x7.size a) (fun a => (Pipeline.Clip.of (cc0_transform_9 i a) (S3072x7.size a) (S1000000x7.size a)).extent (S3072x7.size a)) fun a => Pipeline.Clip.inb (Pipeline.Clip.ok_of (hstart0_9 i a))).WholeWords (EltTy.packing .f32)
  hwxs0_9 : ∀ i : grid0.Coords, EltTy.bits .f32 = 32 ∨ (Rect.unit (s := S3072x7) (fun _ => 0) (fun a => (Pipeline.Clip.of (cc0_transform_9 i a) (S3072x7.size a) (S1000000x7.size a)).extent (S3072x7.size a)) fun a => (Nat.zero_add _).trans_le (Pipeline.Clip.extent_le (Pipeline.Clip.ok_of (hstart0_9 i a)))).WholeWords (EltTy.packing .f32)

variable [Facts₀]

abbrev win0_0 : Pipeline.Window sig grid0 :=
  Pipeline.Window.ofSpecClip (Memref.whole main_arg0) S3072x2.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S3072x2.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg2) S3072x7.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_arg3) S3072x7.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v0_0) S3072x2.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v0_1) S3072x4.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v0_2) S3072x4.size cc0_transform_6 reads0_6 true false 2 stage0_6 sem0_6
    hrank0 hreads0_6 hstart0_6 nbuf0_6 (Memref.isWhole_whole _) hwx0_6 hwxs0_6 hstage0_6

abbrev win0_7 : Pipeline.Window sig grid0 :=
  Pipeline.Window.ofSpecClip (Memref.whole main_v0_3) S3072x14.size cc0_transform_7 reads0_7 true false 2 stage0_7 sem0_7
    hrank0 hreads0_7 hstart0_7 nbuf0_7 (Memref.isWhole_whole _) hwx0_7 hwxs0_7 hstage0_7

abbrev win0_8 : Pipeline.Window sig grid0 :=
  Pipeline.Window.ofSpecClip (Memref.whole main_v0_4) S3072x7.size cc0_transform_8 reads0_8 true false 2 stage0_8 sem0_8
    hrank0 hreads0_8 hstart0_8 nbuf0_8 (Memref.isWhole_whole _) hwx0_8 hwxs0_8 hstage0_8

abbrev win0_9 : Pipeline.Window sig grid0 :=
  Pipeline.Window.ofSpecClip (Memref.whole main_v0_5) S3072x7.size cc0_transform_9 reads0_9 true false 2 stage0_9 sem0_9
    hrank0 hreads0_9 hstart0_9 nbuf0_9 (Memref.isWhole_whole _) hwx0_9 hwxs0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S1000000x7 : Shape := ⟨2, ![1000000, 7]⟩
abbrev S1000000x1 : Shape := ⟨2, ![1000000, 1]⟩
abbrev S1000000 : Shape := ⟨1, ![1000000]⟩
abbrev S_ : Shape := ⟨0, ![]⟩
abbrev S1000000x1x2 : Shape := ⟨3, ![1000000, 1, 2]⟩
abbrev S1000000x2x2 : Shape := ⟨3, ![1000000, 2, 2]⟩
abbrev S1000000x1x7 : Shape := ⟨3, ![1000000, 1, 7]⟩
abbrev S1000000x2x7 : Shape := ⟨3, ![1000000, 2, 7]⟩

abbrev nBuf : Space → Nat
  | .hbm => 418
  | .vmem => 0
  | .smem => 0
  | _ => 0

abbrev hbmTy0_0 (i : Nat) : BufTy := match i % 128 with
  | 0 => ⟨S1000000x2, .f32⟩
  | 1 => ⟨S1000000x2, .f32⟩
  | 2 => ⟨S1000000x7, .f32⟩
  | 3 => ⟨S1000000x7, .f32⟩
  | 4 => ⟨S1000000x1, .f32⟩
  | 5 => ⟨S1000000, .f32⟩
  | 6 => ⟨S1000000x1, .f32⟩
  | 7 => ⟨S1000000, .f32⟩
  | 8 => ⟨S1000000x1, .f32⟩
  | 9 => ⟨S1000000, .f32⟩
  | 10 => ⟨S1000000x1, .f32⟩
  | 11 => ⟨S1000000, .f32⟩
  | 12 => ⟨S1000000, .f32⟩
  | 13 => ⟨S_, .f32⟩
  | 14 => ⟨S1000000, .f32⟩
  | 15 => ⟨S1000000, .f32⟩
  | 16 => ⟨S1000000, .f32⟩
  | 17 => ⟨S_, .f32⟩
  | 18 => ⟨S1000000, .f32⟩
  | 19 => ⟨S1000000, .f32⟩
  | 20 => ⟨S1000000x1, .f32⟩
  | 21 => ⟨S1000000x1, .f32⟩
  | 22 => ⟨S1000000x2, .f32⟩
  | 23 => ⟨S1000000, .f32⟩
  | 24 => ⟨S1000000, .f32⟩
  | 25 => ⟨S_, .f32⟩
  | 26 => ⟨S1000000, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S1000000, .f32⟩
  | 33 => ⟨S_, .f32⟩
  | 34 => ⟨S1000000, .f32⟩
  | 35 => ⟨S1000000x1, .f32⟩
  | 36 => ⟨S1000000x1, .f32⟩
  | 37 => ⟨S1000000x2, .f32⟩
  | 38 => ⟨S1000000x1, .f32⟩
  | 39 => ⟨S1000000x1, .f32⟩
  | 40 => ⟨S1000000x2, .f32⟩
  | 41 => ⟨S1000000x1x2, .f32⟩
  | 42 => ⟨S1000000x1x2, .f32⟩
  | 43 => ⟨S1000000x2x2, .f32⟩
  | 44 => ⟨S1000000, .f32⟩
  | 45 => ⟨S1000000, .f32⟩
  | 46 => ⟨S_, .f32⟩
  | 47 => ⟨S1000000, .f32⟩
  | 48 => ⟨S1000000, .f32⟩
  | 49 => ⟨S_, .f32⟩
  | 50 => ⟨S1000000, .f32⟩
  | 51 => ⟨S_, .f32⟩
  | 52 => ⟨S1000000, .f32⟩
  | 53 => ⟨S1000000x1, .f32⟩
  | 54 => ⟨S1000000x1, .f32⟩
  | 55 => ⟨S1000000x2, .f32⟩
  | 56 => ⟨S1000000x1, .f32⟩
  | 57 => ⟨S1000000x1, .f32⟩
  | 58 => ⟨S1000000x2, .f32⟩
  | 59 => ⟨S1000000x1x2, .f32⟩
  | 60 => ⟨S1000000x1x2, .f32⟩
  | 61 => ⟨S1000000x2x2, .f32⟩
  | 62 => ⟨S_, .f32⟩
  | 63 => ⟨S1000000, .f32⟩
  | 64 => ⟨S1000000, .f32⟩
  | 65 => ⟨S_, .f32⟩
  | 66 => ⟨S1000000, .f32⟩
  | 67 => ⟨S1000000, .f32⟩
  | 68 => ⟨S1000000, .f32⟩
  | 69 => ⟨S_, .f32⟩
  | 70 => ⟨S1000000, .f32⟩
  | 71 => ⟨S1000000, .f32⟩
  | 72 => ⟨S_, .f32⟩
  | 73 => ⟨S1000000, .f32⟩
  | 74 => ⟨S1000000, .f32⟩
  | 75 => ⟨S1000000, .f32⟩
  | 76 => ⟨S_, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S1000000, .f32⟩
  | 83 => ⟨S_, .f32⟩
  | 84 => ⟨S1000000, .f32⟩
  | 85 => ⟨S1000000, .f32⟩
  | 86 => ⟨S_, .f32⟩
  | 87 => ⟨S1000000, .f32⟩
  | 88 => ⟨S1000000, .f32⟩
  | 89 => ⟨S_, .f32⟩
  | 90 => ⟨S1000000, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S_, .f32⟩
  | 104 => ⟨S1000000, .f32⟩
  | 105 => ⟨S1000000, .f32⟩
  | 106 => ⟨S1000000, .f32⟩
  | 107 => ⟨S_, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S_, .f32⟩
  | 114 => ⟨S1000000, .f32⟩
  | 115 => ⟨S1000000, .f32⟩
  | 116 => ⟨S1000000, .f32⟩
  | 117 => ⟨S_, .f32⟩
  | 118 => ⟨S1000000, .f32⟩
  | 119 => ⟨S1000000, .f32⟩
  | 120 => ⟨S_, .f32⟩
  | 121 => ⟨S1000000, .f32⟩
  | 122 => ⟨S1000000, .f32⟩
  | 123 => ⟨S_, .f32⟩
  | 124 => ⟨S1000000, .f32⟩
  | 125 => ⟨S1000000, .f32⟩
  | 126 => ⟨S1000000, .f32⟩
  | 127 => ⟨S_, .f32⟩
  | _ => ⟨S1000000x2, .f32⟩

abbrev hbmTy0_1 (i : Nat) : BufTy := match i % 128 with
  | 0 => ⟨S1000000, .f32⟩
  | 1 => ⟨S1000000, .f32⟩
  | 2 => ⟨S_, .f32⟩
  | 3 => ⟨S1000000, .f32⟩
  | 4 => ⟨S1000000, .f32⟩
  | 5 => ⟨S_, .f32⟩
  | 6 => ⟨S1000000, .f32⟩
  | 7 => ⟨S1000000, .f32⟩
  | 8 => ⟨S1000000, .f32⟩
  | 9 => ⟨S_, .f32⟩
  | 10 => ⟨S1000000, .f32⟩
  | 11 => ⟨S1000000, .f32⟩
  | 12 => ⟨S1000000x1, .f32⟩
  | 13 => ⟨S1000000x1, .f32⟩
  | 14 => ⟨S1000000x1, .f32⟩
  | 15 => ⟨S1000000x1, .f32⟩
  | 16 => ⟨S1000000x1, .f32⟩
  | 17 => ⟨S1000000x1, .f32⟩
  | 18 => ⟨S1000000x1, .f32⟩
  | 19 => ⟨S1000000x7, .f32⟩
  | 20 => ⟨S1000000x1, .f32⟩
  | 21 => ⟨S1000000x1, .f32⟩
  | 22 => ⟨S1000000x1, .f32⟩
  | 23 => ⟨S1000000x1, .f32⟩
  | 24 => ⟨S1000000x1, .f32⟩
  | 25 => ⟨S1000000x1, .f32⟩
  | 26 => ⟨S1000000x1, .f32⟩
  | 27 => ⟨S1000000x7, .f32⟩
  | 28 => ⟨S1000000x1x7, .f32⟩
  | 29 => ⟨S1000000x1x7, .f32⟩
  | 30 => ⟨S1000000x2x7, .f32⟩
  | 31 => ⟨S_, .f32⟩
  | 32 => ⟨S1000000, .f32⟩
  | 33 => ⟨S1000000, .f32⟩
  | 34 => ⟨S_, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S_, .f32⟩
  | 41 => ⟨S1000000, .f32⟩
  | 42 => ⟨S1000000, .f32⟩
  | 43 => ⟨S_, .f32⟩
  | 44 => ⟨S1000000, .f32⟩
  | 45 => ⟨S1000000, .f32⟩
  | 46 => ⟨S1000000, .f32⟩
  | 47 => ⟨S1000000, .f32⟩
  | 48 => ⟨S_, .f32⟩
  | 49 => ⟨S1000000, .f32⟩
  | 50 => ⟨S1000000, .f32⟩
  | 51 => ⟨S_, .f32⟩
  | 52 => ⟨S1000000, .f32⟩
  | 53 => ⟨S1000000, .f32⟩
  | 54 => ⟨S_, .f32⟩
  | 55 => ⟨S1000000, .f32⟩
  | 56 => ⟨S1000000, .f32⟩
  | 57 => ⟨S1000000, .f32⟩
  | 58 => ⟨S_, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S1000000, .f32⟩
  | 65 => ⟨S_, .f32⟩
  | 66 => ⟨S1000000, .f32⟩
  | 67 => ⟨S1000000, .f32⟩
  | 68 => ⟨S_, .f32⟩
  | 69 => ⟨S1000000, .f32⟩
  | 70 => ⟨S1000000, .f32⟩
  | 71 => ⟨S_, .f32⟩
  | 72 => ⟨S1000000, .f32⟩
  | 73 => ⟨S1000000, .f32⟩
  | 74 => ⟨S_, .f32⟩
  | 75 => ⟨S1000000, .f32⟩
  | 76 => ⟨S1000000, .f32⟩
  | 77 => ⟨S_, .f32⟩
  | 78 => ⟨S1000000, .f32⟩
  | 79 => ⟨S1000000, .f32⟩
  | 80 => ⟨S1000000, .f32⟩
  | 81 => ⟨S1000000, .f32⟩
  | 82 => ⟨S_, .f32⟩
  | 83 => ⟨S1000000, .f32⟩
  | 84 => ⟨S1000000, .f32⟩
  | 85 => ⟨S_, .f32⟩
  | 86 => ⟨S1000000, .f32⟩
  | 87 => ⟨S1000000, .f32⟩
  | 88 => ⟨S_, .f32⟩
  | 89 => ⟨S1000000, .f32⟩
  | 90 => ⟨S1000000, .f32⟩
  | 91 => ⟨S1000000, .f32⟩
  | 92 => ⟨S_, .f32⟩
  | 93 => ⟨S1000000, .f32⟩
  | 94 => ⟨S1000000, .f32⟩
  | 95 => ⟨S_, .f32⟩
  | 96 => ⟨S1000000, .f32⟩
  | 97 => ⟨S1000000, .f32⟩
  | 98 => ⟨S1000000, .f32⟩
  | 99 => ⟨S1000000, .f32⟩
  | 100 => ⟨S_, .f32⟩
  | 101 => ⟨S1000000, .f32⟩
  | 102 => ⟨S1000000, .f32⟩
  | 103 => ⟨S_, .f32⟩
  | 104 => ⟨S1000000, .f32⟩
  | 105 => ⟨S1000000, .f32⟩
  | 106 => ⟨S1000000, .f32⟩
  | 107 => ⟨S_, .f32⟩
  | 108 => ⟨S1000000, .f32⟩
  | 109 => ⟨S1000000, .f32⟩
  | 110 => ⟨S_, .f32⟩
  | 111 => ⟨S1000000, .f32⟩
  | 112 => ⟨S1000000, .f32⟩
  | 113 => ⟨S1000000, .f32⟩
  | 114 => ⟨S_, .f32⟩
  | 115 => ⟨S1000000, .f32⟩
  | 116 => ⟨S1000000, .f32⟩
  | 117 => ⟨S1000000, .f32⟩
  | 118 => ⟨S_, .f32⟩
  | 119 => ⟨S1000000, .f32⟩
  | 120 => ⟨S1000000, .f32⟩
  | 121 => ⟨S_, .f32⟩
  | 122 => ⟨S1000000, .f32⟩
  | 123 => ⟨S1000000, .f32⟩
  | 124 => ⟨S1000000, .f32⟩
  | 125 => ⟨S1000000, .f32⟩
  | 126 => ⟨S_, .f32⟩
  | 127 => ⟨S1000000, .f32⟩
  | _ => ⟨S1000000x2, .f32⟩

abbrev hbmTy0_2 (i : Nat) : BufTy := match i % 128 with
  | 0 => ⟨S1000000, .f32⟩
  | 1 => ⟨S_, .f32⟩
  | 2 => ⟨S1000000, .f32⟩
  | 3 => ⟨S1000000, .f32⟩
  | 4 => ⟨S_, .f32⟩
  | 5 => ⟨S1000000, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S_, .f32⟩
  | 19 => ⟨S1000000, .f32⟩
  | 20 => ⟨S1000000, .f32⟩
  | 21 => ⟨S_, .f32⟩
  | 22 => ⟨S1000000, .f32⟩
  | 23 => ⟨S1000000, .f32⟩
  | 24 => ⟨S1000000, .f32⟩
  | 25 => ⟨S_, .f32⟩
  | 26 => ⟨S1000000, .f32⟩
  | 27 => ⟨S1000000, .f32⟩
  | 28 => ⟨S1000000, .f32⟩
  | 29 => ⟨S_, .f32⟩
  | 30 => ⟨S1000000, .f32⟩
  | 31 => ⟨S1000000, .f32⟩
  | 32 => ⟨S_, .f32⟩
  | 33 => ⟨S1000000, .f32⟩
  | 34 => ⟨S1000000, .f32⟩
  | 35 => ⟨S1000000, .f32⟩
  | 36 => ⟨S1000000, .f32⟩
  | 37 => ⟨S_, .f32⟩
  | 38 => ⟨S1000000, .f32⟩
  | 39 => ⟨S1000000, .f32⟩
  | 40 => ⟨S_, .f32⟩
  | 41 => ⟨S1000000, .f32⟩
  | 42 => ⟨S1000000, .f32⟩
  | 43 => ⟨S_, .f32⟩
  | 44 => ⟨S1000000, .f32⟩
  | 45 => ⟨S1000000, .f32⟩
  | 46 => ⟨S1000000, .f32⟩
  | 47 => ⟨S_, .f32⟩
  | 48 => ⟨S1000000, .f32⟩
  | 49 => ⟨S1000000, .f32⟩
  | 50 => ⟨S_, .f32⟩
  | 51 => ⟨S1000000, .f32⟩
  | 52 => ⟨S1000000, .f32⟩
  | 53 => ⟨S1000000, .f32⟩
  | 54 => ⟨S1000000, .f32⟩
  | 55 => ⟨S_, .f32⟩
  | 56 => ⟨S1000000, .f32⟩
  | 57 => ⟨S1000000, .f32⟩
  | 58 => ⟨S_, .f32⟩
  | 59 => ⟨S1000000, .f32⟩
  | 60 => ⟨S1000000, .f32⟩
  | 61 => ⟨S_, .f32⟩
  | 62 => ⟨S1000000, .f32⟩
  | 63 => ⟨S1000000, .f32⟩
  | 64 => ⟨S_, .f32⟩
  | 65 => ⟨S1000000, .f32⟩
  | 66 => ⟨S1000000, .f32⟩
  | 67 => ⟨S1000000, .f32⟩
  | 68 => ⟨S1000000, .f32⟩
  | 69 => ⟨S_, .f32⟩
  | 70 => ⟨S1000000, .f32⟩
  | 71 => ⟨S1000000, .f32⟩
  | 72 => ⟨S_, .f32⟩
  | 73 => ⟨S1000000, .f32⟩
  | 74 => ⟨S1000000, .f32⟩
  | 75 => ⟨S_, .f32⟩
  | 76 => ⟨S1000000, .f32⟩
  | 77 => ⟨S1000000, .f32⟩
  | 78 => ⟨S1000000, .f32⟩
  | 79 => ⟨S_, .f32⟩
  | 80 => ⟨S1000000, .f32⟩
  | 81 => ⟨S1000000, .f32⟩
  | 82 => ⟨S_, .f32⟩
  | 83 => ⟨S1000000, .f32⟩
  | 84 => ⟨S1000000, .f32⟩
  | 85 => ⟨S1000000, .f32⟩
  | 86 => ⟨S1000000, .f32⟩
  | 87 => ⟨S_, .f32⟩
  | 88 => ⟨S1000000, .f32⟩
  | 89 => ⟨S1000000, .f32⟩
  | 90 => ⟨S_, .f32⟩
  | 91 => ⟨S1000000, .f32⟩
  | 92 => ⟨S1000000, .f32⟩
  | 93 => ⟨S_, .f32⟩
  | 94 => ⟨S1000000, .f32⟩
  | 95 => ⟨S1000000, .f32⟩
  | 96 => ⟨S_, .f32⟩
  | 97 => ⟨S1000000, .f32⟩
  | 98 => ⟨S1000000, .f32⟩
  | 99 => ⟨S1000000, .f32⟩
  | 100 => ⟨S1000000, .f32⟩
  | 101 => ⟨S_, .f32⟩
  | 102 => ⟨S1000000, .f32⟩
  | 103 => ⟨S1000000, .f32⟩
  | 104 => ⟨S_, .f32⟩
  | 105 => ⟨S1000000, .f32⟩
  | 106 => ⟨S1000000, .f32⟩
  | 107 => ⟨S_, .f32⟩
  | 108 => ⟨S1000000, .f32⟩
  | 109 => ⟨S1000000, .f32⟩
  | 110 => ⟨S1000000, .f32⟩
  | 111 => ⟨S_, .f32⟩
  | 112 => ⟨S1000000, .f32⟩
  | 113 => ⟨S1000000, .f32⟩
  | 114 => ⟨S_, .f32⟩
  | 115 => ⟨S1000000, .f32⟩
  | 116 => ⟨S1000000, .f32⟩
  | 117 => ⟨S1000000, .f32⟩
  | 118 => ⟨S1000000, .f32⟩
  | 119 => ⟨S_, .f32⟩
  | 120 => ⟨S1000000, .f32⟩
  | 121 => ⟨S1000000, .f32⟩
  | 122 => ⟨S_, .f32⟩
  | 123 => ⟨S1000000, .f32⟩
  | 124 => ⟨S1000000, .f32⟩
  | 125 => ⟨S_, .f32⟩
  | 126 => ⟨S1000000, .f32⟩
  | 127 => ⟨S1000000, .f32⟩
  | _ => ⟨S1000000x2, .f32⟩

abbrev hbmTy0_3 (i : Nat) : BufTy := match i % 128 with
  | 0 => ⟨S_, .f32⟩
  | 1 => ⟨S1000000, .f32⟩
  | 2 => ⟨S1000000, .f32⟩
  | 3 => ⟨S1000000, .f32⟩
  | 4 => ⟨S1000000, .f32⟩
  | 5 => ⟨S_, .f32⟩
  | 6 => ⟨S1000000, .f32⟩
  | 7 => ⟨S1000000, .f32⟩
  | 8 => ⟨S_, .f32⟩
  | 9 => ⟨S1000000, .f32⟩
  | 10 => ⟨S1000000, .f32⟩
  | 11 => ⟨S_, .f32⟩
  | 12 => ⟨S1000000, .f32⟩
  | 13 => ⟨S1000000, .f32⟩
  | 14 => ⟨S1000000, .f32⟩
  | 15 => ⟨S_, .f32⟩
  | 16 => ⟨S1000000, .f32⟩
  | 17 => ⟨S1000000, .f32⟩
  | 18 => ⟨S_, .f32⟩
  | 19 => ⟨S1000000, .f32⟩
  | 20 => ⟨S1000000, .f32⟩
  | 21 => ⟨S1000000, .f32⟩
  | 22 => ⟨S1000000x1, .f32⟩
  | 23 => ⟨S1000000x1, .f32⟩
  | 24 => ⟨S1000000x1, .f32⟩
  | 25 => ⟨S1000000x1, .f32⟩
  | 26 => ⟨S1000000x1, .f32⟩
  | 27 => ⟨S1000000x1, .f32⟩
  | 28 => ⟨S1000000x1, .f32⟩
  | 29 => ⟨S1000000x7, .f32⟩
  | 30 => ⟨S1000000x7, .f32⟩
  | 31 => ⟨S_, .f32⟩
  | 32 => ⟨S1000000x7, .f32⟩
  | 33 => ⟨S1000000x7, .f32⟩
  | _ => ⟨S1000000x2, .f32⟩

abbrev hbmTy (i : Nat) : BufTy := match i / 128 with
  | 0 => hbmTy0_0 i
  | 1 => hbmTy0_1 i
  | 2 => hbmTy0_2 i
  | 3 => hbmTy0_3 i
  | _ => ⟨S1000000x2, .f32⟩

abbrev bufTy : (tb : Table) → Fin (tcTables nBuf tb) → BufTy
  | .hbm, ⟨i, _⟩ => hbmTy i
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_4 : Ref sig .tc := ⟨.hbm, 46, rfl⟩
abbrev main_v37 : Ref sig .tc := ⟨.hbm, 47, rfl⟩
abbrev main_v38 : Ref sig .tc := ⟨.hbm, 48, rfl⟩
abbrev main_cst_5 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_cst_8 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_cst_14 : Ref sig .tc := ⟨.hbm, 86, rfl⟩
abbrev main_v67 : Ref sig .tc := ⟨.hbm, 87, rfl⟩
abbrev main_v68 : Ref sig .tc := ⟨.hbm, 88, rfl⟩
abbrev main_cst_15 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩
abbrev main_cst_17 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_cst_19 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_20 : Ref sig .tc := ⟨.hbm, 107, rfl⟩
abbrev main_v82 : Ref sig .tc := ⟨.hbm, 108, rfl⟩
abbrev main_v83 : Ref sig .tc := ⟨.hbm, 109, rfl⟩
abbrev main_cst_21 : Ref sig .tc := ⟨.hbm, 110, rfl⟩
abbrev main_v84 : Ref sig .tc := ⟨.hbm, 111, rfl⟩
abbrev main_v85 : Ref sig .tc := ⟨.hbm, 112, rfl⟩
abbrev main_cst_22 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_23 : Ref sig .tc := ⟨.hbm, 117, rfl⟩
abbrev main_v89 : Ref sig .tc := ⟨.hbm, 118, rfl⟩
abbrev main_v90 : Ref sig .tc := ⟨.hbm, 119, rfl⟩
abbrev main_cst_24 : Ref sig .tc := ⟨.hbm, 120, rfl⟩
abbrev main_v91 : Ref sig .tc := ⟨.hbm, 121, rfl⟩
abbrev main_v92 : Ref sig .tc := ⟨.hbm, 122, rfl⟩
abbrev main_cst_25 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_26 : Ref sig .tc := ⟨.hbm, 127, rfl⟩
abbrev main_v96 : Ref sig .tc := ⟨.hbm, 128, rfl⟩
abbrev main_v97 : Ref sig .tc := ⟨.hbm, 129, rfl⟩
abbrev main_cst_27 : Ref sig .tc := ⟨.hbm, 130, rfl⟩
abbrev main_v98 : Ref sig .tc := ⟨.hbm, 131, rfl⟩
abbrev main_v99 : Ref sig .tc := ⟨.hbm, 132, rfl⟩
abbrev main_cst_28 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_cst_29 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_cst_30 : Ref sig .tc := ⟨.hbm, 159, rfl⟩
abbrev main_v124 : Ref sig .tc := ⟨.hbm, 160, rfl⟩
abbrev main_v125 : Ref sig .tc := ⟨.hbm, 161, rfl⟩
abbrev main_cst_31 : Ref sig .tc := ⟨.hbm, 162, rfl⟩
abbrev main_v126 : Ref sig .tc := ⟨.hbm, 163, rfl⟩
abbrev main_v127 : Ref sig .tc := ⟨.hbm, 164, rfl⟩
abbrev main_cst_32 : Ref sig .tc := ⟨.hbm, 165, rfl⟩
abbrev main_v128 : Ref sig .tc := ⟨.hbm, 166, rfl⟩
abbrev main_v129 : Ref sig .tc := ⟨.hbm, 167, rfl⟩
abbrev main_cst_33 : Ref sig .tc := ⟨.hbm, 168, rfl⟩
abbrev main_v130 : Ref sig .tc := ⟨.hbm, 169, rfl⟩
abbrev main_v131 : Ref sig .tc := ⟨.hbm, 170, rfl⟩
abbrev main_cst_34 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_cst_35 : Ref sig .tc := ⟨.hbm, 176, rfl⟩
abbrev main_v136 : Ref sig .tc := ⟨.hbm, 177, rfl⟩
abbrev main_v137 : Ref sig .tc := ⟨.hbm, 178, rfl⟩
abbrev main_cst_36 : Ref sig .tc := ⟨.hbm, 179, rfl⟩
abbrev main_v138 : Ref sig .tc := ⟨.hbm, 180, rfl⟩
abbrev main_v139 : Ref sig .tc := ⟨.hbm, 181, rfl⟩
abbrev main_cst_37 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_38 : Ref sig .tc := ⟨.hbm, 186, rfl⟩
abbrev main_v143 : Ref sig .tc := ⟨.hbm, 187, rfl⟩
abbrev main_v144 : Ref sig .tc := ⟨.hbm, 188, rfl⟩
abbrev main_cst_39 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_40 : Ref sig .tc := ⟨.hbm, 193, rfl⟩
abbrev main_v148 : Ref sig .tc := ⟨.hbm, 194, rfl⟩
abbrev main_v149 : Ref sig .tc := ⟨.hbm, 195, rfl⟩
abbrev main_cst_41 : Ref sig .tc := ⟨.hbm, 196, rfl⟩
abbrev main_v150 : Ref sig .tc := ⟨.hbm, 197, rfl⟩
abbrev main_v151 : Ref sig .tc := ⟨.hbm, 198, rfl⟩
abbrev main_cst_42 : Ref sig .tc := ⟨.hbm, 199, rfl⟩
abbrev main_v152 : Ref sig .tc := ⟨.hbm, 200, rfl⟩
abbrev main_v153 : Ref sig .tc := ⟨.hbm, 201, rfl⟩
abbrev main_cst_43 : Ref sig .tc := ⟨.hbm, 202, rfl⟩
abbrev main_v154 : Ref sig .tc := ⟨.hbm, 203, rfl⟩
abbrev main_v155 : Ref sig .tc := ⟨.hbm, 204, rfl⟩
abbrev main_cst_44 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_cst_45 : Ref sig .tc := ⟨.hbm, 210, rfl⟩
abbrev main_v160 : Ref sig .tc := ⟨.hbm, 211, rfl⟩
abbrev main_v161 : Ref sig .tc := ⟨.hbm, 212, rfl⟩
abbrev main_cst_46 : Ref sig .tc := ⟨.hbm, 213, rfl⟩
abbrev main_v162 : Ref sig .tc := ⟨.hbm, 214, rfl⟩
abbrev main_v163 : Ref sig .tc := ⟨.hbm, 215, rfl⟩
abbrev main_cst_47 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_cst_48 : Ref sig .tc := ⟨.hbm, 220, rfl⟩
abbrev main_v167 : Ref sig .tc := ⟨.hbm, 221, rfl⟩
abbrev main_v168 : Ref sig .tc := ⟨.hbm, 222, rfl⟩
abbrev main_cst_49 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_cst_50 : Ref sig .tc := ⟨.hbm, 228, rfl⟩
abbrev main_v173 : Ref sig .tc := ⟨.hbm, 229, rfl⟩
abbrev main_v174 : Ref sig .tc := ⟨.hbm, 230, rfl⟩
abbrev main_cst_51 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_cst_52 : Ref sig .tc := ⟨.hbm, 235, rfl⟩
abbrev main_v178 : Ref sig .tc := ⟨.hbm, 236, rfl⟩
abbrev main_v179 : Ref sig .tc := ⟨.hbm, 237, rfl⟩
abbrev main_cst_53 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_cst_54 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_cst_55 : Ref sig .tc := ⟨.hbm, 246, rfl⟩
abbrev main_v186 : Ref sig .tc := ⟨.hbm, 247, rfl⟩
abbrev main_v187 : Ref sig .tc := ⟨.hbm, 248, rfl⟩
abbrev main_cst_56 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_cst_57 : Ref sig .tc := ⟨.hbm, 254, rfl⟩
abbrev main_v192 : Ref sig .tc := ⟨.hbm, 255, rfl⟩
abbrev main_v193 : Ref sig .tc := ⟨.hbm, 256, rfl⟩
abbrev main_cst_58 : Ref sig .tc := ⟨.hbm, 257, rfl⟩
abbrev main_v194 : Ref sig .tc := ⟨.hbm, 258, rfl⟩
abbrev main_v195 : Ref sig .tc := ⟨.hbm, 259, rfl⟩
abbrev main_cst_59 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_60 : Ref sig .tc := ⟨.hbm, 264, rfl⟩
abbrev main_v199 : Ref sig .tc := ⟨.hbm, 265, rfl⟩
abbrev main_v200 : Ref sig .tc := ⟨.hbm, 266, rfl⟩
abbrev main_cst_61 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_cst_62 : Ref sig .tc := ⟨.hbm, 271, rfl⟩
abbrev main_v204 : Ref sig .tc := ⟨.hbm, 272, rfl⟩
abbrev main_v205 : Ref sig .tc := ⟨.hbm, 273, rfl⟩
abbrev main_cst_63 : Ref sig .tc := ⟨.hbm, 274, rfl⟩
abbrev main_v206 : Ref sig .tc := ⟨.hbm, 275, rfl⟩
abbrev main_v207 : Ref sig .tc := ⟨.hbm, 276, rfl⟩
abbrev main_cst_64 : Ref sig .tc := ⟨.hbm, 277, rfl⟩
abbrev main_v208 : Ref sig .tc := ⟨.hbm, 278, rfl⟩
abbrev main_v209 : Ref sig .tc := ⟨.hbm, 279, rfl⟩
abbrev main_v210 : Ref sig .tc := ⟨.hbm, 280, rfl⟩
abbrev main_cst_65 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_cst_66 : Ref sig .tc := ⟨.hbm, 285, rfl⟩
abbrev main_v214 : Ref sig .tc := ⟨.hbm, 286, rfl⟩
abbrev main_v215 : Ref sig .tc := ⟨.hbm, 287, rfl⟩
abbrev main_cst_67 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_cst_68 : Ref sig .tc := ⟨.hbm, 293, rfl⟩
abbrev main_v220 : Ref sig .tc := ⟨.hbm, 294, rfl⟩
abbrev main_v221 : Ref sig .tc := ⟨.hbm, 295, rfl⟩
abbrev main_cst_69 : Ref sig .tc := ⟨.hbm, 296, rfl⟩
abbrev main_v222 : Ref sig .tc := ⟨.hbm, 297, rfl⟩
abbrev main_v223 : Ref sig .tc := ⟨.hbm, 298, rfl⟩
abbrev main_cst_70 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_cst_71 : Ref sig .tc := ⟨.hbm, 303, rfl⟩
abbrev main_v227 : Ref sig .tc := ⟨.hbm, 304, rfl⟩
abbrev main_v228 : Ref sig .tc := ⟨.hbm, 305, rfl⟩
abbrev main_cst_72 : Ref sig .tc := ⟨.hbm, 306, rfl⟩
abbrev main_v229 : Ref sig .tc := ⟨.hbm, 307, rfl⟩
abbrev main_v230 : Ref sig .tc := ⟨.hbm, 308, rfl⟩
abbrev main_v231 : Ref sig .tc := ⟨.hbm, 309, rfl⟩
abbrev main_v232 : Ref sig .tc := ⟨.hbm, 310, rfl⟩
abbrev main_cst_73 : Ref sig .tc := ⟨.hbm, 311, rfl⟩
abbrev main_v233 : Ref sig .tc := ⟨.hbm, 312, rfl⟩
abbrev main_v234 : Ref sig .tc := ⟨.hbm, 313, rfl⟩
abbrev main_cst_74 : Ref sig .tc := ⟨.hbm, 314, rfl⟩
abbrev main_v235 : Ref sig .tc := ⟨.hbm, 315, rfl⟩
abbrev main_v236 : Ref sig .tc := ⟨.hbm, 316, rfl⟩
abbrev main_cst_75 : Ref sig .tc := ⟨.hbm, 317, rfl⟩
abbrev main_v237 : Ref sig .tc := ⟨.hbm, 318, rfl⟩
abbrev main_v238 : Ref sig .tc := ⟨.hbm, 319, rfl⟩
abbrev main_cst_76 : Ref sig .tc := ⟨.hbm, 320, rfl⟩
abbrev main_v239 : Ref sig .tc := ⟨.hbm, 321, rfl⟩
abbrev main_v240 : Ref sig .tc := ⟨.hbm, 322, rfl⟩
abbrev main_v241 : Ref sig .tc := ⟨.hbm, 323, rfl⟩
abbrev main_v242 : Ref sig .tc := ⟨.hbm, 324, rfl⟩
abbrev main_cst_77 : Ref sig .tc := ⟨.hbm, 325, rfl⟩
abbrev main_v243 : Ref sig .tc := ⟨.hbm, 326, rfl⟩
abbrev main_v244 : Ref sig .tc := ⟨.hbm, 327, rfl⟩
abbrev main_cst_78 : Ref sig .tc := ⟨.hbm, 328, rfl⟩
abbrev main_v245 : Ref sig .tc := ⟨.hbm, 329, rfl⟩
abbrev main_v246 : Ref sig .tc := ⟨.hbm, 330, rfl⟩
abbrev main_cst_79 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_cst_80 : Ref sig .tc := ⟨.hbm, 335, rfl⟩
abbrev main_v250 : Ref sig .tc := ⟨.hbm, 336, rfl⟩
abbrev main_v251 : Ref sig .tc := ⟨.hbm, 337, rfl⟩
abbrev main_cst_81 : Ref sig .tc := ⟨.hbm, 338, rfl⟩
abbrev main_v252 : Ref sig .tc := ⟨.hbm, 339, rfl⟩
abbrev main_v253 : Ref sig .tc := ⟨.hbm, 340, rfl⟩
abbrev main_v254 : Ref sig .tc := ⟨.hbm, 341, rfl⟩
abbrev main_v255 : Ref sig .tc := ⟨.hbm, 342, rfl⟩
abbrev main_cst_82 : Ref sig .tc := ⟨.hbm, 343, rfl⟩
abbrev main_v256 : Ref sig .tc := ⟨.hbm, 344, rfl⟩
abbrev main_v257 : Ref sig .tc := ⟨.hbm, 345, rfl⟩
abbrev main_cst_83 : Ref sig .tc := ⟨.hbm, 346, rfl⟩
abbrev main_v258 : Ref sig .tc := ⟨.hbm, 347, rfl⟩
abbrev main_v259 : Ref sig .tc := ⟨.hbm, 348, rfl⟩
abbrev main_cst_84 : Ref sig .tc := ⟨.hbm, 349, rfl⟩
abbrev main_v260 : Ref sig .tc := ⟨.hbm, 350, rfl⟩
abbrev main_v261 : Ref sig .tc := ⟨.hbm, 351, rfl⟩
abbrev main_cst_85 : Ref sig .tc := ⟨.hbm, 352, rfl⟩
abbrev main_v262 : Ref sig .tc := ⟨.hbm, 353, rfl⟩
abbrev main_v263 : Ref sig .tc := ⟨.hbm, 354, rfl⟩
abbrev main_v264 : Ref sig .tc := ⟨.hbm, 355, rfl⟩
abbrev main_v265 : Ref sig .tc := ⟨.hbm, 356, rfl⟩
abbrev main_cst_86 : Ref sig .tc := ⟨.hbm, 357, rfl⟩
abbrev main_v266 : Ref sig .tc := ⟨.hbm, 358, rfl⟩
abbrev main_v267 : Ref sig .tc := ⟨.hbm, 359, rfl⟩
abbrev main_cst_87 : Ref sig .tc := ⟨.hbm, 360, rfl⟩
abbrev main_v268 : Ref sig .tc := ⟨.hbm, 361, rfl⟩
abbrev main_v269 : Ref sig .tc := ⟨.hbm, 362, rfl⟩
abbrev main_cst_88 : Ref sig .tc := ⟨.hbm, 363, rfl⟩
abbrev main_v270 : Ref sig .tc := ⟨.hbm, 364, rfl⟩
abbrev main_v271 : Ref sig .tc := ⟨.hbm, 365, rfl⟩
abbrev main_v272 : Ref sig .tc := ⟨.hbm, 366, rfl⟩
abbrev main_cst_89 : Ref sig .tc := ⟨.hbm, 367, rfl⟩
abbrev main_v273 : Ref sig .tc := ⟨.hbm, 368, rfl⟩
abbrev main_v274 : Ref sig .tc := ⟨.hbm, 369, rfl⟩
abbrev main_cst_90 : Ref sig .tc := ⟨.hbm, 370, rfl⟩
abbrev main_v275 : Ref sig .tc := ⟨.hbm, 371, rfl⟩
abbrev main_v276 : Ref sig .tc := ⟨.hbm, 372, rfl⟩
abbrev main_v277 : Ref sig .tc := ⟨.hbm, 373, rfl⟩
abbrev main_v278 : Ref sig .tc := ⟨.hbm, 374, rfl⟩
abbrev main_cst_91 : Ref sig .tc := ⟨.hbm, 375, rfl⟩
abbrev main_v279 : Ref sig .tc := ⟨.hbm, 376, rfl⟩
abbrev main_v280 : Ref sig .tc := ⟨.hbm, 377, rfl⟩
abbrev main_cst_92 : Ref sig .tc := ⟨.hbm, 378, rfl⟩
abbrev main_v281 : Ref sig .tc := ⟨.hbm, 379, rfl⟩
abbrev main_v282 : Ref sig .tc := ⟨.hbm, 380, rfl⟩
abbrev main_cst_93 : Ref sig .tc := ⟨.hbm, 381, rfl⟩
abbrev main_v283 : Ref sig .tc := ⟨.hbm, 382, rfl⟩
abbrev main_v284 : Ref sig .tc := ⟨.hbm, 383, rfl⟩
abbrev main_cst_94 : Ref sig .tc := ⟨.hbm, 384, rfl⟩
abbrev main_v285 : Ref sig .tc := ⟨.hbm, 385, rfl⟩
abbrev main_v286 : Ref sig .tc := ⟨.hbm, 386, rfl⟩
abbrev main_v287 : Ref sig .tc := ⟨.hbm, 387, rfl⟩
abbrev main_v288 : Ref sig .tc := ⟨.hbm, 388, rfl⟩
abbrev main_cst_95 : Ref sig .tc := ⟨.hbm, 389, rfl⟩
abbrev main_v289 : Ref sig .tc := ⟨.hbm, 390, rfl⟩
abbrev main_v290 : Ref sig .tc := ⟨.hbm, 391, rfl⟩
abbrev main_cst_96 : Ref sig .tc := ⟨.hbm, 392, rfl⟩
abbrev main_v291 : Ref sig .tc := ⟨.hbm, 393, rfl⟩
abbrev main_v292 : Ref sig .tc := ⟨.hbm, 394, rfl⟩
abbrev main_cst_97 : Ref sig .tc := ⟨.hbm, 395, rfl⟩
abbrev main_v293 : Ref sig .tc := ⟨.hbm, 396, rfl⟩
abbrev main_v294 : Ref sig .tc := ⟨.hbm, 397, rfl⟩
abbrev main_v295 : Ref sig .tc := ⟨.hbm, 398, rfl⟩
abbrev main_cst_98 : Ref sig .tc := ⟨.hbm, 399, rfl⟩
abbrev main_v296 : Ref sig .tc := ⟨.hbm, 400, rfl⟩
abbrev main_v297 : Ref sig .tc := ⟨.hbm, 401, rfl⟩
abbrev main_cst_99 : Ref sig .tc := ⟨.hbm, 402, rfl⟩
abbrev main_v298 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_v306 : Ref sig .tc := ⟨.hbm, 411, rfl⟩
abbrev main_v307 : Ref sig .tc := ⟨.hbm, 412, rfl⟩
abbrev main_v308 : Ref sig .tc := ⟨.hbm, 413, rfl⟩
abbrev main_v309 : Ref sig .tc := ⟨.hbm, 414, rfl⟩
abbrev main_cst_100 : Ref sig .tc := ⟨.hbm, 415, rfl⟩
abbrev main_v310 : Ref sig .tc := ⟨.hbm, 416, rfl⟩
abbrev main_v311 : Ref sig .tc := ⟨.hbm, 417, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x1_S1000000x1_S1000000x2_d1 : Shape.Concatenates [S1000000x1, S1000000x1] S1000000x2 1
  bcast_S1000000x2_S1000000x1x2_0_2 : S1000000x2.BroadcastsInDim S1000000x1x2 (![0, 2] : Fin 2 → Fin S1000000x1x2.rank)
  concatenates_S1000000x1x2_S1000000x1x2_S1000000x2x2_d1 : Shape.Concatenates [S1000000x1x2, S1000000x1x2] S1000000x2x2 1
  concatenates_S1000000x1_S1000000x1_S1000000x1_S1000000x1_S1000000x1_S1000000x1_S1000000x1_S1000000x7_d1 : Shape.Concatenates [S1000000x1, S1000000x1, S1000000x1, S1000000x1, S1000000x1, S1000000x1, S1000000x1] S1000000x7 1
  bcast_S1000000x7_S1000000x1x7_0_2 : S1000000x7.BroadcastsInDim S1000000x1x7 (![0, 2] : Fin 2 → Fin S1000000x1x7.rank)
  concatenates_S1000000x1x7_S1000000x1x7_S1000000x2x7_d1 : Shape.Concatenates [S1000000x1x7, S1000000x1x7] S1000000x2x7 1
  bcast_S_S1000000x7 : S_.BroadcastsInDim S1000000x7 (![] : Fin 0 → Fin S1000000x7.rank)

variable [Facts₀]

class Facts : Prop extends Facts₀ where

variable [Facts]
-- ==== Proof.BitsRun.lean ====
/-
  The kernel body of one grid point, run once on any whole staging buffers and scratch buffers: the four input
  buffers are read whole and left as they were; each scratch buffer is filled row by row and read back whole, so what is
  read back does not depend on what the scratch held before; each of the six output buffers receives one whole-block
  store. What each output buffer ends holding is recorded as the list of its stores (the pieces), found while the body
  is stepped through; the scratch buffers are handed back at whatever they then hold.
-/
import proofs.«114054_j5351529251331_2_alg».proof.Proof.Gen.Kernel.Launch
import proofs.«114054_j5351529251331_2_alg».proof.Proof.Gen.Kernel.Skeleton
import proofs.«114054_j5351529251331_2_alg».proof.Proof.Gen.Kernel.Points
import proofs.«114054_j5351529251331_2_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run on whole buffers: the inputs' buffers at contents `x0 … x3`, the outputs' and the scratch buffers at
    anything; it ends with the inputs' buffers as they were, each output's buffer with its pieces written, the scratch
    buffers at some contents. The pieces are the witness the run finds. -/
noncomputable def bodyRun (c : Dev nD) (i : grid0.Coords) (arg1 : Memref sig .tc .vmem S3072x2 .f32) (harg1 : arg1.IsWhole) (arg2 : Memref sig .tc .vmem S3072x2 .f32) (harg2 : arg2.IsWhole) (arg3 : Memref sig .tc .vmem S3072x7 .f32) (harg3 : arg3.IsWhole) (arg4 : Memref sig .tc .vmem S3072x7 .f32) (harg4 : arg4.IsWhole) (arg5 : Memref sig .tc .vmem S3072x2 .f32) (harg5 : arg5.IsWhole) (arg6 : Memref sig .tc .vmem S3072x4 .f32) (harg6 : arg6.IsWhole) (arg7 : Memref sig .tc .vmem S3072x4 .f32) (harg7 : arg7.IsWhole) (arg8 : Memref sig .tc .vmem S3072x14 .f32) (harg8 : arg8.IsWhole) (arg9 : Memref sig .tc .vmem S3072x7 .f32) (harg9 : arg9.IsWhole) (arg10 : Memref sig .tc .vmem S3072x7 .f32) (harg10 : arg10.IsWhole) (arg11 : Memref sig .tc .vmem S2x3072 .f32) (harg11 : arg11.IsWhole) (arg12 : Memref sig .tc .vmem S4x3072 .f32) (harg12 : arg12.IsWhole) (arg13 : Memref sig .tc .vmem S4x3072 .f32) (harg13 : arg13.IsWhole) (arg14 : Memref sig .tc .vmem S14x3072 .f32) (harg14 : arg14.IsWhole) (arg15 : Memref sig .tc .vmem S7x3072 .f32) (harg15 : arg15.IsWhole)
    (x0 : Vec F S3072x2 .f32) (x1 : Vec F S3072x2 .f32) (x2 : Vec F S3072x7 .f32) (x3 : Vec F S3072x7 .f32) :
    Σ' (L4 : List (View.Piece (Elt F) S3072x2 .f32)) (L5 : List (View.Piece (Elt F) S3072x4 .f32)) (L6 : List (View.Piece (Elt F) S3072x4 .f32)) (L7 : List (View.Piece (Elt F) S3072x14 .f32)) (L8 : List (View.Piece (Elt F) S3072x7 .f32)), { L9 : List (View.Piece (Elt F) S3072x7 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} f)
                ∗ (∃ f, arg12.view.loc (c : Thread nD τ) ↦[arg12.view.set]{fullShare} f)
                ∗ (∃ f, arg13.view.loc (c : Thread nD τ) ↦[arg13.view.set]{fullShare} f)
                ∗ (∃ f, arg14.view.loc (c : Thread nD τ) ↦[arg14.view.set]{fullShare} f)
                ∗ (∃ f, arg15.view.loc (c : Thread nD τ) ↦[arg15.view.set]{fullShare} f)) -∗ K ⟨⟩))
          ⊢ wp frame (wpE (defs₀ (F := F)) Variants.none c none) E (cc0__crazyleg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__crazyleg_kernel_eq_skeleton]; unfold cc0__crazyleg_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Kernel.Body

end
-- ==== Proof.BitsFrame.lean ====
/-
  The frame of the kernel as printed, its outputs left unnamed. At each grid point the four input buffers arrive holding
  their blocks of the argument arrays on the rows inside the arrays; the body reads them and leaves them as they were,
  and writes the six output buffers, of whose contents nothing is stated here: the argument arrays are no output, so
  what the write-backs carry does not touch them. The reshapes after the region write three buffers of their own.
-/
import proofs.«114054_j5351529251331_2_alg».proof.Proof.BitsRun

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The buffers of one grid point -/

/-- Window 0's current staging buffer at point `t`, and that it is a whole buffer. -/
abbrev ms0_0 (t : Fin cfg0.N) : Memref sig .tc .vmem S3072x2 .f32 := win0_0.stage (cfg0.slots t 0)
abbrev hs0_0 (t : Fin cfg0.N) : (ms0_0 t).IsWhole := hstage0_0 ((cfg0.slots t 0).cast nbuf0_0)
/-- Window 1's current staging buffer at point `t`, and that it is a whole buffer. -/
abbrev ms0_1 (t : Fin cfg0.N) : Memref sig .tc .vmem S3072x2 .f32 := win0_1.stage (cfg0.slots t 1)
abbrev hs0_1 (t : Fin cfg0.N) : (ms0_1 t).IsWhole := hstage0_1 ((cfg0.slots t 1).cast nbuf0_1)
/-- Window 2's current staging buffer at point `t`, and that it is a whole buffer. -/
abbrev ms0_2 (t : Fin cfg0.N) : Memref sig .tc .vmem S3072x7 .f32 := win0_2.stage (cfg0.slots t 2)
abbrev hs0_2 (t : Fin cfg0.N) : (ms0_2 t).IsWhole := hstage0_2 ((cfg0.slots t 2).cast nbuf0_2)
/-- Window 3's current staging buffer at point `t`, and that it is a whole buffer. -/
abbrev ms0_3 (t : Fin cfg0.N) : Memref sig .tc .vmem S3072x7 .f32 := win0_3.stage (cfg0.slots t 3)
abbrev hs0_3 (t : Fin cfg0.N) : (ms0_3 t).IsWhole := hstage0_3 ((cfg0.slots t 3).cast nbuf0_3)
/-- Window 4's current staging buffer at point `t`, and that it is a whole buffer. -/
abbrev ms0_4 (t : Fin cfg0.N) : Memref sig .tc .vmem S3072x2 .f32 := win0_4.stage (cfg0.slots t 4)
abbrev hs0_4 (t : Fin cfg0.N) : (ms0_4 t).IsWhole := hstage0_4 ((cfg0.slots t 4).cast nbuf0_4)
/-- Window 5's current staging buffer at point `t`, and that it is a whole buffer. -/
abbrev ms0_5 (t : Fin cfg0.N) : Memref sig .tc .vmem S3072x4 .f32 := win0_5.stage (cfg0.slots t 5)
abbrev hs0_5 (t : Fin cfg0.N) : (ms0_5 t).IsWhole := hstage0_5 ((cfg0.slots t 5).cast nbuf0_5)
/-- Window 6's current staging buffer at point `t`, and that it is a whole buffer. -/
abbrev ms0_6 (t : Fin cfg0.N) : Memref sig .tc .vmem S3072x4 .f32 := win0_6.stage (cfg0.slots t 6)
abbrev hs0_6 (t : Fin cfg0.N) : (ms0_6 t).IsWhole := hstage0_6 ((cfg0.slots t 6).cast nbuf0_6)
/-- Window 7's current staging buffer at point `t`, and that it is a whole buffer. -/
abbrev ms0_7 (t : Fin cfg0.N) : Memref sig .tc .vmem S3072x14 .f32 := win0_7.stage (cfg0.slots t 7)
abbrev hs0_7 (t : Fin cfg0.N) : (ms0_7 t).IsWhole := hstage0_7 ((cfg0.slots t 7).cast nbuf0_7)
/-- Window 8's current staging buffer at point `t`, and that it is a whole buffer. -/
abbrev ms0_8 (t : Fin cfg0.N) : Memref sig .tc .vmem S3072x7 .f32 := win0_8.stage (cfg0.slots t 8)
abbrev hs0_8 (t : Fin cfg0.N) : (ms0_8 t).IsWhole := hstage0_8 ((cfg0.slots t 8).cast nbuf0_8)
/-- Window 9's current staging buffer at point `t`, and that it is a whole buffer. -/
abbrev ms0_9 (t : Fin cfg0.N) : Memref sig .tc .vmem S3072x7 .f32 := win0_9.stage (cfg0.slots t 9)
abbrev hs0_9 (t : Fin cfg0.N) : (ms0_9 t).IsWhole := hstage0_9 ((cfg0.slots t 9).cast nbuf0_9)
/-- Scratch buffer 0, whole. -/
abbrev scM0_0 : Memref sig .tc .vmem S2x3072 .f32 := Memref.whole cc0_scratch0
/-- Scratch buffer 1, whole. -/
abbrev scM0_1 : Memref sig .tc .vmem S4x3072 .f32 := Memref.whole cc0_scratch1
/-- Scratch buffer 2, whole. -/
abbrev scM0_2 : Memref sig .tc .vmem S4x3072 .f32 := Memref.whole cc0_scratch2
/-- Scratch buffer 3, whole. -/
abbrev scM0_3 : Memref sig .tc .vmem S14x3072 .f32 := Memref.whole cc0_scratch3
/-- Scratch buffer 4, whole. -/
abbrev scM0_4 : Memref sig .tc .vmem S7x3072 .f32 := Memref.whole cc0_scratch4

/-- What the region may use beside its windows: the five scratch buffers, each whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The body's run at point `t`, on the point's staging buffers and the scratch buffers. -/
abbrev runAt (c : Dev nD) (t : Fin cfg0.N) (x0 : Vec F S3072x2 .f32) (x1 : Vec F S3072x2 .f32) (x2 : Vec F S3072x7 .f32) (x3 : Vec F S3072x7 .f32) :=
  bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) x0 x1 x2 x3

/-! ## The proof data -/

/-- The windows whose contents are not named: the six outputs. -/
def forgets0 : Fin 10 → Bool := fun w => w.val == 4 || w.val == 5 || w.val == 6 || w.val == 7 || w.val == 8 || w.val == 9

/-- Input window 0's buffer at point `t`: its block of the argument array, filled out past the array's end with a fixed word. -/
def in0 (c : Dev nD) (t : Fin cfg0.N) : Vec F S3072x2 .f32 :=
  win0_0.fill (grid0.coords t) (fun _ => Scalar.ofBits .f32 0#32) (iblk m c 0 t)
/-- Input window 1's buffer at point `t`: its block of the argument array, filled out past the array's end with a fixed word. -/
def in1 (c : Dev nD) (t : Fin cfg0.N) : Vec F S3072x2 .f32 :=
  win0_1.fill (grid0.coords t) (fun _ => Scalar.ofBits .f32 0#32) (iblk m c 1 t)
/-- Input window 2's buffer at point `t`: its block of the argument array, filled out past the array's end with a fixed word. -/
def in2 (c : Dev nD) (t : Fin cfg0.N) : Vec F S3072x7 .f32 :=
  win0_2.fill (grid0.coords t) (fun _ => Scalar.ofBits .f32 0#32) (iblk m c 2 t)
/-- Input window 3's buffer at point `t`: its block of the argument array, filled out past the array's end with a fixed word. -/
def in3 (c : Dev nD) (t : Fin cfg0.N) : Vec F S3072x7 .f32 :=
  win0_3.fill (grid0.coords t) (fun _ => Scalar.ofBits .f32 0#32) (iblk m c 3 t)

/-- The proof data of the pipeline on core `c`: the arrays as the region finds them; after the body at point `t` each
    input's buffer at its filled-out block; the outputs' buffers unnamed (a placeholder nothing reads); the invariant the
    scratch buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => fun _ => Scalar.ofBits .f32 0#32
    | ⟨5, _⟩ => fun _ => Scalar.ofBits .f32 0#32
    | ⟨6, _⟩ => fun _ => Scalar.ofBits .f32 0#32
    | ⟨7, _⟩ => fun _ => Scalar.ofBits .f32 0#32
    | ⟨8, _⟩ => fun _ => Scalar.ofBits .f32 0#32
    | ⟨9, _⟩ => fun _ => Scalar.ofBits .f32 0#32
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = in0 m c t := by dsimp only [dats]
theorem after0_1 (c : Dev nD) (t : Fin cfg0.N) : (dats m 0 c).after 1 t = in1 m c t := by dsimp only [dats]
theorem after0_2 (c : Dev nD) (t : Fin cfg0.N) : (dats m 0 c).after 2 t = in2 m c t := by dsimp only [dats]
theorem after0_3 (c : Dev nD) (t : Fin cfg0.N) : (dats m 0 c).after 3 t = in3 m c t := by dsimp only [dats]

/-- An input's buffer when the body runs: just fetched, its block on the rows the fetch filled, anything elsewhere. -/
theorem before0_0 (c : Dev nD) (t : Fin cfg0.N) (d) :
    (dats m 0 c).before 0 t d = win0_0.fill (grid0.coords t) d (iblk m c 0 t) := by
  rw [Dat.before_fetched _ 0 t (fetch0_0 t)]; unfold Dat.fetched Dat.blockOf iblk; dsimp only [dats]; try rfl
theorem before0_1 (c : Dev nD) (t : Fin cfg0.N) (d) :
    (dats m 0 c).before 1 t d = win0_1.fill (grid0.coords t) d (iblk m c 1 t) := by
  rw [Dat.before_fetched _ 1 t (fetch0_1 t)]; unfold Dat.fetched Dat.blockOf iblk; dsimp only [dats]; try rfl
theorem before0_2 (c : Dev nD) (t : Fin cfg0.N) (d) :
    (dats m 0 c).before 2 t d = win0_2.fill (grid0.coords t) d (iblk m c 2 t) := by
  rw [Dat.before_fetched _ 2 t (fetch0_2 t)]; unfold Dat.fetched Dat.blockOf iblk; dsimp only [dats]; try rfl
theorem before0_3 (c : Dev nD) (t : Fin cfg0.N) (d) :
    (dats m 0 c).before 3 t d = win0_3.fill (grid0.coords t) d (iblk m c 3 t) := by
  rw [Dat.before_fetched _ 3 t (fetch0_3 t)]; unfold Dat.fetched Dat.blockOf iblk; dsimp only [dats]; try rfl

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X))

/-- and what it returns: each input buffer stated on the rows inside the arrays, each output buffer at anything. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X))

set_option maxHeartbeats 4000000 in
/-- The body at any point: the inputs' buffers hold their blocks filled out with whatever the fetch left past the
    arrays' end; the run applies to those contents; the inputs' buffers come back as they were, which on the rows inside
    the arrays is the proof data's block; the outputs' buffers come back at what the run's stores left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [after0_0, after0_1, after0_2, after0_3]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt (F := F) c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e5, H5⟩, ⟨%e6, H6⟩, ⟨%e7, H7⟩, ⟨%e8, H8⟩, ⟨%e9, H9⟩, ⟨%g0, HS0⟩, ⟨%g1, HS1⟩, ⟨%g2, HS2⟩, ⟨%g3, HS3⟩, ⟨%g4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      · iexists _; unfold owns; iexists _; isplitr
        swap; · iexact HS4
        ipureintro; rfl
    · iexact Hg
  isplitl [Ho]; · iexact Ho
  isplitl [H0]
  · iexists d0
    rw [show win0_0.cut (grid0.coords t) (in0 m c t) = iblk m c 0 t from win0_0.cut_fill _ _ _]
    iexact H0
  isplitl [H1]
  · iexists d1
    rw [show win0_1.cut (grid0.coords t) (in1 m c t) = iblk m c 1 t from win0_1.cut_fill _ _ _]
    iexact H1
  isplitl [H2]
  · iexists d2
    rw [show win0_2.cut (grid0.coords t) (in2 m c t) = iblk m c 2 t from win0_2.cut_fill _ _ _]
    iexact H2
  isplitl [H3]
  · iexists d3
    rw [show win0_3.cut (grid0.coords t) (in3 m c t) = iblk m c 3 t from win0_3.cut_fill _ _ _]
    iexact H3
  isplitl [H4]
  · iexists _; unfold owns; iexists _; isplitr
    swap; · iexact H4
    ipureintro; rfl
  isplitl [H5]
  · iexists _; unfold owns; iexists _; isplitr
    swap; · iexact H5
    ipureintro; rfl
  isplitl [H6]
  · iexists _; unfold owns; iexists _; isplitr
    swap; · iexact H6
    ipureintro; rfl
  isplitl [H7]
  · iexists _; unfold owns; iexists _; isplitr
    swap; · iexact H7
    ipureintro; rfl
  isplitl [H8]
  · iexists _; unfold owns; iexists _; isplitr
    swap; · iexact H8
    ipureintro; rfl
  · iexists _; unfold owns; iexists _; isplitr
    swap; · iexact H9
    ipureintro; rfl

/-- The body obligation, at every point, with the outputs' buffers unnamed. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

/-- The buffers the reshapes after the region write: computed from outputs nothing names, so nothing is stated of them. -/
def T0 : Finset (Ref sig .tc) := {main_v1, main_v2, main_v3}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

set_option backward.isDefEq.respectTransparency.types false in
/-- Every weakly fair execution of the program terminates, and every final state has every input array of the pipeline
    unchanged; nothing is stated of the outputs or of what the reshapes write. -/
theorem run_main : θ_run defs (onTc (τ := τ) (main (F := F))) (s₀ m ρ)
    (Pipeline.RDat.FramePostR (cfgs 0) (fun c => (dats m 0 c).toRForget forgets0) T0 (V m)) :=
  Pipeline.RDat.θ_run_frame_around_T cfgs (0 : Fin 1) launch0 defs₀ Variants.none (fun c => (dats m 0 c).toRForget forgets0) T0 m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- The program runs to the end, faults nowhere and leaves its four argument arrays as they were: each is an input of
    the pipeline, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      (Eq.mp (congrFun (((dats m 0 c).toRForget forgets0).ArrAt_in 0 rfl _) _) ((h c).1 0)).trans ((A_eq m c 0).trans (V_main_arg0 m c)),
      (Eq.mp (congrFun (((dats m 0 c).toRForget forgets0).ArrAt_in 1 rfl _) _) ((h c).1 1)).trans ((A_eq m c 1).trans (V_main_arg1 m c)),
      (Eq.mp (congrFun (((dats m 0 c).toRForget forgets0).ArrAt_in 2 rfl _) _) ((h c).1 2)).trans ((A_eq m c 2).trans (V_main_arg2 m c)),
      (Eq.mp (congrFun (((dats m 0 c).toRForget forgets0).ArrAt_in 3 rfl _) _) ((h c).1 3)).trans ((A_eq m c 3).trans (V_main_arg3 m c))⟩)
    (run_main m ρ)

end Cert.Kernel.Body

end
-- ==== Proof.IdealRun.lean ====
/-
  The kernel body of one grid point, run once on any whole staging buffers and scratch buffers: the four input
  buffers are read whole and left as they were; each scratch buffer is filled row by row and read back whole, so what is
  read back does not depend on what the scratch held before; each of the six output buffers receives one whole-block
  store. What each output buffer ends holding is recorded as the list of its stores (the pieces), found while the body
  is stepped through; the scratch buffers are handed back at whatever they then hold.
-/
import proofs.«114054_j5351529251331_2_alg».proof.Proof.Gen.KernelIdeal.Launch
import proofs.«114054_j5351529251331_2_alg».proof.Proof.Gen.KernelIdeal.Skeleton
import proofs.«114054_j5351529251331_2_alg».proof.Proof.Gen.KernelIdeal.Points
import proofs.«114054_j5351529251331_2_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run on whole buffers: the inputs' buffers at contents `x0 … x3`, the outputs' and the scratch buffers at
    anything; it ends with the inputs' buffers as they were, each output's buffer with its pieces written, the scratch
    buffers at some contents. The pieces are the witness the run finds. -/
noncomputable def bodyRun (c : Dev nD) (i : grid0.Coords) (arg1 : Memref sig .tc .vmem S3072x2 .f32) (harg1 : arg1.IsWhole) (arg2 : Memref sig .tc .vmem S3072x2 .f32) (harg2 : arg2.IsWhole) (arg3 : Memref sig .tc .vmem S3072x7 .f32) (harg3 : arg3.IsWhole) (arg4 : Memref sig .tc .vmem S3072x7 .f32) (harg4 : arg4.IsWhole) (arg5 : Memref sig .tc .vmem S3072x2 .f32) (harg5 : arg5.IsWhole) (arg6 : Memref sig .tc .vmem S3072x4 .f32) (harg6 : arg6.IsWhole) (arg7 : Memref sig .tc .vmem S3072x4 .f32) (harg7 : arg7.IsWhole) (arg8 : Memref sig .tc .vmem S3072x14 .f32) (harg8 : arg8.IsWhole) (arg9 : Memref sig .tc .vmem S3072x7 .f32) (harg9 : arg9.IsWhole) (arg10 : Memref sig .tc .vmem S3072x7 .f32) (harg10 : arg10.IsWhole) (arg11 : Memref sig .tc .vmem S2x3072 .f32) (harg11 : arg11.IsWhole) (arg12 : Memref sig .tc .vmem S4x3072 .f32) (harg12 : arg12.IsWhole) (arg13 : Memref sig .tc .vmem S4x3072 .f32) (harg13 : arg13.IsWhole) (arg14 : Memref sig .tc .vmem S14x3072 .f32) (harg14 : arg14.IsWhole) (arg15 : Memref sig .tc .vmem S7x3072 .f32) (harg15 : arg15.IsWhole)
    (x0 : Vec F S3072x2 .f32) (x1 : Vec F S3072x2 .f32) (x2 : Vec F S3072x7 .f32) (x3 : Vec F S3072x7 .f32) :
    Σ' (L4 : List (View.Piece (Elt F) S3072x2 .f32)) (L5 : List (View.Piece (Elt F) S3072x4 .f32)) (L6 : List (View.Piece (Elt F) S3072x4 .f32)) (L7 : List (View.Piece (Elt F) S3072x14 .f32)) (L8 : List (View.Piece (Elt F) S3072x7 .f32)), { L9 : List (View.Piece (Elt F) S3072x7 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (∃ d, owns (c : Thread nD τ) arg6 fullShare d)
            ∗ (∃ d, owns (c : Thread nD τ) arg7 fullShare d)
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (∃ d, owns (c : Thread nD τ) arg14 fullShare d)
            ∗ (∃ d, owns (c : Thread nD τ) arg15 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)
                ∗ (∃ f, arg8.view.loc (c : Thread nD τ) ↦[arg8.view.set]{fullShare} arg8.view.writes (Elt F) f L7)
                ∗ (∃ f, arg9.view.loc (c : Thread nD τ) ↦[arg9.view.set]{fullShare} arg9.view.writes (Elt F) f L8)
                ∗ (∃ f, arg10.view.loc (c : Thread nD τ) ↦[arg10.view.set]{fullShare} arg10.view.writes (Elt F) f L9)
                ∗ (∃ f, arg11.view.loc (c : Thread nD τ) ↦[arg11.view.set]{fullShare} f)
                ∗ (∃ f, arg12.view.loc (c : Thread nD τ) ↦[arg12.view.set]{fullShare} f)
                ∗ (∃ f, arg13.view.loc (c : Thread nD τ) ↦[arg13.view.set]{fullShare} f)
                ∗ (∃ f, arg14.view.loc (c : Thread nD τ) ↦[arg14.view.set]{fullShare} f)
                ∗ (∃ f, arg15.view.loc (c : Thread nD τ) ↦[arg15.view.set]{fullShare} f)) -∗ K ⟨⟩))
          ⊢ wp frame (wpE (defs₀ (F := F)) Variants.none c none) E (cc0__crazyleg_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0__crazyleg_kernel_eq_skeleton]; unfold cc0__crazyleg_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.KernelIdeal.Body

end
-- ==== Proof.IdealOut.lean ====
/-
  What the body of one grid point leaves in each of the six output buffers, as a function of what the four input
  buffers hold: the stores the run found, read back. Each output buffer receives one store of its whole block, so the
  stores cover it and what the buffer held before does not matter.
-/
import proofs.«114054_j5351529251331_2_alg».proof.Proof.IdealRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The buffers of one grid point -/

/-- Window 0's current staging buffer at point `t`, and that it is a whole buffer. -/
abbrev ms0_0 (t : Fin cfg0.N) : Memref sig .tc .vmem S3072x2 .f32 := win0_0.stage (cfg0.slots t 0)
abbrev hs0_0 (t : Fin cfg0.N) : (ms0_0 t).IsWhole := hstage0_0 ((cfg0.slots t 0).cast nbuf0_0)
/-- Window 1's current staging buffer at point `t`, and that it is a whole buffer. -/
abbrev ms0_1 (t : Fin cfg0.N) : Memref sig .tc .vmem S3072x2 .f32 := win0_1.stage (cfg0.slots t 1)
abbrev hs0_1 (t : Fin cfg0.N) : (ms0_1 t).IsWhole := hstage0_1 ((cfg0.slots t 1).cast nbuf0_1)
/-- Window 2's current staging buffer at point `t`, and that it is a whole buffer. -/
abbrev ms0_2 (t : Fin cfg0.N) : Memref sig .tc .vmem S3072x7 .f32 := win0_2.stage (cfg0.slots t 2)
abbrev hs0_2 (t : Fin cfg0.N) : (ms0_2 t).IsWhole := hstage0_2 ((cfg0.slots t 2).cast nbuf0_2)
/-- Window 3's current staging buffer at point `t`, and that it is a whole buffer. -/
abbrev ms0_3 (t : Fin cfg0.N) : Memref sig .tc .vmem S3072x7 .f32 := win0_3.stage (cfg0.slots t 3)
abbrev hs0_3 (t : Fin cfg0.N) : (ms0_3 t).IsWhole := hstage0_3 ((cfg0.slots t 3).cast nbuf0_3)
/-- Window 4's current staging buffer at point `t`, and that it is a whole buffer. -/
abbrev ms0_4 (t : Fin cfg0.N) : Memref sig .tc .vmem S3072x2 .f32 := win0_4.stage (cfg0.slots t 4)
abbrev hs0_4 (t : Fin cfg0.N) : (ms0_4 t).IsWhole := hstage0_4 ((cfg0.slots t 4).cast nbuf0_4)
/-- Window 5's current staging buffer at point `t`, and that it is a whole buffer. -/
abbrev ms0_5 (t : Fin cfg0.N) : Memref sig .tc .vmem S3072x4 .f32 := win0_5.stage (cfg0.slots t 5)
abbrev hs0_5 (t : Fin cfg0.N) : (ms0_5 t).IsWhole := hstage0_5 ((cfg0.slots t 5).cast nbuf0_5)
/-- Window 6's current staging buffer at point `t`, and that it is a whole buffer. -/
abbrev ms0_6 (t : Fin cfg0.N) : Memref sig .tc .vmem S3072x4 .f32 := win0_6.stage (cfg0.slots t 6)
abbrev hs0_6 (t : Fin cfg0.N) : (ms0_6 t).IsWhole := hstage0_6 ((cfg0.slots t 6).cast nbuf0_6)
/-- Window 7's current staging buffer at point `t`, and that it is a whole buffer. -/
abbrev ms0_7 (t : Fin cfg0.N) : Memref sig .tc .vmem S3072x14 .f32 := win0_7.stage (cfg0.slots t 7)
abbrev hs0_7 (t : Fin cfg0.N) : (ms0_7 t).IsWhole := hstage0_7 ((cfg0.slots t 7).cast nbuf0_7)
/-- Window 8's current staging buffer at point `t`, and that it is a whole buffer. -/
abbrev ms0_8 (t : Fin cfg0.N) : Memref sig .tc .vmem S3072x7 .f32 := win0_8.stage (cfg0.slots t 8)
abbrev hs0_8 (t : Fin cfg0.N) : (ms0_8 t).IsWhole := hstage0_8 ((cfg0.slots t 8).cast nbuf0_8)
/-- Window 9's current staging buffer at point `t`, and that it is a whole buffer. -/
abbrev ms0_9 (t : Fin cfg0.N) : Memref sig .tc .vmem S3072x7 .f32 := win0_9.stage (cfg0.slots t 9)
abbrev hs0_9 (t : Fin cfg0.N) : (ms0_9 t).IsWhole := hstage0_9 ((cfg0.slots t 9).cast nbuf0_9)
/-- Scratch buffer 0, whole. -/
abbrev scM0_0 : Memref sig .tc .vmem S2x3072 .f32 := Memref.whole cc0_scratch0
/-- Scratch buffer 1, whole. -/
abbrev scM0_1 : Memref sig .tc .vmem S4x3072 .f32 := Memref.whole cc0_scratch1
/-- Scratch buffer 2, whole. -/
abbrev scM0_2 : Memref sig .tc .vmem S4x3072 .f32 := Memref.whole cc0_scratch2
/-- Scratch buffer 3, whole. -/
abbrev scM0_3 : Memref sig .tc .vmem S14x3072 .f32 := Memref.whole cc0_scratch3
/-- Scratch buffer 4, whole. -/
abbrev scM0_4 : Memref sig .tc .vmem S7x3072 .f32 := Memref.whole cc0_scratch4

/-- What the region may use beside its windows: the five scratch buffers, each whole at some contents, and the
    generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The body's run at point `t`, on the point's staging buffers and the scratch buffers. -/
abbrev runAt (c : Dev nD) (t : Fin cfg0.N) (x0 : Vec F S3072x2 .f32) (x1 : Vec F S3072x2 .f32) (x2 : Vec F S3072x7 .f32) (x3 : Vec F S3072x7 .f32) :=
  bodyRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) x0 x1 x2 x3

/-! ## What the body leaves in each output buffer -/

/-- One staging buffer of output window 4, through which its contents are stated (the choice does not matter). -/
abbrev VO4 : View sig .tc .vmem S3072x2 .f32 := (Memref.whole cc0_stg4_0 : Memref sig .tc .vmem S3072x2 .f32).view
/-- The stores into output window 4's buffer tile it, so they cover it. -/
theorem cover4 (c : Dev nD) (t : Fin cfg0.N) (x0 : Vec F S3072x2 .f32) (x1 : Vec F S3072x2 .f32) (x2 : Vec F S3072x7 .f32) (x3 : Vec F S3072x7 .f32) (y : S3072x2.Idx) :
    ∃ pc ∈ (runAt (F := F) c t x0 x1 x2 x3).1, y ∈ pc.1.set :=
  View.cover_of_tiledL (runAt (F := F) c t x0 x1 x2 x3).1 S3072x2.size (by sl_kernel_rfl) y
/-- What the body leaves in output window 4's buffer, as a function of the input buffers' contents. -/
def out4 (c : Dev nD) (t : Fin cfg0.N) (x0 : Vec F S3072x2 .f32) (x1 : Vec F S3072x2 .f32) (x2 : Vec F S3072x7 .f32) (x3 : Vec F S3072x7 .f32) : Vec F S3072x2 .f32 :=
  VO4.read (Elt F) (VO4.writes (Elt F) VO4.junk (runAt (F := F) c t x0 x1 x2 x3).1)

/-- One staging buffer of output window 5, through which its contents are stated (the choice does not matter). -/
abbrev VO5 : View sig .tc .vmem S3072x4 .f32 := (Memref.whole cc0_stg5_0 : Memref sig .tc .vmem S3072x4 .f32).view
/-- The stores into output window 5's buffer tile it, so they cover it. -/
theorem cover5 (c : Dev nD) (t : Fin cfg0.N) (x0 : Vec F S3072x2 .f32) (x1 : Vec F S3072x2 .f32) (x2 : Vec F S3072x7 .f32) (x3 : Vec F S3072x7 .f32) (y : S3072x4.Idx) :
    ∃ pc ∈ (runAt (F := F) c t x0 x1 x2 x3).2.1, y ∈ pc.1.set :=
  View.cover_of_tiledL (runAt (F := F) c t x0 x1 x2 x3).2.1 S3072x4.size (by sl_kernel_rfl) y
/-- What the body leaves in output window 5's buffer, as a function of the input buffers' contents. -/
def out5 (c : Dev nD) (t : Fin cfg0.N) (x0 : Vec F S3072x2 .f32) (x1 : Vec F S3072x2 .f32) (x2 : Vec F S3072x7 .f32) (x3 : Vec F S3072x7 .f32) : Vec F S3072x4 .f32 :=
  VO5.read (Elt F) (VO5.writes (Elt F) VO5.junk (runAt (F := F) c t x0 x1 x2 x3).2.1)

/-- One staging buffer of output window 6, through which its contents are stated (the choice does not matter). -/
abbrev VO6 : View sig .tc .vmem S3072x4 .f32 := (Memref.whole cc0_stg6_0 : Memref sig .tc .vmem S3072x4 .f32).view
/-- The stores into output window 6's buffer tile it, so they cover it. -/
theorem cover6 (c : Dev nD) (t : Fin cfg0.N) (x0 : Vec F S3072x2 .f32) (x1 : Vec F S3072x2 .f32) (x2 : Vec F S3072x7 .f32) (x3 : Vec F S3072x7 .f32) (y : S3072x4.Idx) :
    ∃ pc ∈ (runAt (F := F) c t x0 x1 x2 x3).2.2.1, y ∈ pc.1.set :=
  View.cover_of_tiledL (runAt (F := F) c t x0 x1 x2 x3).2.2.1 S3072x4.size (by sl_kernel_rfl) y
/-- What the body leaves in output window 6's buffer, as a function of the input buffers' contents. -/
def out6 (c : Dev nD) (t : Fin cfg0.N) (x0 : Vec F S3072x2 .f32) (x1 : Vec F S3072x2 .f32) (x2 : Vec F S3072x7 .f32) (x3 : Vec F S3072x7 .f32) : Vec F S3072x4 .f32 :=
  VO6.read (Elt F) (VO6.writes (Elt F) VO6.junk (runAt (F := F) c t x0 x1 x2 x3).2.2.1)

/-- One staging buffer of output window 7, through which its contents are stated (the choice does not matter). -/
abbrev VO7 : View sig .tc .vmem S3072x14 .f32 := (Memref.whole cc0_stg7_0 : Memref sig .tc .vmem S3072x14 .f32).view
/-- The stores into output window 7's buffer tile it, so they cover it. -/
theorem cover7 (c : Dev nD) (t : Fin cfg0.N) (x0 : Vec F S3072x2 .f32) (x1 : Vec F S3072x2 .f32) (x2 : Vec F S3072x7 .f32) (x3 : Vec F S3072x7 .f32) (y : S3072x14.Idx) :
    ∃ pc ∈ (runAt (F := F) c t x0 x1 x2 x3).2.2.2.1, y ∈ pc.1.set :=
  View.cover_of_tiledL (runAt (F := F) c t x0 x1 x2 x3).2.2.2.1 S3072x14.size (by sl_kernel_rfl) y
/-- What the body leaves in output window 7's buffer, as a function of the input buffers' contents. -/
def out7 (c : Dev nD) (t : Fin cfg0.N) (x0 : Vec F S3072x2 .f32) (x1 : Vec F S3072x2 .f32) (x2 : Vec F S3072x7 .f32) (x3 : Vec F S3072x7 .f32) : Vec F S3072x14 .f32 :=
  VO7.read (Elt F) (VO7.writes (Elt F) VO7.junk (runAt (F := F) c t x0 x1 x2 x3).2.2.2.1)

/-- One staging buffer of output window 8, through which its contents are stated (the choice does not matter). -/
abbrev VO8 : View sig .tc .vmem S3072x7 .f32 := (Memref.whole cc0_stg8_0 : Memref sig .tc .vmem S3072x7 .f32).view
/-- The stores into output window 8's buffer tile it, so they cover it. -/
theorem cover8 (c : Dev nD) (t : Fin cfg0.N) (x0 : Vec F S3072x2 .f32) (x1 : Vec F S3072x2 .f32) (x2 : Vec F S3072x7 .f32) (x3 : Vec F S3072x7 .f32) (y : S3072x7.Idx) :
    ∃ pc ∈ (runAt (F := F) c t x0 x1 x2 x3).2.2.2.2.1, y ∈ pc.1.set :=
  View.cover_of_tiledL (runAt (F := F) c t x0 x1 x2 x3).2.2.2.2.1 S3072x7.size (by sl_kernel_rfl) y
/-- What the body leaves in output window 8's buffer, as a function of the input buffers' contents. -/
def out8 (c : Dev nD) (t : Fin cfg0.N) (x0 : Vec F S3072x2 .f32) (x1 : Vec F S3072x2 .f32) (x2 : Vec F S3072x7 .f32) (x3 : Vec F S3072x7 .f32) : Vec F S3072x7 .f32 :=
  VO8.read (Elt F) (VO8.writes (Elt F) VO8.junk (runAt (F := F) c t x0 x1 x2 x3).2.2.2.2.1)

/-- One staging buffer of output window 9, through which its contents are stated (the choice does not matter). -/
abbrev VO9 : View sig .tc .vmem S3072x7 .f32 := (Memref.whole cc0_stg9_0 : Memref sig .tc .vmem S3072x7 .f32).view
/-- The stores into output window 9's buffer tile it, so they cover it. -/
theorem cover9 (c : Dev nD) (t : Fin cfg0.N) (x0 : Vec F S3072x2 .f32) (x1 : Vec F S3072x2 .f32) (x2 : Vec F S3072x7 .f32) (x3 : Vec F S3072x7 .f32) (y : S3072x7.Idx) :
    ∃ pc ∈ (runAt (F := F) c t x0 x1 x2 x3).2.2.2.2.2.1, y ∈ pc.1.set :=
  View.cover_of_tiledL (runAt (F := F) c t x0 x1 x2 x3).2.2.2.2.2.1 S3072x7.size (by sl_kernel_rfl) y
/-- What the body leaves in output window 9's buffer, as a function of the input buffers' contents. -/
def out9 (c : Dev nD) (t : Fin cfg0.N) (x0 : Vec F S3072x2 .f32) (x1 : Vec F S3072x2 .f32) (x2 : Vec F S3072x7 .f32) (x3 : Vec F S3072x7 .f32) : Vec F S3072x7 .f32 :=
  VO9.read (Elt F) (VO9.writes (Elt F) VO9.junk (runAt (F := F) c t x0 x1 x2 x3).2.2.2.2.2.1)

end Cert.KernelIdeal.Body

end
-- ==== Proof.IdealFrame.lean ====
/-
  The frame run of the idealized kernel with every output named. At each grid point the four input buffers arrive
  holding their blocks of the argument arrays on the rows inside the arrays (the last block overhangs the arrays: its
  buffers' tails hold words nothing names); the body leaves in each output buffer a function of the four input buffers;
  on the rows inside the arrays that function does not read the tails (every result row is computed from the same row of
  the inputs: the hypothesis RowLocal, proved where the body's values are opened). Hence the proof data: after the body
  at point t an input buffer holds its block filled out with a fixed word, an output buffer the body's function of those.
-/
import proofs.«114054_j5351529251331_2_alg».proof.Proof.IdealOut

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The proof data -/

/-- Input window 0's buffer at point `t`: its block of the argument array, filled out past the array's end with a fixed word. -/
def in0 (c : Dev nD) (t : Fin cfg0.N) : Vec F S3072x2 .f32 :=
  win0_0.fill (grid0.coords t) (fun _ => Scalar.ofBits .f32 0#32) (iblk m c 0 t)
/-- Input window 1's buffer at point `t`: its block of the argument array, filled out past the array's end with a fixed word. -/
def in1 (c : Dev nD) (t : Fin cfg0.N) : Vec F S3072x2 .f32 :=
  win0_1.fill (grid0.coords t) (fun _ => Scalar.ofBits .f32 0#32) (iblk m c 1 t)
/-- Input window 2's buffer at point `t`: its block of the argument array, filled out past the array's end with a fixed word. -/
def in2 (c : Dev nD) (t : Fin cfg0.N) : Vec F S3072x7 .f32 :=
  win0_2.fill (grid0.coords t) (fun _ => Scalar.ofBits .f32 0#32) (iblk m c 2 t)
/-- Input window 3's buffer at point `t`: its block of the argument array, filled out past the array's end with a fixed word. -/
def in3 (c : Dev nD) (t : Fin cfg0.N) : Vec F S3072x7 .f32 :=
  win0_3.fill (grid0.coords t) (fun _ => Scalar.ofBits .f32 0#32) (iblk m c 3 t)

/-- The proof data of the pipeline on core `c`: the arrays as the region finds them; after the body at point `t` each
    input's buffer at its filled-out block and each output's at the body's function of those; the invariant the scratch
    buffers at anything; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => in0 m c t
    | ⟨1, _⟩ => in1 m c t
    | ⟨2, _⟩ => in2 m c t
    | ⟨3, _⟩ => in3 m c t
    | ⟨4, _⟩ => out4 c t (in0 m c t) (in1 m c t) (in2 m c t) (in3 m c t)
    | ⟨5, _⟩ => out5 c t (in0 m c t) (in1 m c t) (in2 m c t) (in3 m c t)
    | ⟨6, _⟩ => out6 c t (in0 m c t) (in1 m c t) (in2 m c t) (in3 m c t)
    | ⟨7, _⟩ => out7 c t (in0 m c t) (in1 m c t) (in2 m c t) (in3 m c t)
    | ⟨8, _⟩ => out8 c t (in0 m c t) (in1 m c t) (in2 m c t) (in3 m c t)
    | ⟨9, _⟩ => out9 c t (in0 m c t) (in1 m c t) (in2 m c t) (in3 m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = in0 m c t := by dsimp only [dats]
theorem after0_1 (c : Dev nD) (t : Fin cfg0.N) : (dats m 0 c).after 1 t = in1 m c t := by dsimp only [dats]
theorem after0_2 (c : Dev nD) (t : Fin cfg0.N) : (dats m 0 c).after 2 t = in2 m c t := by dsimp only [dats]
theorem after0_3 (c : Dev nD) (t : Fin cfg0.N) : (dats m 0 c).after 3 t = in3 m c t := by dsimp only [dats]
theorem after0_4 (c : Dev nD) (t : Fin cfg0.N) : (dats m 0 c).after 4 t = out4 c t (in0 m c t) (in1 m c t) (in2 m c t) (in3 m c t) := by dsimp only [dats]
theorem after0_5 (c : Dev nD) (t : Fin cfg0.N) : (dats m 0 c).after 5 t = out5 c t (in0 m c t) (in1 m c t) (in2 m c t) (in3 m c t) := by dsimp only [dats]
theorem after0_6 (c : Dev nD) (t : Fin cfg0.N) : (dats m 0 c).after 6 t = out6 c t (in0 m c t) (in1 m c t) (in2 m c t) (in3 m c t) := by dsimp only [dats]
theorem after0_7 (c : Dev nD) (t : Fin cfg0.N) : (dats m 0 c).after 7 t = out7 c t (in0 m c t) (in1 m c t) (in2 m c t) (in3 m c t) := by dsimp only [dats]
theorem after0_8 (c : Dev nD) (t : Fin cfg0.N) : (dats m 0 c).after 8 t = out8 c t (in0 m c t) (in1 m c t) (in2 m c t) (in3 m c t) := by dsimp only [dats]
theorem after0_9 (c : Dev nD) (t : Fin cfg0.N) : (dats m 0 c).after 9 t = out9 c t (in0 m c t) (in1 m c t) (in2 m c t) (in3 m c t) := by dsimp only [dats]

/-- An input's buffer when the body runs: just fetched, its block on the rows the fetch filled, anything elsewhere. -/
theorem before0_0 (c : Dev nD) (t : Fin cfg0.N) (d) :
    (dats m 0 c).before 0 t d = win0_0.fill (grid0.coords t) d (iblk m c 0 t) := by
  rw [Dat.before_fetched _ 0 t (fetch0_0 t)]; unfold Dat.fetched Dat.blockOf iblk; dsimp only [dats]; try rfl
theorem before0_1 (c : Dev nD) (t : Fin cfg0.N) (d) :
    (dats m 0 c).before 1 t d = win0_1.fill (grid0.coords t) d (iblk m c 1 t) := by
  rw [Dat.before_fetched _ 1 t (fetch0_1 t)]; unfold Dat.fetched Dat.blockOf iblk; dsimp only [dats]; try rfl
theorem before0_2 (c : Dev nD) (t : Fin cfg0.N) (d) :
    (dats m 0 c).before 2 t d = win0_2.fill (grid0.coords t) d (iblk m c 2 t) := by
  rw [Dat.before_fetched _ 2 t (fetch0_2 t)]; unfold Dat.fetched Dat.blockOf iblk; dsimp only [dats]; try rfl
theorem before0_3 (c : Dev nD) (t : Fin cfg0.N) (d) :
    (dats m 0 c).before 3 t d = win0_3.fill (grid0.coords t) d (iblk m c 3 t) := by
  rw [Dat.before_fetched _ 3 t (fetch0_3 t)]; unfold Dat.fetched Dat.blockOf iblk; dsimp only [dats]; try rfl
/-- An output's buffer when the body runs: written back at the point before (or never used): anything. -/
theorem before0_4 (c : Dev nD) (t : Fin cfg0.N) (d) : (dats m 0 c).before 4 t d = d :=
  Dat.before_out_reset _ 4 rfl t (by
    by_cases h : t.val = 0
    · exact .inl h
    · exact .inr ⟨h, flush0_4 _⟩) d
theorem before0_5 (c : Dev nD) (t : Fin cfg0.N) (d) : (dats m 0 c).before 5 t d = d :=
  Dat.before_out_reset _ 5 rfl t (by
    by_cases h : t.val = 0
    · exact .inl h
    · exact .inr ⟨h, flush0_5 _⟩) d
theorem before0_6 (c : Dev nD) (t : Fin cfg0.N) (d) : (dats m 0 c).before 6 t d = d :=
  Dat.before_out_reset _ 6 rfl t (by
    by_cases h : t.val = 0
    · exact .inl h
    · exact .inr ⟨h, flush0_6 _⟩) d
theorem before0_7 (c : Dev nD) (t : Fin cfg0.N) (d) : (dats m 0 c).before 7 t d = d :=
  Dat.before_out_reset _ 7 rfl t (by
    by_cases h : t.val = 0
    · exact .inl h
    · exact .inr ⟨h, flush0_7 _⟩) d
theorem before0_8 (c : Dev nD) (t : Fin cfg0.N) (d) : (dats m 0 c).before 8 t d = d :=
  Dat.before_out_reset _ 8 rfl t (by
    by_cases h : t.val = 0
    · exact .inl h
    · exact .inr ⟨h, flush0_8 _⟩) d
theorem before0_9 (c : Dev nD) (t : Fin cfg0.N) (d) : (dats m 0 c).before 9 t d = d :=
  Dat.before_out_reset _ 9 rfl t (by
    by_cases h : t.val = 0
    · exact .inl h
    · exact .inr ⟨h, flush0_9 _⟩) d

/-! ## Row locality -/

/-- On the rows inside the arrays, what the body leaves in each output buffer does not depend on what the input buffers
    hold past the arrays' end. -/
structure RowLocal : Prop where
  loc4 : ∀ (c : Dev nD) (t : Fin cfg0.N) (d0 : Vec F S3072x2 .f32) (d1 : Vec F S3072x2 .f32) (d2 : Vec F S3072x7 .f32) (d3 : Vec F S3072x7 .f32),
    win0_4.cut (grid0.coords t) (out4 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
      = win0_4.cut (grid0.coords t) (out4 c t (in0 m c t) (in1 m c t) (in2 m c t) (in3 m c t))
  loc5 : ∀ (c : Dev nD) (t : Fin cfg0.N) (d0 : Vec F S3072x2 .f32) (d1 : Vec F S3072x2 .f32) (d2 : Vec F S3072x7 .f32) (d3 : Vec F S3072x7 .f32),
    win0_5.cut (grid0.coords t) (out5 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
      = win0_5.cut (grid0.coords t) (out5 c t (in0 m c t) (in1 m c t) (in2 m c t) (in3 m c t))
  loc6 : ∀ (c : Dev nD) (t : Fin cfg0.N) (d0 : Vec F S3072x2 .f32) (d1 : Vec F S3072x2 .f32) (d2 : Vec F S3072x7 .f32) (d3 : Vec F S3072x7 .f32),
    win0_6.cut (grid0.coords t) (out6 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
      = win0_6.cut (grid0.coords t) (out6 c t (in0 m c t) (in1 m c t) (in2 m c t) (in3 m c t))
  loc7 : ∀ (c : Dev nD) (t : Fin cfg0.N) (d0 : Vec F S3072x2 .f32) (d1 : Vec F S3072x2 .f32) (d2 : Vec F S3072x7 .f32) (d3 : Vec F S3072x7 .f32),
    win0_7.cut (grid0.coords t) (out7 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
      = win0_7.cut (grid0.coords t) (out7 c t (in0 m c t) (in1 m c t) (in2 m c t) (in3 m c t))
  loc8 : ∀ (c : Dev nD) (t : Fin cfg0.N) (d0 : Vec F S3072x2 .f32) (d1 : Vec F S3072x2 .f32) (d2 : Vec F S3072x7 .f32) (d3 : Vec F S3072x7 .f32),
    win0_8.cut (grid0.coords t) (out8 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
      = win0_8.cut (grid0.coords t) (out8 c t (in0 m c t) (in1 m c t) (in2 m c t) (in3 m c t))
  loc9 : ∀ (c : Dev nD) (t : Fin cfg0.N) (d0 : Vec F S3072x2 .f32) (d1 : Vec F S3072x2 .f32) (d2 : Vec F S3072x7 .f32) (d3 : Vec F S3072x7 .f32),
    win0_9.cut (grid0.coords t) (out9 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
      = win0_9.cut (grid0.coords t) (out9 c t (in0 m c t) (in1 m c t) (in2 m c t) (in3 m c t))

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns: each buffer stated on the rows inside the arrays. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare (win0_0.fill (grid0.coords t) d (win0_0.cut (grid0.coords t) ((dats m 0 c).after 0 t))))
    ∗ (∃ d, owns (c : Thread nD τ) (ms0_1 t) fullShare (win0_1.fill (grid0.coords t) d (win0_1.cut (grid0.coords t) ((dats m 0 c).after 1 t))))
    ∗ (∃ d, owns (c : Thread nD τ) (ms0_2 t) fullShare (win0_2.fill (grid0.coords t) d (win0_2.cut (grid0.coords t) ((dats m 0 c).after 2 t))))
    ∗ (∃ d, owns (c : Thread nD τ) (ms0_3 t) fullShare (win0_3.fill (grid0.coords t) d (win0_3.cut (grid0.coords t) ((dats m 0 c).after 3 t))))
    ∗ (∃ d, owns (c : Thread nD τ) (ms0_4 t) fullShare (win0_4.fill (grid0.coords t) d (win0_4.cut (grid0.coords t) ((dats m 0 c).after 4 t))))
    ∗ (∃ d, owns (c : Thread nD τ) (ms0_5 t) fullShare (win0_5.fill (grid0.coords t) d (win0_5.cut (grid0.coords t) ((dats m 0 c).after 5 t))))
    ∗ (∃ d, owns (c : Thread nD τ) (ms0_6 t) fullShare (win0_6.fill (grid0.coords t) d (win0_6.cut (grid0.coords t) ((dats m 0 c).after 6 t))))
    ∗ (∃ d, owns (c : Thread nD τ) (ms0_7 t) fullShare (win0_7.fill (grid0.coords t) d (win0_7.cut (grid0.coords t) ((dats m 0 c).after 7 t))))
    ∗ (∃ d, owns (c : Thread nD τ) (ms0_8 t) fullShare (win0_8.fill (grid0.coords t) d (win0_8.cut (grid0.coords t) ((dats m 0 c).after 8 t))))
    ∗ (∃ d, owns (c : Thread nD τ) (ms0_9 t) fullShare (win0_9.fill (grid0.coords t) d (win0_9.cut (grid0.coords t) ((dats m 0 c).after 9 t)))))

set_option maxHeartbeats 4000000 in
/-- The body at any point: the inputs' buffers hold their blocks filled out with whatever the fetch left past the
    arrays' end; the run applies to those contents; the inputs' buffers come back as they were, which on the rows inside
    the arrays is the proof data's block; each output's buffer comes back at the body's function of the buffers as they
    were, which on the rows inside the arrays is the proof data's (row locality). -/
theorem sound_body (hL : RowLocal (F := F) m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [after0_0, after0_1, after0_2, after0_3, after0_4, after0_5, after0_6, after0_7, after0_8, after0_9]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runAt (F := F) c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t))).2.2.2.2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  iintro ⟨H0, H1, H2, H3, ⟨%e4, H4⟩, ⟨%e5, H5⟩, ⟨%e6, H6⟩, ⟨%e7, H7⟩, ⟨%e8, H8⟩, ⟨%e9, H9⟩, ⟨%g0, HS0⟩, ⟨%g1, HS1⟩, ⟨%g2, HS2⟩, ⟨%g3, HS3⟩, ⟨%g4, HS4⟩⟩
  isplitl [HS0 HS1 HS2 HS3 HS4 Hg]
  · isplitl [HS0 HS1 HS2 HS3 HS4]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      · iexists _; unfold owns; iexists _; isplitr
        swap; · iexact HS4
        ipureintro; rfl
    · iexact Hg
  isplitl [Ho]; · iexact Ho
  isplitl [H0]
  · iexists d0
    rw [show win0_0.cut (grid0.coords t) (in0 m c t) = iblk m c 0 t from win0_0.cut_fill _ _ _]
    iexact H0
  isplitl [H1]
  · iexists d1
    rw [show win0_1.cut (grid0.coords t) (in1 m c t) = iblk m c 1 t from win0_1.cut_fill _ _ _]
    iexact H1
  isplitl [H2]
  · iexists d2
    rw [show win0_2.cut (grid0.coords t) (in2 m c t) = iblk m c 2 t from win0_2.cut_fill _ _ _]
    iexact H2
  isplitl [H3]
  · iexists d3
    rw [show win0_3.cut (grid0.coords t) (in3 m c t) = iblk m c 3 t from win0_3.cut_fill _ _ _]
    iexact H3
  isplitl [H4]
  · iexists (out4 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
    rw [win0_4.fill_congr_cut (grid0.coords t) (hL.loc4 c t d0 d1 d2 d3)]
    unfold out4 owns; iexists _; isplitr
    swap; · iexact H4
    ipureintro; exact View.read_writes_of_cover _ _ _ _ _ (cover4 c t _ _ _ _)
  isplitl [H5]
  · iexists (out5 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
    rw [win0_5.fill_congr_cut (grid0.coords t) (hL.loc5 c t d0 d1 d2 d3)]
    unfold out5 owns; iexists _; isplitr
    swap; · iexact H5
    ipureintro; exact View.read_writes_of_cover _ _ _ _ _ (cover5 c t _ _ _ _)
  isplitl [H6]
  · iexists (out6 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
    rw [win0_6.fill_congr_cut (grid0.coords t) (hL.loc6 c t d0 d1 d2 d3)]
    unfold out6 owns; iexists _; isplitr
    swap; · iexact H6
    ipureintro; exact View.read_writes_of_cover _ _ _ _ _ (cover6 c t _ _ _ _)
  isplitl [H7]
  · iexists (out7 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
    rw [win0_7.fill_congr_cut (grid0.coords t) (hL.loc7 c t d0 d1 d2 d3)]
    unfold out7 owns; iexists _; isplitr
    swap; · iexact H7
    ipureintro; exact View.read_writes_of_cover _ _ _ _ _ (cover7 c t _ _ _ _)
  isplitl [H8]
  · iexists (out8 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
    rw [win0_8.fill_congr_cut (grid0.coords t) (hL.loc8 c t d0 d1 d2 d3)]
    unfold out8 owns; iexists _; isplitr
    swap; · iexact H8
    ipureintro; exact View.read_writes_of_cover _ _ _ _ _ (cover8 c t _ _ _ _)
  · iexists (out9 c t (win0_0.fill (grid0.coords t) d0 (iblk m c 0 t)) (win0_1.fill (grid0.coords t) d1 (iblk m c 1 t)) (win0_2.fill (grid0.coords t) d2 (iblk m c 2 t)) (win0_3.fill (grid0.coords t) d3 (iblk m c 3 t)))
    rw [win0_9.fill_congr_cut (grid0.coords t) (hL.loc9 c t d0 d1 d2 d3)]
    unfold out9 owns; iexists _; isplitr
    swap; · iexact H9
    ipureintro; exact View.read_writes_of_cover _ _ _ _ _ (cover9 c t _ _ _ _)

/-- The body obligation, at every point, each buffer handed back stated on the rows inside the arrays. -/
theorem body_obligation (hL : RowLocal (F := F) m) (c : Dev nD) :
    BodyObligationLoose (dats (F := F) m 0 c) (defs₀ (F := F)) Variants.none () Set.univ := fun t => by
  rw [bigSep_W0, bigSep_W0]
  exact sound_body m hL c t

/-! ## The run and the frame -/

set_option backward.isDefEq.respectTransparency.types false in
/-- Every weakly fair execution of the program terminates, and every final state has every array of the pipeline at
    what the proof data compute (an input what it held, an output its entry contents overwritten block by block by the
    rows inside the array of what the body left) and every other buffer as the reshapes after the region leave it. -/
theorem run_main (hL : RowLocal (F := F) m) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m hL c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end, faults nowhere and leaves its four argument arrays as they were. -/
theorem frame (hL : RowLocal (F := F) m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ hL)

end Cert.KernelIdeal.Body

end
-- ==== Proof.Spec.lean ====
/-
  The six results, entry by entry, as functions of one row's scalars — the planar two-link leg's gravity vector,
  Coriolis matrix, mass matrix, moment-arm matrix and muscle-tendon lengths, and the activation rate of its seven
  muscles — over the extended reals, every float constant the extended real its 32-bit word encodes, every operation
  the exact one, the operands in the order the two programs print them. Then the six whole arrays, index by index:
  every entry of row r reads row r of the arguments only.
-/
import Idealize.ShloMosaic.PureOps.Ideal
import Idealize.ShloMosaic.Lib.ValueIdx

noncomputable section

namespace Cert.LegDynamics

open Idealize.ShloMosaic Idealize.ShloMosaic.ValueIdx

/-- The extended real a 32-bit float word encodes. -/
local notation:max "ℓ" w:max => Ideal.ofBits FTy.f32 w

/-! ## The shapes -/

/-- [1000000, 2]: the joint angles, the joint velocities, the gravity vector. -/
abbrev SB2 : Shape := ⟨2, ![1000000, 2]⟩
/-- [1000000, 7]: the activations, the neural inputs, the lengths, the activation rates. -/
abbrev SB7 : Shape := ⟨2, ![1000000, 7]⟩
/-- [1000000, 2, 2]: the Coriolis and mass matrices. -/
abbrev SB22 : Shape := ⟨3, ![1000000, 2, 2]⟩
/-- [1000000, 2, 7]: the moment-arm matrix. -/
abbrev SB27 : Shape := ⟨3, ![1000000, 2, 7]⟩

/-! ## One row -/

/-- The gravity vector: entry 0 is c₀ · sin q₀ (the hip), entry 1 is c₁ · sin q₁ (the knee). -/
def gq (k : Fin 2) (q0 q1 : EReal) : EReal :=
  match k with
  | ⟨0, _⟩ => ℓ 0xC2039C68#32 * Ideal.sin q0
  | ⟨1, _⟩ => ℓ 0xC156401A#32 * Ideal.sin q1

/-- The Coriolis matrix: zero on the diagonal, (−k · sin (q₀ − q₁)) · q̇₁ above it and (k · sin (q₀ − q₁)) · q̇₀ below. -/
def cmat (a b : Fin 2) (q0 q1 qd0 qd1 : EReal) : EReal :=
  match a, b with
  | ⟨0, _⟩, ⟨0, _⟩ => ℓ 0x00000000#32
  | ⟨0, _⟩, ⟨1, _⟩ => ℓ 0xBF084817#32 * Ideal.sin (q0 - q1) * qd1
  | ⟨1, _⟩, ⟨0, _⟩ => ℓ 0x3F084817#32 * Ideal.sin (q0 - q1) * qd0
  | ⟨1, _⟩, ⟨1, _⟩ => ℓ 0x00000000#32

/-- The mass matrix: the two constant inertias on the diagonal, k · cos (q₀ − q₁) off it. -/
def mmat (a b : Fin 2) (q0 q1 : EReal) : EReal :=
  match a, b with
  | ⟨0, _⟩, ⟨0, _⟩ => ℓ 0x3F8BD5F5#32
  | ⟨0, _⟩, ⟨1, _⟩ => ℓ 0x3F084817#32 * Ideal.cos (q0 - q1)
  | ⟨1, _⟩, ⟨0, _⟩ => ℓ 0x3F084817#32 * Ideal.cos (q0 - q1)
  | ⟨1, _⟩, ⟨1, _⟩ => ℓ 0x3EF605E1#32

/-- The moment arms of the seven muscles (iliopsoas, gluteus, rectus femoris, semitendinosus, vastus lateralis,
    biceps femoris, gastrocnemius) about the hip (row 0, a function of q₀) and about the knee (row 1, of q₁). -/
def rmat (a : Fin 2) (k : Fin 7) (q0 q1 : EReal) : EReal :=
  match a, k with
  | ⟨0, _⟩, ⟨0, _⟩ => ℓ 0x3D3851EC#32 * Ideal.cos (ℓ 0x3F19999A#32 * (q0 - ℓ 0x401C61AA#32))
  | ⟨0, _⟩, ⟨1, _⟩ => ℓ 0xBD75C28F#32 * Ideal.cos (ℓ 0x3F400000#32 * (q0 - ℓ 0x3FC90FDB#32))
  | ⟨0, _⟩, ⟨2, _⟩ => ℓ 0x3D591687#32 * Ideal.cos (q0 - ℓ 0x400DDC41#32)
  | ⟨0, _⟩, ⟨3, _⟩ => ℓ 0xBD8F5C29#32 * Ideal.cos (q0 - ℓ 0x4008467B#32)
  | ⟨0, _⟩, ⟨4, _⟩ => ℓ 0x00000000#32
  | ⟨0, _⟩, ⟨5, _⟩ => ℓ 0x00000000#32
  | ⟨0, _⟩, ⟨6, _⟩ => ℓ 0x00000000#32
  | ⟨1, _⟩, ⟨0, _⟩ => ℓ 0x00000000#32
  | ⟨1, _⟩, ⟨1, _⟩ => ℓ 0x00000000#32
  | ⟨1, _⟩, ⟨2, _⟩ => ℓ 0x3D591687#32 * Ideal.cos (ℓ 0x3F0CCCCD#32 * (q1 - ℓ 0x3FDF66F3#32))
  | ⟨1, _⟩, ⟨3, _⟩ => ℓ 0xBD23D70A#32 * Ideal.cos (q1 - ℓ 0x3FBDE44E#32)
  | ⟨1, _⟩, ⟨4, _⟩ => ℓ 0x3D4CCCCD#32 * Ideal.cos (ℓ 0x3F4CCCCD#32 * (q1 - ℓ 0x3FDF66F3#32))
  | ⟨1, _⟩, ⟨5, _⟩ => ℓ 0xBD1BA5E3#32 * Ideal.cos (q1 - ℓ 0x3F91361E#32)
  | ⟨1, _⟩, ⟨6, _⟩ => ℓ 0xBD1BA5E3#32 * Ideal.cos (ℓ 0x3F333333#32 * (q1 - ℓ 0x3F5F66F3#32))

/-- The weight of the soft lower clamp at a length L: c · logistic (100 · (L − 0.07)). -/
def clampWeight (L : EReal) : EReal :=
  ℓ 0x3F733333#32 * Ideal.logistic (ℓ 0x42C80000#32 * (L - ℓ 0x3D8F5C29#32))

/-- The soft lower clamp: L weighted by the clamp weight at L, the floor 0.05 by the rest. -/
def blend (L : EReal) : EReal :=
  L * clampWeight L + (ℓ 0x3F800000#32 - clampWeight L) * ℓ 0x3D4CCCCD#32

/-- The seven muscle-tendon lengths before the clamp, affine in the joint angles but for the rectus femoris, whose
    path over the hip is the third side of a triangle. -/
def len (k : Fin 7) (q0 q1 : EReal) : EReal :=
  match k with
  | ⟨0, _⟩ => ℓ 0x3DC08312#32 - ℓ 0x3D0F5C29#32 * (q0 - ℓ 0x3FC90FDB#32)
  | ⟨1, _⟩ => ℓ 0x3E020C4A#32 + ℓ 0x3D23D70A#32 * (q0 - ℓ 0x3FC90FDB#32)
  | ⟨2, _⟩ => ℓ 0x3D75C28F#32 + Ideal.sqrt (ℓ 0x3E1CAC08#32 + ℓ 0x3CBFB15B#32 * Ideal.cos q0) - ℓ 0x3EC84518#32
      - ℓ 0x3CF5C28F#32 * (q1 - q0)
  | ⟨3, _⟩ => ℓ 0x3D6147AE#32 + ℓ 0x3D4CCCCD#32 * (q0 - ℓ 0x3FC90FDB#32) + ℓ 0x3CF5C28F#32 * (q1 - q0)
  | ⟨4, _⟩ => ℓ 0x3D3C6A7F#32 + ℓ 0x3CF5C28F#32 * (q0 - q1)
  | ⟨5, _⟩ => ℓ 0x3E0E5604#32 + ℓ 0x3CF5C28F#32 * (q1 - q0)
  | ⟨6, _⟩ => ℓ 0x3D6147AE#32 + ℓ 0x3CF5C28F#32 * (q1 - q0)

/-- The seven muscle-tendon lengths, clamped. -/
def ltot (k : Fin 7) (q0 q1 : EReal) : EReal := blend (len k q0 q1)

/-- The activation rate of one muscle: (u − a) / τ. -/
def adot (a u : EReal) : EReal := Ideal.div (u - a) (ℓ 0x3DF5C28F#32)

/-! ## The six arrays -/

/-- The gravity vectors of all rows. -/
def Gq (q : SB2.Idx → EReal) : SB2.Idx → EReal :=
  fun i => gq (i 1) (q (ix2 (i 0) (0 : Fin 2))) (q (ix2 (i 0) (1 : Fin 2)))

/-- The Coriolis matrices of all rows. -/
def Cmat (q qd : SB2.Idx → EReal) : SB22.Idx → EReal :=
  fun i => cmat (i 1) (i 2) (q (ix2 (i 0) (0 : Fin 2))) (q (ix2 (i 0) (1 : Fin 2)))
    (qd (ix2 (i 0) (0 : Fin 2))) (qd (ix2 (i 0) (1 : Fin 2)))

/-- The mass matrices of all rows. -/
def Mmat (q : SB2.Idx → EReal) : SB22.Idx → EReal :=
  fun i => mmat (i 1) (i 2) (q (ix2 (i 0) (0 : Fin 2))) (q (ix2 (i 0) (1 : Fin 2)))

/-- The moment-arm matrices of all rows. -/
def Rmat (q : SB2.Idx → EReal) : SB27.Idx → EReal :=
  fun i => rmat (i 1) (i 2) (q (ix2 (i 0) (0 : Fin 2))) (q (ix2 (i 0) (1 : Fin 2)))

/-- The clamped muscle-tendon lengths of all rows. -/
def Ltot (q : SB2.Idx → EReal) : SB7.Idx → EReal :=
  fun i => ltot (i 1) (q (ix2 (i 0) (0 : Fin 2))) (q (ix2 (i 0) (1 : Fin 2)))

/-- The activation rates of all rows. -/
def Adot (A U : SB7.Idx → EReal) : SB7.Idx → EReal :=
  fun i => adot (A i) (U i)

/-! ## The arrays at explicit coordinates -/

theorem Gq_apply (q : SB2.Idx → EReal) (r : Fin 1000000) (k : Fin 2) :
    Gq q (ix2 r k) = gq k (q (ix2 r (0 : Fin 2))) (q (ix2 r (1 : Fin 2))) := rfl

theorem Cmat_apply (q qd : SB2.Idx → EReal) (r : Fin 1000000) (a b : Fin 2) :
    Cmat q qd (ix3 r a b) = cmat a b (q (ix2 r (0 : Fin 2))) (q (ix2 r (1 : Fin 2)))
      (qd (ix2 r (0 : Fin 2))) (qd (ix2 r (1 : Fin 2))) := rfl

theorem Mmat_apply (q : SB2.Idx → EReal) (r : Fin 1000000) (a b : Fin 2) :
    Mmat q (ix3 r a b) = mmat a b (q (ix2 r (0 : Fin 2))) (q (ix2 r (1 : Fin 2))) := rfl

theorem Rmat_apply (q : SB2.Idx → EReal) (r : Fin 1000000) (a : Fin 2) (k : Fin 7) :
    Rmat q (ix3 r a k) = rmat a k (q (ix2 r (0 : Fin 2))) (q (ix2 r (1 : Fin 2))) := rfl

theorem Ltot_apply (q : SB2.Idx → EReal) (r : Fin 1000000) (k : Fin 7) :
    Ltot q (ix2 r k) = ltot k (q (ix2 r (0 : Fin 2))) (q (ix2 r (1 : Fin 2))) := rfl

theorem Adot_apply (A U : SB7.Idx → EReal) (i : SB7.Idx) : Adot A U i = adot (A i) (U i) := rfl

end Cert.LegDynamics

end
-- ==== Proof.IdealRows.lean ====
/-
  The statement that the body of one grid point computes, in each output block, row by row the leg's formulas of the same
  row of the input blocks: entry (r, k) of the gravity block is the gravity formula of row r of the angle block, and so on
  for the Coriolis, mass and moment-arm blocks (stored with their two small axes flattened row-major: column 2a+b of a
  [·, 4] block is entry (a, b), column 7a+k of the [·, 14] block is entry (a, k)), the length block and the activation-rate
  block. Row r of every output block reads row r of the input blocks and nothing else.
-/
import proofs.«114054_j5351529251331_2_alg».proof.Proof.IdealOut
import proofs.«114054_j5351529251331_2_alg».proof.Proof.Spec

noncomputable section

namespace Cert.KernelIdeal.Body

open Cert.KernelIdeal Cert.KernelIdeal.Gen
open Idealize.ShloMosaic Idealize.ShloMosaic.ValueIdx

/-- Every entry of row `r` of each output block is the row's formula of row `r` of the input blocks. -/
structure RowFormulas : Prop where
  gq : ∀ (c : Dev nD) (t : Fin cfg0.N) (x0 x1 : Vec Ideal S3072x2 .f32) (x2 x3 : Vec Ideal S3072x7 .f32) (r : Fin 3072) (k : Fin 2),
    out4 (F := Ideal) c t x0 x1 x2 x3 (ix2 r k) = Cert.LegDynamics.gq k (x0 (ix2 r 0)) (x0 (ix2 r 1))
  cmat : ∀ (c : Dev nD) (t : Fin cfg0.N) (x0 x1 : Vec Ideal S3072x2 .f32) (x2 x3 : Vec Ideal S3072x7 .f32) (r : Fin 3072) (a b : Fin 2)
      (j : Fin 4), j.val = 2 * a.val + b.val →
    out5 (F := Ideal) c t x0 x1 x2 x3 (ix2 r j) = Cert.LegDynamics.cmat a b (x0 (ix2 r 0)) (x0 (ix2 r 1)) (x1 (ix2 r 0)) (x1 (ix2 r 1))
  mmat : ∀ (c : Dev nD) (t : Fin cfg0.N) (x0 x1 : Vec Ideal S3072x2 .f32) (x2 x3 : Vec Ideal S3072x7 .f32) (r : Fin 3072) (a b : Fin 2)
      (j : Fin 4), j.val = 2 * a.val + b.val →
    out6 (F := Ideal) c t x0 x1 x2 x3 (ix2 r j) = Cert.LegDynamics.mmat a b (x0 (ix2 r 0)) (x0 (ix2 r 1))
  rmat : ∀ (c : Dev nD) (t : Fin cfg0.N) (x0 x1 : Vec Ideal S3072x2 .f32) (x2 x3 : Vec Ideal S3072x7 .f32) (r : Fin 3072) (a : Fin 2) (k : Fin 7)
      (j : Fin 14), j.val = 7 * a.val + k.val →
    out7 (F := Ideal) c t x0 x1 x2 x3 (ix2 r j) = Cert.LegDynamics.rmat a k (x0 (ix2 r 0)) (x0 (ix2 r 1))
  ltot : ∀ (c : Dev nD) (t : Fin cfg0.N) (x0 x1 : Vec Ideal S3072x2 .f32) (x2 x3 : Vec Ideal S3072x7 .f32) (r : Fin 3072) (k : Fin 7),
    out8 (F := Ideal) c t x0 x1 x2 x3 (ix2 r k) = Cert.LegDynamics.ltot k (x0 (ix2 r 0)) (x0 (ix2 r 1))
  adot : ∀ (c : Dev nD) (t : Fin cfg0.N) (x0 x1 : Vec Ideal S3072x2 .f32) (x2 x3 : Vec Ideal S3072x7 .f32) (r : Fin 3072) (k : Fin 7),
    out9 (F := Ideal) c t x0 x1 x2 x3 (ix2 r k) = Cert.LegDynamics.adot (x2 (ix2 r k)) (x3 (ix2 r k))

end Cert.KernelIdeal.Body

end
-- ==== Proof.LibRowStores.lean ====
/-
  A kernel that computes on lane vectors and gathers its results row by row: a buffer of shape [m, n] filled one row
  [1, n] at a time holds, at (a, t), the payload of the newest store into row a, read at (0, t) — `canon_row_hit` when the
  newest store is into row a, `canon_row_miss` when it is into another row (the tactic `row_walk r` walks a literal list
  of such stores, newest first, down to the one that filled the row read) —; a load of a whole buffer after a list of
  stores reads exactly what they left (`readCov_whole`); column k of a [n, 2] block taken as the kernel takes it — the
  block transposed to [2, n], row k cut out, the unit axis dropped — is the block's column as a lane vector
  (`lane_apply`), and a lane vector cast to a one-row block [1, n] reads the vector (`row_apply`). `zero2` is the zero
  offset of a rank-two rectangle in the two spellings that meet. All over any extents m, n and any element values.
-/
import Idealize.ShloMosaic.Lib.ValueLayout
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.RowStores

open Idealize.ShloMosaic Idealize.ShloMosaic.ValueIdx

variable {Val : EltTy → Type} [∀ e, Nonempty (Val e)] {e : EltTy}

/-- The zero offsets of a rank-two rectangle, however spelt. -/
theorem zero2 : (![0, 0] : Fin 2 → Nat) = fun _ => 0 := by
  funext a; match a with | ⟨0, _⟩ => rfl | ⟨1, _⟩ => rfl

/-- The newest store filled row `o`: at `(a, t)` with `a = o` the contents are its payload at `(0, t)`. -/
theorem canon_row_hit {m n : Nat} (o : Nat)
    (inb : ∀ x, (![o, 0] : Fin 2 → Nat) x + (⟨2, ![1, n]⟩ : Shape).size x ≤ (⟨2, ![m, n]⟩ : Shape).size x)
    (w : (⟨2, ![1, n]⟩ : Shape).Idx → Val e) (L : List (View.Piece Val (⟨2, ![m, n]⟩ : Shape) e))
    (a : Fin m) (ha : a.val = o) (t : Fin n) :
    View.canon ((⟨Rect.unit (s := (⟨2, ![m, n]⟩ : Shape)) ![o, 0] (⟨2, ![1, n]⟩ : Shape).size inb, w⟩ :
        View.Piece Val (⟨2, ![m, n]⟩ : Shape) e) :: L) (ix2 a t) = w (ix2 (0 : Fin 1) t) := by
  have he : (Rect.unit (s := (⟨2, ![m, n]⟩ : Shape)) ![o, 0] (⟨2, ![1, n]⟩ : Shape).size inb).emb (ix2 (0 : Fin 1) t)
      = ix2 a t := by
    funext x; apply Fin.ext
    match x with
    | ⟨0, _⟩ => show o + 1 * 0 = a.val; omega
    | ⟨1, _⟩ => show 0 + 1 * t.val = t.val; omega
  exact (congrArg (View.canon _) he.symm).trans (View.canon_cons_emb (Rect.unit (s := (⟨2, ![m, n]⟩ : Shape)) ![o, 0] (⟨2, ![1, n]⟩ : Shape).size inb) w L (ix2 (0 : Fin 1) t))

/-- The newest store filled another row: the contents at `(a, t)` are what the older stores left. -/
theorem canon_row_miss {m n : Nat} (o : Nat)
    (inb : ∀ x, (![o, 0] : Fin 2 → Nat) x + (⟨2, ![1, n]⟩ : Shape).size x ≤ (⟨2, ![m, n]⟩ : Shape).size x)
    (w : (⟨2, ![1, n]⟩ : Shape).Idx → Val e) (L : List (View.Piece Val (⟨2, ![m, n]⟩ : Shape) e))
    (a : Fin m) (ha : a.val ≠ o) (t : Fin n) :
    View.canon ((⟨Rect.unit (s := (⟨2, ![m, n]⟩ : Shape)) ![o, 0] (⟨2, ![1, n]⟩ : Shape).size inb, w⟩ :
        View.Piece Val (⟨2, ![m, n]⟩ : Shape) e) :: L) (ix2 a t) = View.canon L (ix2 a t) := by
  refine View.canon_cons_of_not_mem _ L ?_
  intro hm
  obtain ⟨i, hi, he⟩ := (LoadRect.mem_set _).mp hm (0 : Fin 2)
  have hi1 : i < 1 := hi
  have he' : a.val = o + 1 * i := he
  omega

/-- A load of a whole buffer after the stores `L` reads what they left. -/
theorem readCov_whole {sig : RefSig} {κ : Kind} {sp : Space} {S : Shape} (v : View sig κ sp S e)
    (L : List (View.Piece Val S e)) {off : Fin S.rank → Nat} (hz : off = fun _ => 0)
    (inb : ∀ a, off a + S.size a ≤ S.size a) :
    v.readCov L (Rect.unit off S.size inb).toLoadRect = View.canon L := by
  rw [View.readCov_eq_canon']
  exact View.ld_unit_zero hz inb (View.canon L)

section Lanes
variable {α : Type} {n : Nat}

/-- Column `k` of a [n, 2] block, as the kernel takes it: the block transposed, row `o = k` cut out, the unit axis dropped. -/
theorem lane_apply (v : (⟨2, ![n, 2]⟩ : Shape).Idx → α) (o : Nat)
    (ht : (⟨2, ![n, 2]⟩ : Shape).Transposes [1, 0] ⟨2, ![2, n]⟩)
    (hs : (⟨2, ![2, n]⟩ : Shape).Slices ![o, 0] ⟨2, ![1, n]⟩)
    (hc : (⟨2, ![1, n]⟩ : Shape).ShapeCasts ⟨1, ![n]⟩) (k : Fin 2) (hk : k.val = o) (r : Fin n) :
    shapeCast ⟨1, ![n]⟩ (extractStridedSlice ⟨2, ![1, n]⟩ ![o, 0] (transpose ⟨2, ![2, n]⟩ [1, 0] v ht) hs) hc (ix1 r)
      = v (ix2 r k) :=
  (shapeCast_1a_a_apply _ hc r).trans
    ((slice2_axis0_apply o _ hs (0 : Fin 1) r k (by rw [hk]; rfl)).trans (transpose_ix2_apply v ht k r))

/-- A lane vector cast to a one-row block reads the vector. -/
theorem row_apply (x : (⟨1, ![n]⟩ : Shape).Idx → α) (h : (⟨1, ![n]⟩ : Shape).ShapeCasts ⟨2, ![1, n]⟩) (r : Fin n) :
    shapeCast ⟨2, ![1, n]⟩ x h (ix2 (0 : Fin 1) r) = x (ix1 r) := shapeCast_a_1a_apply x h 0 r

end Lanes

/-- Walk a buffer's row stores, newest first, down to the one that filled the row read, and read its payload at lane `r`. -/
macro "row_walk " r:term : tactic => `(tactic|
  (repeat (refine (canon_row_miss _ _ _ _ _ (by first | decide | (dsimp only; decide)) $r).trans ?_)
   refine (canon_row_hit _ _ _ _ _ (by rfl) $r).trans ?_))

end Cert.RowStores

end
-- ==== Proof.IdealEntriesBase.lean ====
/-
  Reading tools for the body's blocks. A buffer of shape [m, n] filled one row [1, n] at a time holds, at (a, t), the
  payload of the newest store into row a, at (0, t); a load of a whole buffer after such stores reads exactly that. A
  [n, 2] block transposed, cut to one of its two rows and flattened to a lane vector is the block's column; a lane vector
  cast to a [1, n] row reads the vector.
-/
import proofs.«114054_j5351529251331_2_alg».proof.Proof.IdealOut
import proofs.«114054_j5351529251331_2_alg».proof.Proof.LibRowStores
import Idealize.ShloMosaic.Lib.ValueLayout

set_option maxRecDepth 16384

noncomputable section

namespace Cert.KernelIdeal.Body

open Cert.KernelIdeal Cert.KernelIdeal.Gen
open Idealize.ShloMosaic Idealize.ShloMosaic.ValueIdx

export Cert.RowStores (zero2 canon_row_hit canon_row_miss readCov_whole lane_apply row_apply)

/-- The angle block's column 0 as a lane vector. -/
theorem pay5_apply {F : FTy → Type} [FloatOps F] (v : Vec F S3072x2 .f32) (r : Fin 3072) :
    k0_pay5 v (ix1 r) = v (ix2 r (0 : Fin 2)) :=
  lane_apply v 0 transposes_S3072x2_p1_0_S2x3072 slices_S2x3072_o0_0_S1x3072 shapeCasts_S1x3072_S3072 0 rfl r

/-- The angle block's column 1 as a lane vector. -/
theorem pay6_apply {F : FTy → Type} [FloatOps F] (v : Vec F S3072x2 .f32) (r : Fin 3072) :
    k0_pay6 v (ix1 r) = v (ix2 r (1 : Fin 2)) :=
  lane_apply v 1 transposes_S3072x2_p1_0_S2x3072 slices_S2x3072_o1_0_S1x3072 shapeCasts_S1x3072_S3072 1 rfl r

/-- The velocity block's column 0 as a lane vector. -/
theorem qd0_apply {F : FTy → Type} [FloatOps F] (v : Vec F S3072x2 .f32) (r : Fin 3072) :
    shapeCast S3072 (extractStridedSlice S1x3072 ![0, 0] (k0_pay4 v) slices_S2x3072_o0_0_S1x3072) shapeCasts_S1x3072_S3072 (ix1 r)
      = v (ix2 r (0 : Fin 2)) :=
  lane_apply v 0 transposes_S3072x2_p1_0_S2x3072 slices_S2x3072_o0_0_S1x3072 shapeCasts_S1x3072_S3072 0 rfl r

/-- The velocity block's column 1 as a lane vector. -/
theorem qd1_apply {F : FTy → Type} [FloatOps F] (v : Vec F S3072x2 .f32) (r : Fin 3072) :
    shapeCast S3072 (extractStridedSlice S1x3072 ![1, 0] (k0_pay4 v) slices_S2x3072_o1_0_S1x3072) shapeCasts_S1x3072_S3072 (ix1 r)
      = v (ix2 r (1 : Fin 2)) :=
  lane_apply v 1 transposes_S3072x2_p1_0_S2x3072 slices_S2x3072_o1_0_S1x3072 shapeCasts_S1x3072_S3072 1 rfl r

end Cert.KernelIdeal.Body

end
-- ==== Proof.IdealEntries4.lean ====
/-
  The gravity block. The body writes the two lane vectors c₀ · sin q₀ and c₁ · sin q₁ into rows 0 and 1 of a [2, n]
  scratch buffer, reads the buffer back whole, transposes it and stores it whole: entry (r, k) of the block is row k of the
  scratch at lane r, the gravity formula of row r of the angle block.
-/
import proofs.«114054_j5351529251331_2_alg».proof.Proof.IdealEntriesBase
import proofs.«114054_j5351529251331_2_alg».proof.Proof.Spec

set_option maxRecDepth 16384

noncomputable section

namespace Cert.KernelIdeal.Body

open Cert.KernelIdeal Cert.KernelIdeal.Gen Cert.LegDynamics
open Idealize.ShloMosaic Idealize.ShloMosaic.ValueIdx Idealize.ShloMosaic.Tactic

/-- The extended real a 32-bit float word encodes. -/
local notation:max "ℓ" w:max => Ideal.ofBits FTy.f32 w

/-- What the body leaves in the gravity buffer: the transpose of the scratch buffer's two rows. -/
theorem out4_eq (c : Dev nD) (t : Fin cfg0.N) (x0 x1 : Vec Ideal S3072x2 .f32) (x2 x3 : Vec Ideal S3072x7 .f32) :
    out4 (F := Ideal) c t x0 x1 x2 x3 = k0_pay9 (View.canon
      [⟨Rect.unit ![1, 0] S1x3072.size inb_S2x3072_S1x3072_1_0, k0_pay8 x0⟩,
       ⟨Rect.unit ![0, 0] S1x3072.size inb_S2x3072_S1x3072_0_0, k0_pay7 x0⟩]) := by
  unfold out4
  rw [View.read_writes_junk_eq_canon]
  unfold runAt bodyRun
  dsimp only
  rw [View.canon_unit_zero (S := S3072x2) zero2]
  sl_unfold_words
  rw [readCov_whole _ _ zero2]
  simp only [View.readAt_eq_ld, Memref.IsWhole.read_unread, View.ld_unit_zero (S := S3072x2) zero2]

/-- Entry (r, k) of the gravity block is the gravity formula of row r of the angle block. -/
theorem out4_apply (c : Dev nD) (t : Fin cfg0.N) (x0 x1 : Vec Ideal S3072x2 .f32) (x2 x3 : Vec Ideal S3072x7 .f32)
    (r : Fin 3072) (k : Fin 2) :
    out4 (F := Ideal) c t x0 x1 x2 x3 (ix2 r k) = gq k (x0 (ix2 r 0)) (x0 (ix2 r 1)) := by
  rw [out4_eq]
  unfold k0_pay9
  refine (transpose_ix2_apply _ transposes_S2x3072_p1_0_S3072x2 r k).trans ?_
  match k with
  | ⟨0, _⟩ =>
    row_walk r
    simp only [k0_pay7, k0_pay8]
    refine (row_apply _ shapeCasts_S3072_S1x3072 r).trans ?_
    rw [← pay5_apply x0 r, ← pay6_apply x0 r]; rfl
  | ⟨1, _⟩ =>
    row_walk r
    simp only [k0_pay7, k0_pay8]
    refine (row_apply _ shapeCasts_S3072_S1x3072 r).trans ?_
    rw [← pay5_apply x0 r, ← pay6_apply x0 r]; rfl

end Cert.KernelIdeal.Body

end
-- ==== Proof.IdealEntries5.lean ====
/-
  The Coriolis block. With s = sin (q₀ − q₁), the body writes the lane vectors 0, (−k · s) · q̇₁, (k · s) · q̇₀, 0 into rows
  0 to 3 of a [4, n] scratch buffer, reads the buffer back whole, transposes it and stores it whole: entry (r, 2a + b) of
  the block is row 2a + b of the scratch at lane r, entry (a, b) of the Coriolis matrix of row r of the angle and velocity
  blocks.
-/
import proofs.«114054_j5351529251331_2_alg».proof.Proof.IdealEntriesBase
import proofs.«114054_j5351529251331_2_alg».proof.Proof.Spec

set_option maxRecDepth 16384

noncomputable section

namespace Cert.KernelIdeal.Body

open Cert.KernelIdeal Cert.KernelIdeal.Gen Cert.LegDynamics
open Idealize.ShloMosaic Idealize.ShloMosaic.ValueIdx Idealize.ShloMosaic.Tactic

/-- The extended real a 32-bit float word encodes. -/
local notation:max "ℓ" w:max => Ideal.ofBits FTy.f32 w

/-- What the body leaves in the Coriolis buffer: the transpose of the scratch buffer's four rows. -/
theorem out5_eq (c : Dev nD) (t : Fin cfg0.N) (x0 x1 : Vec Ideal S3072x2 .f32) (x2 x3 : Vec Ideal S3072x7 .f32) :
    out5 (F := Ideal) c t x0 x1 x2 x3 = k0_pay18 (View.canon
      [⟨Rect.unit ![3, 0] S1x3072.size inb_S4x3072_S1x3072_3_0, k0_pay17 (F := Ideal) k0_pay13⟩,
       ⟨Rect.unit ![2, 0] S1x3072.size inb_S4x3072_S1x3072_2_0, k0_pay16 (k0_pay12 x0 x1)⟩,
       ⟨Rect.unit ![1, 0] S1x3072.size inb_S4x3072_S1x3072_1_0, k0_pay15 (k0_pay11 x0 x1)⟩,
       ⟨Rect.unit ![0, 0] S1x3072.size inb_S4x3072_S1x3072_0_0, k0_pay14 (F := Ideal) k0_pay13⟩]) := by
  unfold out5
  rw [View.read_writes_junk_eq_canon]
  unfold runAt bodyRun
  dsimp only
  rw [View.canon_unit_zero (S := S3072x4) zero2]
  sl_unfold_words
  rw [readCov_whole _ _ zero2]
  simp only [View.readAt_eq_ld, Memref.IsWhole.read_unread, View.ld_unit_zero (S := S3072x2) zero2]

set_option hygiene false in
/-- One column: find the row's store, read its lane vector at lane r, and compare the arithmetic entry by entry. -/
local macro "column5" : tactic => `(tactic|
  (row_walk r
   simp only [k0_pay14, k0_pay15, k0_pay16, k0_pay17]
   refine (row_apply _ shapeCasts_S3072_S1x3072 r).trans ?_
   rw [← pay5_apply x0 r, ← pay6_apply x0 r, ← qd0_apply x1 r, ← qd1_apply x1 r]; rfl))

/-- Entry (r, 2a + b) of the Coriolis block is entry (a, b) of the Coriolis matrix of row r of the angle and velocity
    blocks. -/
theorem out5_apply (c : Dev nD) (t : Fin cfg0.N) (x0 x1 : Vec Ideal S3072x2 .f32) (x2 x3 : Vec Ideal S3072x7 .f32)
    (r : Fin 3072) (a b : Fin 2) (j : Fin 4) (hj : j.val = 2 * a.val + b.val) :
    out5 (F := Ideal) c t x0 x1 x2 x3 (ix2 r j)
      = cmat a b (x0 (ix2 r 0)) (x0 (ix2 r 1)) (x1 (ix2 r 0)) (x1 (ix2 r 1)) := by
  rw [out5_eq]
  unfold k0_pay18
  refine (transpose_ix2_apply _ transposes_S4x3072_p1_0_S3072x4 r j).trans ?_
  match a, b, hj with
  | ⟨0, _⟩, ⟨0, _⟩, hj => obtain rfl : j = ⟨0, by decide⟩ := Fin.ext hj; column5
  | ⟨0, _⟩, ⟨1, _⟩, hj => obtain rfl : j = ⟨1, by decide⟩ := Fin.ext hj; column5
  | ⟨1, _⟩, ⟨0, _⟩, hj => obtain rfl : j = ⟨2, by decide⟩ := Fin.ext hj; column5
  | ⟨1, _⟩, ⟨1, _⟩, hj => obtain rfl : j = ⟨3, by decide⟩ := Fin.ext hj; column5

end Cert.KernelIdeal.Body

end
-- ==== Proof.IdealEntries6.lean ====
/-
  The mass-matrix block. The body writes four lane vectors — the constant inertia of the thigh, k · cos (q₀ − q₁) twice,
  the constant inertia of the shank — into rows 0 to 3 of a [4, n] scratch buffer, reads the buffer back whole, transposes
  it and stores it whole: entry (r, 2a + b) of the block is row 2a + b of the scratch at lane r, entry (a, b) of the mass
  matrix at the angles of row r.
-/
import proofs.«114054_j5351529251331_2_alg».proof.Proof.IdealEntriesBase
import proofs.«114054_j5351529251331_2_alg».proof.Proof.Spec

set_option maxRecDepth 16384

noncomputable section

namespace Cert.KernelIdeal.Body

open Cert.KernelIdeal Cert.KernelIdeal.Gen Cert.LegDynamics
open Idealize.ShloMosaic Idealize.ShloMosaic.ValueIdx Idealize.ShloMosaic.Tactic

/-- The off-diagonal lane vector at lane r, k · cos of the difference of the two angle lanes, is entry (0, 1) … -/
theorem lane19_01 (v5 v7 : FVec Ideal S3072 .f32) (r : Fin 3072) (h0 : 0 < 2) (h1 : 1 < 2) :
    k0_pay19 v5 v7 (ix1 r) = mmat ⟨0, h0⟩ ⟨1, h1⟩ (v5 (ix1 r)) (v7 (ix1 r)) := rfl

/-- … and entry (1, 0) of the mass matrix. -/
theorem lane19_10 (v5 v7 : FVec Ideal S3072 .f32) (r : Fin 3072) (h0 : 0 < 2) (h1 : 1 < 2) :
    k0_pay19 v5 v7 (ix1 r) = mmat ⟨1, h1⟩ ⟨0, h0⟩ (v5 (ix1 r)) (v7 (ix1 r)) := rfl

/-- What the body leaves in the mass-matrix buffer: the transpose of the scratch buffer's four rows. -/
theorem out6_eq (c : Dev nD) (t : Fin cfg0.N) (x0 x1 : Vec Ideal S3072x2 .f32) (x2 x3 : Vec Ideal S3072x7 .f32) :
    out6 (F := Ideal) c t x0 x1 x2 x3 = k0_pay25 (View.canon
      [⟨Rect.unit ![3, 0] S1x3072.size inb_S4x3072_S1x3072_3_0, k0_pay24 (k0_pay20 (F := Ideal))⟩,
       ⟨Rect.unit ![2, 0] S1x3072.size inb_S4x3072_S1x3072_2_0, k0_pay23 (k0_pay5 x0) (k0_pay6 x0)⟩,
       ⟨Rect.unit ![1, 0] S1x3072.size inb_S4x3072_S1x3072_1_0, k0_pay22 (k0_pay5 x0) (k0_pay6 x0)⟩,
       ⟨Rect.unit ![0, 0] S1x3072.size inb_S4x3072_S1x3072_0_0, k0_pay21 (F := Ideal)⟩]) := by
  unfold out6
  rw [View.read_writes_junk_eq_canon]
  unfold runAt bodyRun
  dsimp only
  rw [View.canon_unit_zero (S := S3072x4) zero2]
  sl_unfold_words
  rw [readCov_whole _ _ zero2]
  simp only [View.readAt_eq_ld, Memref.IsWhole.read_unread, View.ld_unit_zero (S := S3072x2) zero2]

/-- Entry (r, 2a + b) of the mass-matrix block is entry (a, b) of the mass matrix at the angles of row r. -/
theorem out6_apply (c : Dev nD) (t : Fin cfg0.N) (x0 x1 : Vec Ideal S3072x2 .f32) (x2 x3 : Vec Ideal S3072x7 .f32)
    (r : Fin 3072) (a b : Fin 2) (j : Fin 4) (hj : j.val = 2 * a.val + b.val) :
    out6 (F := Ideal) c t x0 x1 x2 x3 (ix2 r j) = mmat a b (x0 (ix2 r 0)) (x0 (ix2 r 1)) := by
  rw [out6_eq]
  unfold k0_pay25
  refine (transpose_ix2_apply _ transposes_S4x3072_p1_0_S3072x4 r j).trans ?_
  match a, b, hj with
  | ⟨0, _⟩, ⟨0, _⟩, hj =>
    obtain rfl : j = ⟨0, by decide⟩ := Fin.ext hj
    row_walk r
    simp only [k0_pay21, k0_pay22, k0_pay23, k0_pay24]
    refine (row_apply _ shapeCasts_S3072_S1x3072 r).trans ?_
    rfl
  | ⟨0, _⟩, ⟨1, _⟩, hj =>
    obtain rfl : j = ⟨1, by decide⟩ := Fin.ext hj
    row_walk r
    simp only [k0_pay21, k0_pay22, k0_pay23, k0_pay24]
    refine (row_apply _ shapeCasts_S3072_S1x3072 r).trans ?_
    rw [lane19_01 _ _ r, pay5_apply, pay6_apply]
  | ⟨1, _⟩, ⟨0, _⟩, hj =>
    obtain rfl : j = ⟨2, by decide⟩ := Fin.ext hj
    row_walk r
    simp only [k0_pay21, k0_pay22, k0_pay23, k0_pay24]
    refine (row_apply _ shapeCasts_S3072_S1x3072 r).trans ?_
    rw [lane19_10 _ _ r, pay5_apply, pay6_apply]
  | ⟨1, _⟩, ⟨1, _⟩, hj =>
    obtain rfl : j = ⟨3, by decide⟩ := Fin.ext hj
    row_walk r
    simp only [k0_pay21, k0_pay22, k0_pay23, k0_pay24]
    refine (row_apply _ shapeCasts_S3072_S1x3072 r).trans ?_
    rfl

end Cert.KernelIdeal.Body

end
-- ==== Proof.IdealEntries7.lean ====
/-
  The moment-arm block. The body forms the moment arms of the seven muscles about the hip (functions of the hip angle) and
  about the knee (functions of the knee angle) as lane vectors, five of the fourteen being the zero vector, writes them
  into rows 0 to 13 of a [14, n] scratch buffer (row 7a + k holds the arm of muscle k about joint a), reads the buffer
  back whole, transposes it and stores it whole: entry (r, 7a + k) of the block is row 7a + k of the scratch at lane r,
  the moment arm of muscle k about joint a at the angles of row r.
-/
import proofs.«114054_j5351529251331_2_alg».proof.Proof.IdealEntriesBase
import proofs.«114054_j5351529251331_2_alg».proof.Proof.Spec

set_option maxRecDepth 16384

noncomputable section

namespace Cert.KernelIdeal.Body

open Cert.KernelIdeal Cert.KernelIdeal.Gen Cert.LegDynamics
open Idealize.ShloMosaic Idealize.ShloMosaic.ValueIdx Idealize.ShloMosaic.Tactic

/-! ## The fourteen rows of the scratch buffer

At the exact operations every lane formula is, read at lane r, the row's formula of the two angles of row r, term for
term: the constants are the same words, the operations come in the same order. -/

/-- Row 0 of the moment-arm scratch: the iliopsoas about the hip. -/
theorem arm_row0 (x0 : Vec Ideal S3072x2 .f32) (r : Fin 3072) :
    k0_pay34 (k0_pay5 x0) k0_pay32 (ix2 (0 : Fin 1) r) = rmat 0 0 (x0 (ix2 r 0)) (x0 (ix2 r 1)) := by
  unfold k0_pay34
  refine (row_apply _ shapeCasts_S3072_S1x3072 r).trans ?_
  rw [← pay5_apply x0 r, ← pay6_apply x0 r]; rfl

/-- Row 1: the gluteus about the hip. -/
theorem arm_row1 (x0 : Vec Ideal S3072x2 .f32) (r : Fin 3072) :
    k0_pay35 (k0_pay5 x0) (ix2 (0 : Fin 1) r) = rmat 0 1 (x0 (ix2 r 0)) (x0 (ix2 r 1)) := by
  unfold k0_pay35
  refine (row_apply _ shapeCasts_S3072_S1x3072 r).trans ?_
  rw [← pay5_apply x0 r, ← pay6_apply x0 r]; rfl

/-- Row 2: the rectus femoris about the hip. -/
theorem arm_row2 (x0 : Vec Ideal S3072x2 .f32) (r : Fin 3072) :
    k0_pay36 (k0_pay28 (k0_pay5 x0)) (ix2 (0 : Fin 1) r) = rmat 0 2 (x0 (ix2 r 0)) (x0 (ix2 r 1)) := by
  unfold k0_pay36
  refine (row_apply _ shapeCasts_S3072_S1x3072 r).trans ?_
  rw [← pay5_apply x0 r, ← pay6_apply x0 r]; rfl

/-- Row 3: the semitendinosus about the hip. -/
theorem arm_row3 (x0 : Vec Ideal S3072x2 .f32) (r : Fin 3072) :
    k0_pay37 (k0_pay30 (k0_pay5 x0)) (ix2 (0 : Fin 1) r) = rmat 0 3 (x0 (ix2 r 0)) (x0 (ix2 r 1)) := by
  unfold k0_pay37
  refine (row_apply _ shapeCasts_S3072_S1x3072 r).trans ?_
  rw [← pay5_apply x0 r, ← pay6_apply x0 r]; rfl

/-- Row 4: the zero vector (the vastus lateralis about the hip). -/
theorem arm_row4 (x0 : Vec Ideal S3072x2 .f32) (r : Fin 3072) :
    k0_pay38 (k0_pay13 (F := Ideal)) (ix2 (0 : Fin 1) r) = rmat 0 4 (x0 (ix2 r 0)) (x0 (ix2 r 1)) := by
  unfold k0_pay38
  refine (row_apply _ shapeCasts_S3072_S1x3072 r).trans ?_
  rw [← pay5_apply x0 r, ← pay6_apply x0 r]; rfl

/-- Row 5: the zero vector (the biceps femoris about the hip). -/
theorem arm_row5 (x0 : Vec Ideal S3072x2 .f32) (r : Fin 3072) :
    (shapeCast S1x3072 (k0_pay13 (F := Ideal)) shapeCasts_S3072_S1x3072 : FVec Ideal S1x3072 .f32) (ix2 (0 : Fin 1) r) = rmat 0 5 (x0 (ix2 r 0)) (x0 (ix2 r 1)) := by
  refine (row_apply _ shapeCasts_S3072_S1x3072 r).trans ?_
  rw [← pay5_apply x0 r, ← pay6_apply x0 r]; rfl

/-- Row 6: the zero vector (the gastrocnemius about the hip). -/
theorem arm_row6 (x0 : Vec Ideal S3072x2 .f32) (r : Fin 3072) :
    (shapeCast S1x3072 (k0_pay13 (F := Ideal)) shapeCasts_S3072_S1x3072 : FVec Ideal S1x3072 .f32) (ix2 (0 : Fin 1) r) = rmat 0 6 (x0 (ix2 r 0)) (x0 (ix2 r 1)) := by
  refine (row_apply _ shapeCasts_S3072_S1x3072 r).trans ?_
  rw [← pay5_apply x0 r, ← pay6_apply x0 r]; rfl

/-- Row 7: the zero vector (the iliopsoas about the knee). -/
theorem arm_row7 (x0 : Vec Ideal S3072x2 .f32) (r : Fin 3072) :
    (shapeCast S1x3072 (k0_pay13 (F := Ideal)) shapeCasts_S3072_S1x3072 : FVec Ideal S1x3072 .f32) (ix2 (0 : Fin 1) r) = rmat 1 0 (x0 (ix2 r 0)) (x0 (ix2 r 1)) := by
  refine (row_apply _ shapeCasts_S3072_S1x3072 r).trans ?_
  rw [← pay5_apply x0 r, ← pay6_apply x0 r]; rfl

/-- Row 8: the zero vector (the gluteus about the knee). -/
theorem arm_row8 (x0 : Vec Ideal S3072x2 .f32) (r : Fin 3072) :
    (shapeCast S1x3072 (k0_pay13 (F := Ideal)) shapeCasts_S3072_S1x3072 : FVec Ideal S1x3072 .f32) (ix2 (0 : Fin 1) r) = rmat 1 1 (x0 (ix2 r 0)) (x0 (ix2 r 1)) := by
  refine (row_apply _ shapeCasts_S3072_S1x3072 r).trans ?_
  rw [← pay5_apply x0 r, ← pay6_apply x0 r]; rfl

/-- Row 9: the rectus femoris about the knee. -/
theorem arm_row9 (x0 : Vec Ideal S3072x2 .f32) (r : Fin 3072) :
    (shapeCast S1x3072 (k0_pay29 (k0_pay6 x0)) shapeCasts_S3072_S1x3072 : FVec Ideal S1x3072 .f32) (ix2 (0 : Fin 1) r) = rmat 1 2 (x0 (ix2 r 0)) (x0 (ix2 r 1)) := by
  refine (row_apply _ shapeCasts_S3072_S1x3072 r).trans ?_
  rw [← pay5_apply x0 r, ← pay6_apply x0 r]; rfl

/-- Row 10: the semitendinosus about the knee. -/
theorem arm_row10 (x0 : Vec Ideal S3072x2 .f32) (r : Fin 3072) :
    (shapeCast S1x3072 (k0_pay31 (k0_pay6 x0)) shapeCasts_S3072_S1x3072 : FVec Ideal S1x3072 .f32) (ix2 (0 : Fin 1) r) = rmat 1 3 (x0 (ix2 r 0)) (x0 (ix2 r 1)) := by
  refine (row_apply _ shapeCasts_S3072_S1x3072 r).trans ?_
  rw [← pay5_apply x0 r, ← pay6_apply x0 r]; rfl

/-- Row 11: the vastus lateralis about the knee. -/
theorem arm_row11 (x0 : Vec Ideal S3072x2 .f32) (r : Fin 3072) :
    (shapeCast S1x3072 (k0_pay26 (k0_pay6 x0)) shapeCasts_S3072_S1x3072 : FVec Ideal S1x3072 .f32) (ix2 (0 : Fin 1) r) = rmat 1 4 (x0 (ix2 r 0)) (x0 (ix2 r 1)) := by
  refine (row_apply _ shapeCasts_S3072_S1x3072 r).trans ?_
  rw [← pay5_apply x0 r, ← pay6_apply x0 r]; rfl

/-- Row 12: the biceps femoris about the knee. -/
theorem arm_row12 (x0 : Vec Ideal S3072x2 .f32) (r : Fin 3072) :
    (shapeCast S1x3072 (k0_pay27 (k0_pay6 x0)) shapeCasts_S3072_S1x3072 : FVec Ideal S1x3072 .f32) (ix2 (0 : Fin 1) r) = rmat 1 5 (x0 (ix2 r 0)) (x0 (ix2 r 1)) := by
  refine (row_apply _ shapeCasts_S3072_S1x3072 r).trans ?_
  rw [← pay5_apply x0 r, ← pay6_apply x0 r]; rfl

/-- Row 13: the gastrocnemius about the knee. -/
theorem arm_row13 (x0 : Vec Ideal S3072x2 .f32) (r : Fin 3072) :
    (shapeCast S1x3072 (k0_pay33 (k0_pay6 x0)) shapeCasts_S3072_S1x3072 : FVec Ideal S1x3072 .f32) (ix2 (0 : Fin 1) r) = rmat 1 6 (x0 (ix2 r 0)) (x0 (ix2 r 1)) := by
  refine (row_apply _ shapeCasts_S3072_S1x3072 r).trans ?_
  rw [← pay5_apply x0 r, ← pay6_apply x0 r]; rfl

/-! ## The moment-arm block -/

/-- What the body leaves in the moment-arm buffer: the transpose of the scratch buffer's fourteen rows. -/
theorem out7_eq (c : Dev nD) (t : Fin cfg0.N) (x0 x1 : Vec Ideal S3072x2 .f32) (x2 x3 : Vec Ideal S3072x7 .f32) :
    out7 (F := Ideal) c t x0 x1 x2 x3 = transpose S3072x14 [1, 0] (View.canon
      ([
       ⟨Rect.unit ![13, 0] S1x3072.size inb_S14x3072_S1x3072_13_0, shapeCast S1x3072 (k0_pay33 (k0_pay6 x0)) shapeCasts_S3072_S1x3072⟩,
       ⟨Rect.unit ![12, 0] S1x3072.size inb_S14x3072_S1x3072_12_0, shapeCast S1x3072 (k0_pay27 (k0_pay6 x0)) shapeCasts_S3072_S1x3072⟩,
       ⟨Rect.unit ![11, 0] S1x3072.size inb_S14x3072_S1x3072_11_0, shapeCast S1x3072 (k0_pay26 (k0_pay6 x0)) shapeCasts_S3072_S1x3072⟩,
       ⟨Rect.unit ![10, 0] S1x3072.size inb_S14x3072_S1x3072_10_0, shapeCast S1x3072 (k0_pay31 (k0_pay6 x0)) shapeCasts_S3072_S1x3072⟩,
       ⟨Rect.unit ![9, 0] S1x3072.size inb_S14x3072_S1x3072_9_0, shapeCast S1x3072 (k0_pay29 (k0_pay6 x0)) shapeCasts_S3072_S1x3072⟩,
       ⟨Rect.unit ![8, 0] S1x3072.size inb_S14x3072_S1x3072_8_0, shapeCast S1x3072 (k0_pay13 (F := Ideal)) shapeCasts_S3072_S1x3072⟩,
       ⟨Rect.unit ![7, 0] S1x3072.size inb_S14x3072_S1x3072_7_0, shapeCast S1x3072 (k0_pay13 (F := Ideal)) shapeCasts_S3072_S1x3072⟩,
       ⟨Rect.unit ![6, 0] S1x3072.size inb_S14x3072_S1x3072_6_0, shapeCast S1x3072 (k0_pay13 (F := Ideal)) shapeCasts_S3072_S1x3072⟩,
       ⟨Rect.unit ![5, 0] S1x3072.size inb_S14x3072_S1x3072_5_0, shapeCast S1x3072 (k0_pay13 (F := Ideal)) shapeCasts_S3072_S1x3072⟩,
       ⟨Rect.unit ![4, 0] S1x3072.size inb_S14x3072_S1x3072_4_0, k0_pay38 (k0_pay13 (F := Ideal))⟩,
       ⟨Rect.unit ![3, 0] S1x3072.size inb_S14x3072_S1x3072_3_0, k0_pay37 (k0_pay30 (k0_pay5 x0))⟩,
       ⟨Rect.unit ![2, 0] S1x3072.size inb_S14x3072_S1x3072_2_0, k0_pay36 (k0_pay28 (k0_pay5 x0))⟩,
       ⟨Rect.unit ![1, 0] S1x3072.size inb_S14x3072_S1x3072_1_0, k0_pay35 (k0_pay5 x0)⟩,
       ⟨Rect.unit ![0, 0] S1x3072.size inb_S14x3072_S1x3072_0_0, k0_pay34 (k0_pay5 x0) k0_pay32⟩] : List (View.Piece (Elt Ideal) S14x3072 .f32)))
      transposes_S14x3072_p1_0_S3072x14 := by
  unfold out7
  rw [View.read_writes_junk_eq_canon]
  unfold runAt bodyRun
  dsimp only
  rw [View.canon_unit_zero (S := S3072x14) zero2]
  sl_unfold_words
  rw [readCov_whole _ _ zero2]
  simp only [View.readAt_eq_ld, Memref.IsWhole.read_unread, View.ld_unit_zero (S := S3072x2) zero2]

/-- The transposed scratch read at (r, j) is the scratch at (j, r). -/
theorem transpose14_apply (X : Vec Ideal S14x3072 .f32) (r : Fin 3072) (j : Fin 14) :
    transpose S3072x14 [1, 0] X transposes_S14x3072_p1_0_S3072x14 (ix2 r j) = X (ix2 j r) :=
  transpose_ix2_apply _ transposes_S14x3072_p1_0_S3072x14 r j

/-- Entry (r, 7a + k) of the moment-arm block is the moment arm of muscle k about joint a at the angles of row r. -/
theorem out7_apply (c : Dev nD) (t : Fin cfg0.N) (x0 x1 : Vec Ideal S3072x2 .f32) (x2 x3 : Vec Ideal S3072x7 .f32)
    (r : Fin 3072) (a : Fin 2) (k : Fin 7) (j : Fin 14) (hj : j.val = 7 * a.val + k.val) :
    out7 (F := Ideal) c t x0 x1 x2 x3 (ix2 r j) = rmat a k (x0 (ix2 r 0)) (x0 (ix2 r 1)) := by
  rw [out7_eq, transpose14_apply]
  match a, k, hj with
  | ⟨0, _⟩, ⟨0, _⟩, hj =>
    obtain rfl : j = ⟨0, by decide⟩ := Fin.ext hj
    row_walk r; exact arm_row0 x0 r
  | ⟨0, _⟩, ⟨1, _⟩, hj =>
    obtain rfl : j = ⟨1, by decide⟩ := Fin.ext hj
    row_walk r; exact arm_row1 x0 r
  | ⟨0, _⟩, ⟨2, _⟩, hj =>
    obtain rfl : j = ⟨2, by decide⟩ := Fin.ext hj
    row_walk r; exact arm_row2 x0 r
  | ⟨0, _⟩, ⟨3, _⟩, hj =>
    obtain rfl : j = ⟨3, by decide⟩ := Fin.ext hj
    row_walk r; exact arm_row3 x0 r
  | ⟨0, _⟩, ⟨4, _⟩, hj =>
    obtain rfl : j = ⟨4, by decide⟩ := Fin.ext hj
    row_walk r; exact arm_row4 x0 r
  | ⟨0, _⟩, ⟨5, _⟩, hj =>
    obtain rfl : j = ⟨5, by decide⟩ := Fin.ext hj
    row_walk r; exact arm_row5 x0 r
  | ⟨0, _⟩, ⟨6, _⟩, hj =>
    obtain rfl : j = ⟨6, by decide⟩ := Fin.ext hj
    row_walk r; exact arm_row6 x0 r
  | ⟨1, _⟩, ⟨0, _⟩, hj =>
    obtain rfl : j = ⟨7, by decide⟩ := Fin.ext hj
    row_walk r; exact arm_row7 x0 r
  | ⟨1, _⟩, ⟨1, _⟩, hj =>
    obtain rfl : j = ⟨8, by decide⟩ := Fin.ext hj
    row_walk r; exact arm_row8 x0 r
  | ⟨1, _⟩, ⟨2, _⟩, hj =>
    obtain rfl : j = ⟨9, by decide⟩ := Fin.ext hj
    row_walk r; exact arm_row9 x0 r
  | ⟨1, _⟩, ⟨3, _⟩, hj =>
    obtain rfl : j = ⟨10, by decide⟩ := Fin.ext hj
    row_walk r; exact arm_row10 x0 r
  | ⟨1, _⟩, ⟨4, _⟩, hj =>
    obtain rfl : j = ⟨11, by decide⟩ := Fin.ext hj
    row_walk r; exact arm_row11 x0 r
  | ⟨1, _⟩, ⟨5, _⟩, hj =>
    obtain rfl : j = ⟨12, by decide⟩ := Fin.ext hj
    row_walk r; exact arm_row12 x0 r
  | ⟨1, _⟩, ⟨6, _⟩, hj =>
    obtain rfl : j = ⟨13, by decide⟩ := Fin.ext hj
    row_walk r; exact arm_row13 x0 r

end Cert.KernelIdeal.Body

end
-- ==== Proof.IdealEntries8.lean ====
/-
  The length block. The body forms the seven muscle-tendon lengths of a block's rows as lane vectors (each an affine
  function of the two joint angles, but for the rectus femoris, and each passed through the soft lower clamp), writes
  them into rows 0 to 6 of a [7, n] scratch buffer, reads the buffer back whole, transposes it and stores it whole:
  entry (r, k) of the block is row k of the scratch at lane r, the clamped length of muscle k at the angles of row r.
-/
import proofs.«114054_j5351529251331_2_alg».proof.Proof.IdealEntriesBase
import proofs.«114054_j5351529251331_2_alg».proof.Proof.Spec

set_option maxRecDepth 16384

noncomputable section

namespace Cert.KernelIdeal.Body

open Cert.KernelIdeal Cert.KernelIdeal.Gen Cert.LegDynamics
open Idealize.ShloMosaic Idealize.ShloMosaic.ValueIdx Idealize.ShloMosaic.Tactic

/-! ## The seven rows of the scratch buffer

At the exact operations every lane formula is, read at lane r, the row's formula of the two angles of row r, term for
term: the constants are the same words, the operations come in the same order. -/

/-- Row 0 of the length scratch: the iliopsoas. -/
theorem len_row0 (x0 : Vec Ideal S3072x2 .f32) (r : Fin 3072) :
    k0_pay62 (k0_pay49 (k0_pay5 x0)) (ix2 (0 : Fin 1) r) = ltot 0 (x0 (ix2 r 0)) (x0 (ix2 r 1)) := by
  unfold k0_pay62
  refine (row_apply _ shapeCasts_S3072_S1x3072 r).trans ?_
  rw [← pay5_apply x0 r, ← pay6_apply x0 r]; rfl

/-- Row 1: the gluteus. -/
theorem len_row1 (x0 : Vec Ideal S3072x2 .f32) (r : Fin 3072) :
    k0_pay63 (k0_pay50 (k0_pay5 x0)) (ix2 (0 : Fin 1) r) = ltot 1 (x0 (ix2 r 0)) (x0 (ix2 r 1)) := by
  unfold k0_pay63
  refine (row_apply _ shapeCasts_S3072_S1x3072 r).trans ?_
  rw [← pay5_apply x0 r, ← pay6_apply x0 r]; rfl

/-- Row 2: the rectus femoris, whose path over the hip is the third side of a triangle. -/
theorem len_row2 (x0 : Vec Ideal S3072x2 .f32) (r : Fin 3072) :
    k0_pay64 (k0_pay53 (k0_pay5 x0) (k0_pay6 x0) (k0_pay51 (k0_pay5 x0)) k0_pay52) (ix2 (0 : Fin 1) r) = ltot 2 (x0 (ix2 r 0)) (x0 (ix2 r 1)) := by
  unfold k0_pay64
  refine (row_apply _ shapeCasts_S3072_S1x3072 r).trans ?_
  rw [← pay5_apply x0 r, ← pay6_apply x0 r]; rfl

/-- Row 3: the semitendinosus; the body forms the two halves of its clamp in separate steps. -/
theorem len_row3 (x0 : Vec Ideal S3072x2 .f32) (r : Fin 3072) :
    k0_pay65 (k0_pay58 (k0_pay56 (k0_pay5 x0) (k0_pay6 x0)) (k0_pay57 (k0_pay5 x0) (k0_pay6 x0)) (FloatOps.ofBits FTy.f32 0x3D4CCCCD#32)) (ix2 (0 : Fin 1) r) = ltot 3 (x0 (ix2 r 0)) (x0 (ix2 r 1)) := by
  unfold k0_pay65
  refine (row_apply _ shapeCasts_S3072_S1x3072 r).trans ?_
  rw [← pay5_apply x0 r, ← pay6_apply x0 r]; rfl

/-- Row 4: the vastus lateralis. -/
theorem len_row4 (x0 : Vec Ideal S3072x2 .f32) (r : Fin 3072) :
    k0_pay66 (k0_pay59 (k0_pay5 x0) (k0_pay6 x0)) (ix2 (0 : Fin 1) r) = ltot 4 (x0 (ix2 r 0)) (x0 (ix2 r 1)) := by
  unfold k0_pay66
  refine (row_apply _ shapeCasts_S3072_S1x3072 r).trans ?_
  rw [← pay5_apply x0 r, ← pay6_apply x0 r]; rfl

/-- Row 5: the biceps femoris. -/
theorem len_row5 (x0 : Vec Ideal S3072x2 .f32) (r : Fin 3072) :
    k0_pay67 (k0_pay60 (k0_pay5 x0) (k0_pay6 x0)) (ix2 (0 : Fin 1) r) = ltot 5 (x0 (ix2 r 0)) (x0 (ix2 r 1)) := by
  unfold k0_pay67
  refine (row_apply _ shapeCasts_S3072_S1x3072 r).trans ?_
  rw [← pay5_apply x0 r, ← pay6_apply x0 r]; rfl

/-- Row 6: the gastrocnemius; the clamp is applied as the row is formed. -/
theorem len_row6 (x0 : Vec Ideal S3072x2 .f32) (r : Fin 3072) :
    k0_pay68 (k0_pay61 (k0_pay5 x0) (k0_pay6 x0)) (ix2 (0 : Fin 1) r) = ltot 6 (x0 (ix2 r 0)) (x0 (ix2 r 1)) := by
  unfold k0_pay68
  refine (row_apply _ shapeCasts_S3072_S1x3072 r).trans ?_
  rw [← pay5_apply x0 r, ← pay6_apply x0 r]; rfl

/-! ## The length block -/

/-- What the body leaves in the length buffer: the transpose of the scratch buffer's seven rows. -/
theorem out8_eq (c : Dev nD) (t : Fin cfg0.N) (x0 x1 : Vec Ideal S3072x2 .f32) (x2 x3 : Vec Ideal S3072x7 .f32) :
    out8 (F := Ideal) c t x0 x1 x2 x3 = k0_pay1 (View.canon
      [⟨Rect.unit ![6, 0] S1x3072.size inb_S7x3072_S1x3072_6_0, k0_pay68 (k0_pay61 (k0_pay5 x0) (k0_pay6 x0))⟩,
       ⟨Rect.unit ![5, 0] S1x3072.size inb_S7x3072_S1x3072_5_0, k0_pay67 (k0_pay60 (k0_pay5 x0) (k0_pay6 x0))⟩,
       ⟨Rect.unit ![4, 0] S1x3072.size inb_S7x3072_S1x3072_4_0, k0_pay66 (k0_pay59 (k0_pay5 x0) (k0_pay6 x0))⟩,
       ⟨Rect.unit ![3, 0] S1x3072.size inb_S7x3072_S1x3072_3_0,
         k0_pay65 (k0_pay58 (k0_pay56 (k0_pay5 x0) (k0_pay6 x0)) (k0_pay57 (k0_pay5 x0) (k0_pay6 x0))
           (FloatOps.ofBits FTy.f32 0x3D4CCCCD#32))⟩,
       ⟨Rect.unit ![2, 0] S1x3072.size inb_S7x3072_S1x3072_2_0,
         k0_pay64 (k0_pay53 (k0_pay5 x0) (k0_pay6 x0) (k0_pay51 (k0_pay5 x0)) k0_pay52)⟩,
       ⟨Rect.unit ![1, 0] S1x3072.size inb_S7x3072_S1x3072_1_0, k0_pay63 (k0_pay50 (k0_pay5 x0))⟩,
       ⟨Rect.unit ![0, 0] S1x3072.size inb_S7x3072_S1x3072_0_0, k0_pay62 (k0_pay49 (k0_pay5 x0))⟩]) := by
  unfold out8
  rw [View.read_writes_junk_eq_canon]
  unfold runAt bodyRun
  dsimp only
  rw [View.canon_unit_zero (S := S3072x7) zero2]
  sl_unfold_words
  rw [readCov_whole _ _ zero2]
  simp only [View.readAt_eq_ld, Memref.IsWhole.read_unread, View.ld_unit_zero (S := S3072x2) zero2]

/-- The transposed scratch read at (r, k) is the scratch at (k, r). -/
theorem pay1_apply (X : Vec Ideal S7x3072 .f32) (r : Fin 3072) (k : Fin 7) : k0_pay1 X (ix2 r k) = X (ix2 k r) := by
  unfold k0_pay1
  exact transpose_ix2_apply _ transposes_S7x3072_p1_0_S3072x7 r k

/-- Entry (r, k) of the length block is the clamped length of muscle k at the angles of row r. -/
theorem out8_apply (c : Dev nD) (t : Fin cfg0.N) (x0 x1 : Vec Ideal S3072x2 .f32) (x2 x3 : Vec Ideal S3072x7 .f32)
    (r : Fin 3072) (k : Fin 7) :
    out8 (F := Ideal) c t x0 x1 x2 x3 (ix2 r k) = ltot k (x0 (ix2 r 0)) (x0 (ix2 r 1)) := by
  rw [out8_eq, pay1_apply]
  match k with
  | ⟨0, _⟩ => row_walk r; exact len_row0 x0 r
  | ⟨1, _⟩ => row_walk r; exact len_row1 x0 r
  | ⟨2, _⟩ => row_walk r; exact len_row2 x0 r
  | ⟨3, _⟩ => row_walk r; exact len_row3 x0 r
  | ⟨4, _⟩ => row_walk r; exact len_row4 x0 r
  | ⟨5, _⟩ => row_walk r; exact len_row5 x0 r
  | ⟨6, _⟩ => row_walk r; exact len_row6 x0 r

end Cert.KernelIdeal.Body

end
-- ==== Proof.IdealEntries9.lean ====
/-
  The activation-rate block. The body loads the neural-input block and the activation block whole, subtracts them entry
  by entry, divides by the time constant and stores the result whole: entry (r, k) is (u − a) / τ of entry (r, k) of the
  two blocks.
-/
import proofs.«114054_j5351529251331_2_alg».proof.Proof.IdealEntriesBase
import proofs.«114054_j5351529251331_2_alg».proof.Proof.Spec

set_option maxRecDepth 16384

noncomputable section

namespace Cert.KernelIdeal.Body

open Cert.KernelIdeal Cert.KernelIdeal.Gen Cert.LegDynamics
open Idealize.ShloMosaic Idealize.ShloMosaic.ValueIdx Idealize.ShloMosaic.Tactic

/-- The extended real a 32-bit float word encodes. -/
local notation:max "ℓ" w:max => Ideal.ofBits FTy.f32 w

/-- What the body leaves in the activation-rate buffer: the quotient of the two loaded blocks. -/
theorem out9_eq (c : Dev nD) (t : Fin cfg0.N) (x0 x1 : Vec Ideal S3072x2 .f32) (x2 x3 : Vec Ideal S3072x7 .f32) :
    out9 (F := Ideal) c t x0 x1 x2 x3 = k0_pay2 x3 x2 := by
  unfold out9
  rw [View.read_writes_junk_eq_canon]
  unfold runAt bodyRun
  dsimp only
  rw [View.canon_unit_zero (S := S3072x7) zero2]
  simp only [View.readAt_eq_ld, Memref.IsWhole.read_unread]
  rw [View.ld_unit_zero (S := S3072x7) zero2, View.ld_unit_zero (S := S3072x7) zero2]

/-- Entry (r, k) of the activation-rate block is the rate of entry (r, k) of the activation and neural-input blocks. -/
theorem out9_apply (c : Dev nD) (t : Fin cfg0.N) (x0 x1 : Vec Ideal S3072x2 .f32) (x2 x3 : Vec Ideal S3072x7 .f32)
    (r : Fin 3072) (k : Fin 7) :
    out9 (F := Ideal) c t x0 x1 x2 x3 (ix2 r k) = adot (x2 (ix2 r k)) (x3 (ix2 r k)) := by
  rw [out9_eq]; rfl

end Cert.KernelIdeal.Body

end
-- ==== Proof.IdealEntries.lean ====
/-
  The body of one grid point computes, in each output block, row by row the leg's formulas of the same row of the input
  blocks: the six blocks' entry lemmas, gathered.
-/
import proofs.«114054_j5351529251331_2_alg».proof.Proof.IdealRows
import proofs.«114054_j5351529251331_2_alg».proof.Proof.IdealEntries4
import proofs.«114054_j5351529251331_2_alg».proof.Proof.IdealEntries5
import proofs.«114054_j5351529251331_2_alg».proof.Proof.IdealEntries6
import proofs.«114054_j5351529251331_2_alg».proof.Proof.IdealEntries7
import proofs.«114054_j5351529251331_2_alg».proof.Proof.IdealEntries8
import proofs.«114054_j5351529251331_2_alg».proof.Proof.IdealEntries9

noncomputable section

namespace Cert.KernelIdeal.Body

/-- Every entry of row r of each output block is the row's formula of row r of the input blocks. -/
theorem rowFormulas : RowFormulas where
  gq := out4_apply
  cmat := out5_apply
  mmat := out6_apply
  rmat := out7_apply
  ltot := out8_apply
  adot := out9_apply

end Cert.KernelIdeal.Body

end
-- ==== Proof.IdealLocal.lean ====
/-
  Row locality of the idealized kernel. The last of the 326 blocks of 3072 rows overhangs the arrays of 1000000 rows:
  only its first 1000000 − 325 · 3072 = 1600 rows are moved, and all ten windows are cut alike, on the long axis only.
  Every entry of an output block's row is a formula of the same row of the input blocks, and on a row inside the arrays
  an input buffer holds its block of the argument array whatever its tail was filled with. Hence what each output's
  write-back moves does not depend on the fillers.
-/
import proofs.«114054_j5351529251331_2_alg».proof.Proof.IdealFrame
import proofs.«114054_j5351529251331_2_alg».proof.Proof.IdealRows

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.ShloMosaic.Pipeline (Dat Cfg Window)

/-- The number of rows of the block at grid point `t` that lie inside the arrays: all 3072 but at the last point, where
    1000000 − 325 · 3072 = 1600 remain. -/
def rowsIn (t : Fin cfg0.N) : Nat := if t.val < 325 then 3072 else 1600

theorem rowsIn_le (t : Fin cfg0.N) : rowsIn t ≤ 3072 := by unfold rowsIn; split <;> omega

/-- How each window's block is cut at each grid point: to the rows inside the arrays on the long axis, not at all on
    the short one. All ten windows are cut alike. -/
theorem xsizes : ∀ t : Fin cfg0.N,
    (win0_0.xsize (grid0.coords t) 0 = rowsIn t ∧ win0_0.xsize (grid0.coords t) 1 = 2)
    ∧     (win0_1.xsize (grid0.coords t) 0 = rowsIn t ∧ win0_1.xsize (grid0.coords t) 1 = 2)
    ∧     (win0_2.xsize (grid0.coords t) 0 = rowsIn t ∧ win0_2.xsize (grid0.coords t) 1 = 7)
    ∧     (win0_3.xsize (grid0.coords t) 0 = rowsIn t ∧ win0_3.xsize (grid0.coords t) 1 = 7)
    ∧     (win0_4.xsize (grid0.coords t) 0 = rowsIn t ∧ win0_4.xsize (grid0.coords t) 1 = 2)
    ∧     (win0_5.xsize (grid0.coords t) 0 = rowsIn t ∧ win0_5.xsize (grid0.coords t) 1 = 4)
    ∧     (win0_6.xsize (grid0.coords t) 0 = rowsIn t ∧ win0_6.xsize (grid0.coords t) 1 = 4)
    ∧     (win0_7.xsize (grid0.coords t) 0 = rowsIn t ∧ win0_7.xsize (grid0.coords t) 1 = 14)
    ∧     (win0_8.xsize (grid0.coords t) 0 = rowsIn t ∧ win0_8.xsize (grid0.coords t) 1 = 7)
    ∧     (win0_9.xsize (grid0.coords t) 0 = rowsIn t ∧ win0_9.xsize (grid0.coords t) 1 = 7) :=
  (by decide +kernel : ∀ t : Fin grid0.N, _)

/-- Where the transfer moves an index of the block, what the filled-out block holds there does not depend on the filler. -/
theorem fill_indep {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- Input window 0's transfer moves every entry of a row inside the arrays. -/
theorem moved0 (t : Fin cfg0.N) (r : Fin 3072) (k : Fin 2) (hr : r.val < rowsIn t) :
    win0_0.moved (grid0.coords t) (ix2 r k) = true := by
  rw [Window.moved_iff]
  intro a
  match a with
  | ⟨0, _⟩ => show r.val < win0_0.xsize (grid0.coords t) 0; rw [(xsizes t).1.1]; exact hr
  | ⟨1, _⟩ => show k.val < win0_0.xsize (grid0.coords t) 1; rw [(xsizes t).1.2]; exact k.isLt

/-- So on such a row input buffer 0 holds its block whatever fills it out. -/
theorem in0_row {F : FTy → Type} [FloatOps F] (m : (ℓ : Loc nD τ sig) → Buf (Elt F) ℓ) (c : Dev nD) (t : Fin cfg0.N)
    (d : Vec F S3072x2 .f32) (r : Fin 3072) (k : Fin 2) (hr : r.val < rowsIn t) :
    win0_0.fill (grid0.coords t) d (iblk m c 0 t) (ix2 r k) = in0 m c t (ix2 r k) :=
  fill_indep win0_0 (grid0.coords t) d _ (iblk m c 0 t) (ix2 r k) (moved0 t r k hr)

/-- Input window 1's transfer moves every entry of a row inside the arrays. -/
theorem moved1 (t : Fin cfg0.N) (r : Fin 3072) (k : Fin 2) (hr : r.val < rowsIn t) :
    win0_1.moved (grid0.coords t) (ix2 r k) = true := by
  rw [Window.moved_iff]
  intro a
  match a with
  | ⟨0, _⟩ => show r.val < win0_1.xsize (grid0.coords t) 0; rw [(xsizes t).2.1.1]; exact hr
  | ⟨1, _⟩ => show k.val < win0_1.xsize (grid0.coords t) 1; rw [(xsizes t).2.1.2]; exact k.isLt

/-- So on such a row input buffer 1 holds its block whatever fills it out. -/
theorem in1_row {F : FTy → Type} [FloatOps F] (m : (ℓ : Loc nD τ sig) → Buf (Elt F) ℓ) (c : Dev nD) (t : Fin cfg0.N)
    (d : Vec F S3072x2 .f32) (r : Fin 3072) (k : Fin 2) (hr : r.val < rowsIn t) :
    win0_1.fill (grid0.coords t) d (iblk m c 1 t) (ix2 r k) = in1 m c t (ix2 r k) :=
  fill_indep win0_1 (grid0.coords t) d _ (iblk m c 1 t) (ix2 r k) (moved1 t r k hr)

/-- Input window 2's transfer moves every entry of a row inside the arrays. -/
theorem moved2 (t : Fin cfg0.N) (r : Fin 3072) (k : Fin 7) (hr : r.val < rowsIn t) :
    win0_2.moved (grid0.coords t) (ix2 r k) = true := by
  rw [Window.moved_iff]
  intro a
  match a with
  | ⟨0, _⟩ => show r.val < win0_2.xsize (grid0.coords t) 0; rw [(xsizes t).2.2.1.1]; exact hr
  | ⟨1, _⟩ => show k.val < win0_2.xsize (grid0.coords t) 1; rw [(xsizes t).2.2.1.2]; exact k.isLt

/-- So on such a row input buffer 2 holds its block whatever fills it out. -/
theorem in2_row {F : FTy → Type} [FloatOps F] (m : (ℓ : Loc nD τ sig) → Buf (Elt F) ℓ) (c : Dev nD) (t : Fin cfg0.N)
    (d : Vec F S3072x7 .f32) (r : Fin 3072) (k : Fin 7) (hr : r.val < rowsIn t) :
    win0_2.fill (grid0.coords t) d (iblk m c 2 t) (ix2 r k) = in2 m c t (ix2 r k) :=
  fill_indep win0_2 (grid0.coords t) d _ (iblk m c 2 t) (ix2 r k) (moved2 t r k hr)

/-- Input window 3's transfer moves every entry of a row inside the arrays. -/
theorem moved3 (t : Fin cfg0.N) (r : Fin 3072) (k : Fin 7) (hr : r.val < rowsIn t) :
    win0_3.moved (grid0.coords t) (ix2 r k) = true := by
  rw [Window.moved_iff]
  intro a
  match a with
  | ⟨0, _⟩ => show r.val < win0_3.xsize (grid0.coords t) 0; rw [(xsizes t).2.2.2.1.1]; exact hr
  | ⟨1, _⟩ => show k.val < win0_3.xsize (grid0.coords t) 1; rw [(xsizes t).2.2.2.1.2]; exact k.isLt

/-- So on such a row input buffer 3 holds its block whatever fills it out. -/
theorem in3_row {F : FTy → Type} [FloatOps F] (m : (ℓ : Loc nD τ sig) → Buf (Elt F) ℓ) (c : Dev nD) (t : Fin cfg0.N)
    (d : Vec F S3072x7 .f32) (r : Fin 3072) (k : Fin 7) (hr : r.val < rowsIn t) :
    win0_3.fill (grid0.coords t) d (iblk m c 3 t) (ix2 r k) = in3 m c t (ix2 r k) :=
  fill_indep win0_3 (grid0.coords t) d _ (iblk m c 3 t) (ix2 r k) (moved3 t r k hr)

/-- Two contents of output window 4's buffer that agree on the rows inside the arrays are cut alike. -/
theorem cut4_congr {α : Type} (t : Fin cfg0.N) (X Y : S3072x2.Idx → α)
    (h : ∀ (r : Fin 3072) (k : Fin 2), r.val < rowsIn t → X (ix2 r k) = Y (ix2 r k)) :
    win0_4.cut (grid0.coords t) X = win0_4.cut (grid0.coords t) Y := by
  funext y
  have h0 : (y 0).val < rowsIn t := Nat.lt_of_lt_of_eq (y 0).isLt (xsizes t).2.2.2.2.1.1
  have h1 : (y 1).val < 2 := Nat.lt_of_lt_of_eq (y 1).isLt (xsizes t).2.2.2.2.1.2
  have e : win0_4.xinj (grid0.coords t) y = ix2 (⟨(y 0).val, Nat.lt_of_lt_of_le h0 (rowsIn_le t)⟩ : Fin 3072) (⟨(y 1).val, h1⟩ : Fin 2) := by
    funext a
    match a with
    | ⟨0, _⟩ => rfl
    | ⟨1, _⟩ => rfl
  show X (win0_4.xinj (grid0.coords t) y) = Y (win0_4.xinj (grid0.coords t) y)
  exact (congrArg X e).trans ((h _ _ h0).trans (congrArg Y e).symm)

/-- Two contents of output window 5's buffer that agree on the rows inside the arrays are cut alike. -/
theorem cut5_congr {α : Type} (t : Fin cfg0.N) (X Y : S3072x4.Idx → α)
    (h : ∀ (r : Fin 3072) (k : Fin 4), r.val < rowsIn t → X (ix2 r k) = Y (ix2 r k)) :
    win0_5.cut (grid0.coords t) X = win0_5.cut (grid0.coords t) Y := by
  funext y
  have h0 : (y 0).val < rowsIn t := Nat.lt_of_lt_of_eq (y 0).isLt (xsizes t).2.2.2.2.2.1.1
  have h1 : (y 1).val < 4 := Nat.lt_of_lt_of_eq (y 1).isLt (xsizes t).2.2.2.2.2.1.2
  have e : win0_5.xinj (grid0.coords t) y = ix2 (⟨(y 0).val, Nat.lt_of_lt_of_le h0 (rowsIn_le t)⟩ : Fin 3072) (⟨(y 1).val, h1⟩ : Fin 4) := by
    funext a
    match a with
    | ⟨0, _⟩ => rfl
    | ⟨1, _⟩ => rfl
  show X (win0_5.xinj (grid0.coords t) y) = Y (win0_5.xinj (grid0.coords t) y)
  exact (congrArg X e).trans ((h _ _ h0).trans (congrArg Y e).symm)

/-- Two contents of output window 6's buffer that agree on the rows inside the arrays are cut alike. -/
theorem cut6_congr {α : Type} (t : Fin cfg0.N) (X Y : S3072x4.Idx → α)
    (h : ∀ (r : Fin 3072) (k : Fin 4), r.val < rowsIn t → X (ix2 r k) = Y (ix2 r k)) :
    win0_6.cut (grid0.coords t) X = win0_6.cut (grid0.coords t) Y := by
  funext y
  have h0 : (y 0).val < rowsIn t := Nat.lt_of_lt_of_eq (y 0).isLt (xsizes t).2.2.2.2.2.2.1.1
  have h1 : (y 1).val < 4 := Nat.lt_of_lt_of_eq (y 1).isLt (xsizes t).2.2.2.2.2.2.1.2
  have e : win0_6.xinj (grid0.coords t) y = ix2 (⟨(y 0).val, Nat.lt_of_lt_of_le h0 (rowsIn_le t)⟩ : Fin 3072) (⟨(y 1).val, h1⟩ : Fin 4) := by
    funext a
    match a with
    | ⟨0, _⟩ => rfl
    | ⟨1, _⟩ => rfl
  show X (win0_6.xinj (grid0.coords t) y) = Y (win0_6.xinj (grid0.coords t) y)
  exact (congrArg X e).trans ((h _ _ h0).trans (congrArg Y e).symm)

/-- Two contents of output window 7's buffer that agree on the rows inside the arrays are cut alike. -/
theorem cut7_congr {α : Type} (t : Fin cfg0.N) (X Y : S3072x14.Idx → α)
    (h : ∀ (r : Fin 3072) (k : Fin 14), r.val < rowsIn t → X (ix2 r k) = Y (ix2 r k)) :
    win0_7.cut (grid0.coords t) X = win0_7.cut (grid0.coords t) Y := by
  funext y
  have h0 : (y 0).val < rowsIn t := Nat.lt_of_lt_of_eq (y 0).isLt (xsizes t).2.2.2.2.2.2.2.1.1
  have h1 : (y 1).val < 14 := Nat.lt_of_lt_of_eq (y 1).isLt (xsizes t).2.2.2.2.2.2.2.1.2
  have e : win0_7.xinj (grid0.coords t) y = ix2 (⟨(y 0).val, Nat.lt_of_lt_of_le h0 (rowsIn_le t)⟩ : Fin 3072) (⟨(y 1).val, h1⟩ : Fin 14) := by
    funext a
    match a with
    | ⟨0, _⟩ => rfl
    | ⟨1, _⟩ => rfl
  show X (win0_7.xinj (grid0.coords t) y) = Y (win0_7.xinj (grid0.coords t) y)
  exact (congrArg X e).trans ((h _ _ h0).trans (congrArg Y e).symm)

/-- Two contents of output window 8's buffer that agree on the rows inside the arrays are cut alike. -/
theorem cut8_congr {α : Type} (t : Fin cfg0.N) (X Y : S3072x7.Idx → α)
    (h : ∀ (r : Fin 3072) (k : Fin 7), r.val < rowsIn t → X (ix2 r k) = Y (ix2 r k)) :
    win0_8.cut (grid0.coords t) X = win0_8.cut (grid0.coords t) Y := by
  funext y
  have h0 : (y 0).val < rowsIn t := Nat.lt_of_lt_of_eq (y 0).isLt (xsizes t).2.2.2.2.2.2.2.2.1.1
  have h1 : (y 1).val < 7 := Nat.lt_of_lt_of_eq (y 1).isLt (xsizes t).2.2.2.2.2.2.2.2.1.2
  have e : win0_8.xinj (grid0.coords t) y = ix2 (⟨(y 0).val, Nat.lt_of_lt_of_le h0 (rowsIn_le t)⟩ : Fin 3072) (⟨(y 1).val, h1⟩ : Fin 7) := by
    funext a
    match a with
    | ⟨0, _⟩ => rfl
    | ⟨1, _⟩ => rfl
  show X (win0_8.xinj (grid0.coords t) y) = Y (win0_8.xinj (grid0.coords t) y)
  exact (congrArg X e).trans ((h _ _ h0).trans (congrArg Y e).symm)

/-- Two contents of output window 9's buffer that agree on the rows inside the arrays are cut alike. -/
theorem cut9_congr {α : Type} (t : Fin cfg0.N) (X Y : S3072x7.Idx → α)
    (h : ∀ (r : Fin 3072) (k : Fin 7), r.val < rowsIn t → X (ix2 r k) = Y (ix2 r k)) :
    win0_9.cut (grid0.coords t) X = win0_9.cut (grid0.coords t) Y := by
  funext y
  have h0 : (y 0).val < rowsIn t := Nat.lt_of_lt_of_eq (y 0).isLt (xsizes t).2.2.2.2.2.2.2.2.2.1
  have h1 : (y 1).val < 7 := Nat.lt_of_lt_of_eq (y 1).isLt (xsizes t).2.2.2.2.2.2.2.2.2.2
  have e : win0_9.xinj (grid0.coords t) y = ix2 (⟨(y 0).val, Nat.lt_of_lt_of_le h0 (rowsIn_le t)⟩ : Fin 3072) (⟨(y 1).val, h1⟩ : Fin 7) := by
    funext a
    match a with
    | ⟨0, _⟩ => rfl
    | ⟨1, _⟩ => rfl
  show X (win0_9.xinj (grid0.coords t) y) = Y (win0_9.xinj (grid0.coords t) y)
  exact (congrArg X e).trans ((h _ _ h0).trans (congrArg Y e).symm)

/-- On the rows inside the arrays every output block is the row's formula of the same row of the input blocks, and
    there the input buffers hold their blocks whatever fills them out: so what is written back does not depend on it. -/
theorem rowLocal (hE : RowFormulas) (m : (ℓ : Loc nD τ sig) → Buf (Elt Ideal) ℓ) : RowLocal (F := Ideal) m where
  loc4 := fun c t d0 d1 d2 d3 => cut4_congr t _ _ fun r k hr => by
    rw [hE.gq, hE.gq, in0_row m c t d0 r 0 hr, in0_row m c t d0 r 1 hr]
  loc5 := fun c t d0 d1 d2 d3 => cut5_congr t _ _ fun r k hr => by
    rw [hE.cmat c t _ _ _ _ r ⟨k.val / 2, by omega⟩ ⟨k.val % 2, by omega⟩ k (by show k.val = 2 * (k.val / 2) + k.val % 2; omega),
      hE.cmat c t _ _ _ _ r ⟨k.val / 2, by omega⟩ ⟨k.val % 2, by omega⟩ k (by show k.val = 2 * (k.val / 2) + k.val % 2; omega),
      in0_row m c t d0 r 0 hr, in0_row m c t d0 r 1 hr, in1_row m c t d1 r 0 hr, in1_row m c t d1 r 1 hr]
  loc6 := fun c t d0 d1 d2 d3 => cut6_congr t _ _ fun r k hr => by
    rw [hE.mmat c t _ _ _ _ r ⟨k.val / 2, by omega⟩ ⟨k.val % 2, by omega⟩ k (by show k.val = 2 * (k.val / 2) + k.val % 2; omega),
      hE.mmat c t _ _ _ _ r ⟨k.val / 2, by omega⟩ ⟨k.val % 2, by omega⟩ k (by show k.val = 2 * (k.val / 2) + k.val % 2; omega),
      in0_row m c t d0 r 0 hr, in0_row m c t d0 r 1 hr]
  loc7 := fun c t d0 d1 d2 d3 => cut7_congr t _ _ fun r k hr => by
    rw [hE.rmat c t _ _ _ _ r ⟨k.val / 7, by omega⟩ ⟨k.val % 7, by omega⟩ k (by show k.val = 7 * (k.val / 7) + k.val % 7; omega),
      hE.rmat c t _ _ _ _ r ⟨k.val / 7, by omega⟩ ⟨k.val % 7, by omega⟩ k (by show k.val = 7 * (k.val / 7) + k.val % 7; omega),
      in0_row m c t d0 r 0 hr, in0_row m c t d0 r 1 hr]
  loc8 := fun c t d0 d1 d2 d3 => cut8_congr t _ _ fun r k hr => by
    rw [hE.ltot, hE.ltot, in0_row m c t d0 r 0 hr, in0_row m c t d0 r 1 hr]
  loc9 := fun c t d0 d1 d2 d3 => cut9_congr t _ _ fun r k hr => by
    rw [hE.adot, hE.adot, in2_row m c t d2 r k hr, in3_row m c t d3 r k hr]

end Cert.KernelIdeal.Body

end
-- ==== Proof.IdealArrays.lean ====
/-
  From blocks to arrays. Point t of the grid writes back rows t · 3072 … of each output array: entry (r, k) of a block sits
  in its array at row t · 3072 + r, column k, and on the rows inside the arrays an input buffer holds the argument array's
  entry at the same place. Every entry of a row being a formula of the same row of the arguments, what point t writes back
  is the block at t of one whole-array function of the argument arrays; the 326 blocks (the last one cut to its 1600 rows
  inside the arrays) cover the 1000000 rows, so each output array ends holding that function. The two matrix outputs and
  the moment-arm output are stored with their small axes flattened row-major.
-/
import proofs.«114054_j5351529251331_2_alg».proof.Proof.IdealLocal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.ShloMosaic.Pipeline (Dat Cfg Window)

/-! ## Where a block sits in its array -/

/-- Every window's block index at grid point `t` is `t` on the long axis and 0 on the short one. -/
theorem indices : ∀ t : Fin cfg0.N,
    (win0_0.index t 0 = t.val ∧ win0_0.index t 1 = 0)
    ∧     (win0_1.index t 0 = t.val ∧ win0_1.index t 1 = 0)
    ∧     (win0_2.index t 0 = t.val ∧ win0_2.index t 1 = 0)
    ∧     (win0_3.index t 0 = t.val ∧ win0_3.index t 1 = 0)
    ∧     (win0_4.index t 0 = t.val ∧ win0_4.index t 1 = 0)
    ∧     (win0_5.index t 0 = t.val ∧ win0_5.index t 1 = 0)
    ∧     (win0_6.index t 0 = t.val ∧ win0_6.index t 1 = 0)
    ∧     (win0_7.index t 0 = t.val ∧ win0_7.index t 1 = 0)
    ∧     (win0_8.index t 0 = t.val ∧ win0_8.index t 1 = 0)
    ∧     (win0_9.index t 0 = t.val ∧ win0_9.index t 1 = 0) :=
  (by decide +kernel : ∀ t : Fin grid0.N, _)

/-- A row of a block inside the arrays is a row of the arrays. -/
theorem row_lt (t : Fin cfg0.N) (r : Nat) (hr : r < rowsIn t) : t.val * 3072 + r < 1000000 := by
  have ht : t.val < 326 := Nat.lt_of_lt_of_eq t.isLt N_0
  unfold rowsIn at hr
  split at hr <;> omega

/-- Entry (r, k) of window 0's block at point `t` sits in the array at row t · 3072 + r, column k. -/
theorem emb0 (t : Fin cfg0.N) (y : (win0_0.xblock (grid0.coords t)).Idx) (h0 : (y 0).val < rowsIn t) (h1 : (y 1).val < 2) :
    (win0_0.blk t).view.emb y = ix2 (⟨t.val * 3072 + (y 0).val, row_lt t _ h0⟩ : Fin 1000000) (⟨(y 1).val, h1⟩ : Fin 2) := by
  funext a
  match a with
  | ⟨0, _⟩ =>
    apply Fin.ext
    show win0_0.index t 0 * 3072 + 1 * (y 0).val = t.val * 3072 + (y 0).val
    rw [(indices t).1.1]; omega
  | ⟨1, _⟩ =>
    apply Fin.ext
    show win0_0.index t 1 * 2 + 1 * (y 1).val = (y 1).val
    rw [(indices t).1.2]; omega

/-- Entry (r, k) of window 1's block at point `t` sits in the array at row t · 3072 + r, column k. -/
theorem emb1 (t : Fin cfg0.N) (y : (win0_1.xblock (grid0.coords t)).Idx) (h0 : (y 0).val < rowsIn t) (h1 : (y 1).val < 2) :
    (win0_1.blk t).view.emb y = ix2 (⟨t.val * 3072 + (y 0).val, row_lt t _ h0⟩ : Fin 1000000) (⟨(y 1).val, h1⟩ : Fin 2) := by
  funext a
  match a with
  | ⟨0, _⟩ =>
    apply Fin.ext
    show win0_1.index t 0 * 3072 + 1 * (y 0).val = t.val * 3072 + (y 0).val
    rw [(indices t).2.1.1]; omega
  | ⟨1, _⟩ =>
    apply Fin.ext
    show win0_1.index t 1 * 2 + 1 * (y 1).val = (y 1).val
    rw [(indices t).2.1.2]; omega

/-- Entry (r, k) of window 2's block at point `t` sits in the array at row t · 3072 + r, column k. -/
theorem emb2 (t : Fin cfg0.N) (y : (win0_2.xblock (grid0.coords t)).Idx) (h0 : (y 0).val < rowsIn t) (h1 : (y 1).val < 7) :
    (win0_2.blk t).view.emb y = ix2 (⟨t.val * 3072 + (y 0).val, row_lt t _ h0⟩ : Fin 1000000) (⟨(y 1).val, h1⟩ : Fin 7) := by
  funext a
  match a with
  | ⟨0, _⟩ =>
    apply Fin.ext
    show win0_2.index t 0 * 3072 + 1 * (y 0).val = t.val * 3072 + (y 0).val
    rw [(indices t).2.2.1.1]; omega
  | ⟨1, _⟩ =>
    apply Fin.ext
    show win0_2.index t 1 * 7 + 1 * (y 1).val = (y 1).val
    rw [(indices t).2.2.1.2]; omega

/-- Entry (r, k) of window 3's block at point `t` sits in the array at row t · 3072 + r, column k. -/
theorem emb3 (t : Fin cfg0.N) (y : (win0_3.xblock (grid0.coords t)).Idx) (h0 : (y 0).val < rowsIn t) (h1 : (y 1).val < 7) :
    (win0_3.blk t).view.emb y = ix2 (⟨t.val * 3072 + (y 0).val, row_lt t _ h0⟩ : Fin 1000000) (⟨(y 1).val, h1⟩ : Fin 7) := by
  funext a
  match a with
  | ⟨0, _⟩ =>
    apply Fin.ext
    show win0_3.index t 0 * 3072 + 1 * (y 0).val = t.val * 3072 + (y 0).val
    rw [(indices t).2.2.2.1.1]; omega
  | ⟨1, _⟩ =>
    apply Fin.ext
    show win0_3.index t 1 * 7 + 1 * (y 1).val = (y 1).val
    rw [(indices t).2.2.2.1.2]; omega

/-- Entry (r, k) of window 4's block at point `t` sits in the array at row t · 3072 + r, column k. -/
theorem emb4 (t : Fin cfg0.N) (y : (win0_4.xblock (grid0.coords t)).Idx) (h0 : (y 0).val < rowsIn t) (h1 : (y 1).val < 2) :
    (win0_4.blk t).view.emb y = ix2 (⟨t.val * 3072 + (y 0).val, row_lt t _ h0⟩ : Fin 1000000) (⟨(y 1).val, h1⟩ : Fin 2) := by
  funext a
  match a with
  | ⟨0, _⟩ =>
    apply Fin.ext
    show win0_4.index t 0 * 3072 + 1 * (y 0).val = t.val * 3072 + (y 0).val
    rw [(indices t).2.2.2.2.1.1]; omega
  | ⟨1, _⟩ =>
    apply Fin.ext
    show win0_4.index t 1 * 2 + 1 * (y 1).val = (y 1).val
    rw [(indices t).2.2.2.2.1.2]; omega

/-- Entry (r, k) of window 5's block at point `t` sits in the array at row t · 3072 + r, column k. -/
theorem emb5 (t : Fin cfg0.N) (y : (win0_5.xblock (grid0.coords t)).Idx) (h0 : (y 0).val < rowsIn t) (h1 : (y 1).val < 4) :
    (win0_5.blk t).view.emb y = ix2 (⟨t.val * 3072 + (y 0).val, row_lt t _ h0⟩ : Fin 1000000) (⟨(y 1).val, h1⟩ : Fin 4) := by
  funext a
  match a with
  | ⟨0, _⟩ =>
    apply Fin.ext
    show win0_5.index t 0 * 3072 + 1 * (y 0).val = t.val * 3072 + (y 0).val
    rw [(indices t).2.2.2.2.2.1.1]; omega
  | ⟨1, _⟩ =>
    apply Fin.ext
    show win0_5.index t 1 * 4 + 1 * (y 1).val = (y 1).val
    rw [(indices t).2.2.2.2.2.1.2]; omega

/-- Entry (r, k) of window 6's block at point `t` sits in the array at row t · 3072 + r, column k. -/
theorem emb6 (t : Fin cfg0.N) (y : (win0_6.xblock (grid0.coords t)).Idx) (h0 : (y 0).val < rowsIn t) (h1 : (y 1).val < 4) :
    (win0_6.blk t).view.emb y = ix2 (⟨t.val * 3072 + (y 0).val, row_lt t _ h0⟩ : Fin 1000000) (⟨(y 1).val, h1⟩ : Fin 4) := by
  funext a
  match a with
  | ⟨0, _⟩ =>
    apply Fin.ext
    show win0_6.index t 0 * 3072 + 1 * (y 0).val = t.val * 3072 + (y 0).val
    rw [(indices t).2.2.2.2.2.2.1.1]; omega
  | ⟨1, _⟩ =>
    apply Fin.ext
    show win0_6.index t 1 * 4 + 1 * (y 1).val = (y 1).val
    rw [(indices t).2.2.2.2.2.2.1.2]; omega

/-- Entry (r, k) of window 7's block at point `t` sits in the array at row t · 3072 + r, column k. -/
theorem emb7 (t : Fin cfg0.N) (y : (win0_7.xblock (grid0.coords t)).Idx) (h0 : (y 0).val < rowsIn t) (h1 : (y 1).val < 14) :
    (win0_7.blk t).view.emb y = ix2 (⟨t.val * 3072 + (y 0).val, row_lt t _ h0⟩ : Fin 1000000) (⟨(y 1).val, h1⟩ : Fin 14) := by
  funext a
  match a with
  | ⟨0, _⟩ =>
    apply Fin.ext
    show win0_7.index t 0 * 3072 + 1 * (y 0).val = t.val * 3072 + (y 0).val
    rw [(indices t).2.2.2.2.2.2.2.1.1]; omega
  | ⟨1, _⟩ =>
    apply Fin.ext
    show win0_7.index t 1 * 14 + 1 * (y 1).val = (y 1).val
    rw [(indices t).2.2.2.2.2.2.2.1.2]; omega

/-- Entry (r, k) of window 8's block at point `t` sits in the array at row t · 3072 + r, column k. -/
theorem emb8 (t : Fin cfg0.N) (y : (win0_8.xblock (grid0.coords t)).Idx) (h0 : (y 0).val < rowsIn t) (h1 : (y 1).val < 7) :
    (win0_8.blk t).view.emb y = ix2 (⟨t.val * 3072 + (y 0).val, row_lt t _ h0⟩ : Fin 1000000) (⟨(y 1).val, h1⟩ : Fin 7) := by
  funext a
  match a with
  | ⟨0, _⟩ =>
    apply Fin.ext
    show win0_8.index t 0 * 3072 + 1 * (y 0).val = t.val * 3072 + (y 0).val
    rw [(indices t).2.2.2.2.2.2.2.2.1.1]; omega
  | ⟨1, _⟩ =>
    apply Fin.ext
    show win0_8.index t 1 * 7 + 1 * (y 1).val = (y 1).val
    rw [(indices t).2.2.2.2.2.2.2.2.1.2]; omega

/-- Entry (r, k) of window 9's block at point `t` sits in the array at row t · 3072 + r, column k. -/
theorem emb9 (t : Fin cfg0.N) (y : (win0_9.xblock (grid0.coords t)).Idx) (h0 : (y 0).val < rowsIn t) (h1 : (y 1).val < 7) :
    (win0_9.blk t).view.emb y = ix2 (⟨t.val * 3072 + (y 0).val, row_lt t _ h0⟩ : Fin 1000000) (⟨(y 1).val, h1⟩ : Fin 7) := by
  funext a
  match a with
  | ⟨0, _⟩ =>
    apply Fin.ext
    show win0_9.index t 0 * 3072 + 1 * (y 0).val = t.val * 3072 + (y 0).val
    rw [(indices t).2.2.2.2.2.2.2.2.2.1]; omega
  | ⟨1, _⟩ =>
    apply Fin.ext
    show win0_9.index t 1 * 7 + 1 * (y 1).val = (y 1).val
    rw [(indices t).2.2.2.2.2.2.2.2.2.2]; omega

/-- On a row inside the arrays input buffer 0 holds the argument array's row. -/
theorem in0_at {F : FTy → Type} [FloatOps F] (m : (ℓ : Loc nD τ sig) → Buf (Elt F) ℓ) (c : Dev nD) (t : Fin cfg0.N)
    (r : Fin 3072) (k : Fin 2) (hr : r.val < rowsIn t) :
    in0 m c t (ix2 r k) = V m c main_arg0 (ix2 (⟨t.val * 3072 + r.val, row_lt t _ hr⟩ : Fin 1000000) k) := by
  unfold in0 Window.fill
  rw [dif_pos (moved0 t r k hr)]
  unfold iblk
  rw [View.read_apply]
  show V m c main_arg0 ((win0_0.blk t).view.emb _) = _
  exact congrArg (V m c main_arg0) (emb0 t _ hr k.isLt)

/-- On a row inside the arrays input buffer 1 holds the argument array's row. -/
theorem in1_at {F : FTy → Type} [FloatOps F] (m : (ℓ : Loc nD τ sig) → Buf (Elt F) ℓ) (c : Dev nD) (t : Fin cfg0.N)
    (r : Fin 3072) (k : Fin 2) (hr : r.val < rowsIn t) :
    in1 m c t (ix2 r k) = V m c main_arg1 (ix2 (⟨t.val * 3072 + r.val, row_lt t _ hr⟩ : Fin 1000000) k) := by
  unfold in1 Window.fill
  rw [dif_pos (moved1 t r k hr)]
  unfold iblk
  rw [View.read_apply]
  show V m c main_arg1 ((win0_1.blk t).view.emb _) = _
  exact congrArg (V m c main_arg1) (emb1 t _ hr k.isLt)

/-- On a row inside the arrays input buffer 2 holds the argument array's row. -/
theorem in2_at {F : FTy → Type} [FloatOps F] (m : (ℓ : Loc nD τ sig) → Buf (Elt F) ℓ) (c : Dev nD) (t : Fin cfg0.N)
    (r : Fin 3072) (k : Fin 7) (hr : r.val < rowsIn t) :
    in2 m c t (ix2 r k) = V m c main_arg2 (ix2 (⟨t.val * 3072 + r.val, row_lt t _ hr⟩ : Fin 1000000) k) := by
  unfold in2 Window.fill
  rw [dif_pos (moved2 t r k hr)]
  unfold iblk
  rw [View.read_apply]
  show V m c main_arg2 ((win0_2.blk t).view.emb _) = _
  exact congrArg (V m c main_arg2) (emb2 t _ hr k.isLt)

/-- On a row inside the arrays input buffer 3 holds the argument array's row. -/
theorem in3_at {F : FTy → Type} [FloatOps F] (m : (ℓ : Loc nD τ sig) → Buf (Elt F) ℓ) (c : Dev nD) (t : Fin cfg0.N)
    (r : Fin 3072) (k : Fin 7) (hr : r.val < rowsIn t) :
    in3 m c t (ix2 r k) = V m c main_arg3 (ix2 (⟨t.val * 3072 + r.val, row_lt t _ hr⟩ : Fin 1000000) k) := by
  unfold in3 Window.fill
  rw [dif_pos (moved3 t r k hr)]
  unfold iblk
  rw [View.read_apply]
  show V m c main_arg3 ((win0_3.blk t).view.emb _) = _
  exact congrArg (V m c main_arg3) (emb3 t _ hr k.isLt)

/-! ## What a write-back writes, as a block of a whole array -/

/-- Contents of output window 4's buffer whose rows inside the array are the rows of `G` at the block's place are cut
    to `G` read through the block. -/
theorem cut4_eq_read (t : Fin cfg0.N) (X : S3072x2.Idx → Elt Ideal .f32) (G : S1000000x2.Idx → Elt Ideal .f32)
    (h : ∀ (r : Fin 3072) (k : Fin 2) (hr : r.val < rowsIn t),
      X (ix2 r k) = G (ix2 (⟨t.val * 3072 + r.val, row_lt t _ hr⟩ : Fin 1000000) k)) :
    win0_4.cut (grid0.coords t) X = (win0_4.blk t).view.read (Elt Ideal) G := by
  funext y
  have h0 : (y 0).val < rowsIn t := Nat.lt_of_lt_of_eq (y 0).isLt (xsizes t).2.2.2.2.1.1
  have h1 : (y 1).val < 2 := Nat.lt_of_lt_of_eq (y 1).isLt (xsizes t).2.2.2.2.1.2
  have e : win0_4.xinj (grid0.coords t) y = ix2 (⟨(y 0).val, Nat.lt_of_lt_of_le h0 (rowsIn_le t)⟩ : Fin 3072) (⟨(y 1).val, h1⟩ : Fin 2) := by
    funext a
    match a with
    | ⟨0, _⟩ => rfl
    | ⟨1, _⟩ => rfl
  rw [View.read_apply]
  show X (win0_4.xinj (grid0.coords t) y) = G ((win0_4.blk t).view.emb y)
  exact (congrArg X e).trans ((h _ _ h0).trans (congrArg G (emb4 t y h0 h1)).symm)

/-- An index of output 4's array lies in the block of point `t` iff its row is one of the block's rows inside the array. -/
theorem mem_blk4 (t : Fin cfg0.N) (i : S1000000x2.Idx) :
    i ∈ (win0_4.blk t).view.set ↔ t.val * 3072 ≤ (i 0).val ∧ (i 0).val < t.val * 3072 + rowsIn t := by
  show i ∈ ((View.whole main_v0_0).slice (win0_4.rect t)).set ↔ _
  rw [View.set_slice_whole, Rect.mem_set_unit]
  have hi1 : (i 1).val < 2 := idx2_lt1 i
  refine ⟨fun h => ?_, fun h a => ?_⟩
  · have := h 0
    change win0_4.index t 0 * 3072 ≤ (i 0).val ∧ (i 0).val < win0_4.index t 0 * 3072 + win0_4.xsize (grid0.coords t) 0 at this
    rwa [(indices t).2.2.2.2.1.1, (xsizes t).2.2.2.2.1.1] at this
  · match a with
    | ⟨0, _⟩ =>
      change win0_4.index t 0 * 3072 ≤ (i 0).val ∧ (i 0).val < win0_4.index t 0 * 3072 + win0_4.xsize (grid0.coords t) 0
      rw [(indices t).2.2.2.2.1.1, (xsizes t).2.2.2.2.1.1]; exact h
    | ⟨1, _⟩ =>
      change win0_4.index t 1 * 2 ≤ (i 1).val ∧ (i 1).val < win0_4.index t 1 * 2 + win0_4.xsize (grid0.coords t) 1
      rw [(indices t).2.2.2.2.1.2, (xsizes t).2.2.2.2.1.2]; omega

/-- Every index of output 4's array lies in the block of the point its row divided by 3072 names, which writes back. -/
theorem cover4_arr (i : S1000000x2.Idx) :
    ∃ t : Fin cfg0.N, (cfg0.win 4).flush t = true ∧ i ∈ ((cfg0.win 4).blk t).view.set := by
  have hi0 : (i 0).val < 1000000 := idx2_lt0 i
  have ht : (i 0).val / 3072 < cfg0.N := by rw [show cfg0.N = 326 from N_0]; omega
  refine ⟨⟨(i 0).val / 3072, ht⟩, flush0_4 _, ?_⟩
  show i ∈ (win0_4.blk ⟨(i 0).val / 3072, ht⟩).view.set
  rw [mem_blk4]
  show (i 0).val / 3072 * 3072 ≤ (i 0).val ∧ (i 0).val < (i 0).val / 3072 * 3072 + rowsIn ⟨(i 0).val / 3072, ht⟩
  unfold rowsIn
  show (i 0).val / 3072 * 3072 ≤ (i 0).val ∧ (i 0).val < (i 0).val / 3072 * 3072 + (if (i 0).val / 3072 < 325 then 3072 else 1600)
  split <;> omega

/-- Contents of output window 5's buffer whose rows inside the array are the rows of `G` at the block's place are cut
    to `G` read through the block. -/
theorem cut5_eq_read (t : Fin cfg0.N) (X : S3072x4.Idx → Elt Ideal .f32) (G : S1000000x4.Idx → Elt Ideal .f32)
    (h : ∀ (r : Fin 3072) (k : Fin 4) (hr : r.val < rowsIn t),
      X (ix2 r k) = G (ix2 (⟨t.val * 3072 + r.val, row_lt t _ hr⟩ : Fin 1000000) k)) :
    win0_5.cut (grid0.coords t) X = (win0_5.blk t).view.read (Elt Ideal) G := by
  funext y
  have h0 : (y 0).val < rowsIn t := Nat.lt_of_lt_of_eq (y 0).isLt (xsizes t).2.2.2.2.2.1.1
  have h1 : (y 1).val < 4 := Nat.lt_of_lt_of_eq (y 1).isLt (xsizes t).2.2.2.2.2.1.2
  have e : win0_5.xinj (grid0.coords t) y = ix2 (⟨(y 0).val, Nat.lt_of_lt_of_le h0 (rowsIn_le t)⟩ : Fin 3072) (⟨(y 1).val, h1⟩ : Fin 4) := by
    funext a
    match a with
    | ⟨0, _⟩ => rfl
    | ⟨1, _⟩ => rfl
  rw [View.read_apply]
  show X (win0_5.xinj (grid0.coords t) y) = G ((win0_5.blk t).view.emb y)
  exact (congrArg X e).trans ((h _ _ h0).trans (congrArg G (emb5 t y h0 h1)).symm)

/-- An index of output 5's array lies in the block of point `t` iff its row is one of the block's rows inside the array. -/
theorem mem_blk5 (t : Fin cfg0.N) (i : S1000000x4.Idx) :
    i ∈ (win0_5.blk t).view.set ↔ t.val * 3072 ≤ (i 0).val ∧ (i 0).val < t.val * 3072 + rowsIn t := by
  show i ∈ ((View.whole main_v0_1).slice (win0_5.rect t)).set ↔ _
  rw [View.set_slice_whole, Rect.mem_set_unit]
  have hi1 : (i 1).val < 4 := idx2_lt1 i
  refine ⟨fun h => ?_, fun h a => ?_⟩
  · have := h 0
    change win0_5.index t 0 * 3072 ≤ (i 0).val ∧ (i 0).val < win0_5.index t 0 * 3072 + win0_5.xsize (grid0.coords t) 0 at this
    rwa [(indices t).2.2.2.2.2.1.1, (xsizes t).2.2.2.2.2.1.1] at this
  · match a with
    | ⟨0, _⟩ =>
      change win0_5.index t 0 * 3072 ≤ (i 0).val ∧ (i 0).val < win0_5.index t 0 * 3072 + win0_5.xsize (grid0.coords t) 0
      rw [(indices t).2.2.2.2.2.1.1, (xsizes t).2.2.2.2.2.1.1]; exact h
    | ⟨1, _⟩ =>
      change win0_5.index t 1 * 4 ≤ (i 1).val ∧ (i 1).val < win0_5.index t 1 * 4 + win0_5.xsize (grid0.coords t) 1
      rw [(indices t).2.2.2.2.2.1.2, (xsizes t).2.2.2.2.2.1.2]; omega

/-- Every index of output 5's array lies in the block of the point its row divided by 3072 names, which writes back. -/
theorem cover5_arr (i : S1000000x4.Idx) :
    ∃ t : Fin cfg0.N, (cfg0.win 5).flush t = true ∧ i ∈ ((cfg0.win 5).blk t).view.set := by
  have hi0 : (i 0).val < 1000000 := idx2_lt0 i
  have ht : (i 0).val / 3072 < cfg0.N := by rw [show cfg0.N = 326 from N_0]; omega
  refine ⟨⟨(i 0).val / 3072, ht⟩, flush0_5 _, ?_⟩
  show i ∈ (win0_5.blk ⟨(i 0).val / 3072, ht⟩).view.set
  rw [mem_blk5]
  show (i 0).val / 3072 * 3072 ≤ (i 0).val ∧ (i 0).val < (i 0).val / 3072 * 3072 + rowsIn ⟨(i 0).val / 3072, ht⟩
  unfold rowsIn
  show (i 0).val / 3072 * 3072 ≤ (i 0).val ∧ (i 0).val < (i 0).val / 3072 * 3072 + (if (i 0).val / 3072 < 325 then 3072 else 1600)
  split <;> omega

/-- Contents of output window 6's buffer whose rows inside the array are the rows of `G` at the block's place are cut
    to `G` read through the block. -/
theorem cut6_eq_read (t : Fin cfg0.N) (X : S3072x4.Idx → Elt Ideal .f32) (G : S1000000x4.Idx → Elt Ideal .f32)
    (h : ∀ (r : Fin 3072) (k : Fin 4) (hr : r.val < rowsIn t),
      X (ix2 r k) = G (ix2 (⟨t.val * 3072 + r.val, row_lt t _ hr⟩ : Fin 1000000) k)) :
    win0_6.cut (grid0.coords t) X = (win0_6.blk t).view.read (Elt Ideal) G := by
  funext y
  have h0 : (y 0).val < rowsIn t := Nat.lt_of_lt_of_eq (y 0).isLt (xsizes t).2.2.2.2.2.2.1.1
  have h1 : (y 1).val < 4 := Nat.lt_of_lt_of_eq (y 1).isLt (xsizes t).2.2.2.2.2.2.1.2
  have e : win0_6.xinj (grid0.coords t) y = ix2 (⟨(y 0).val, Nat.lt_of_lt_of_le h0 (rowsIn_le t)⟩ : Fin 3072) (⟨(y 1).val, h1⟩ : Fin 4) := by
    funext a
    match a with
    | ⟨0, _⟩ => rfl
    | ⟨1, _⟩ => rfl
  rw [View.read_apply]
  show X (win0_6.xinj (grid0.coords t) y) = G ((win0_6.blk t).view.emb y)
  exact (congrArg X e).trans ((h _ _ h0).trans (congrArg G (emb6 t y h0 h1)).symm)

/-- An index of output 6's array lies in the block of point `t` iff its row is one of the block's rows inside the array. -/
theorem mem_blk6 (t : Fin cfg0.N) (i : S1000000x4.Idx) :
    i ∈ (win0_6.blk t).view.set ↔ t.val * 3072 ≤ (i 0).val ∧ (i 0).val < t.val * 3072 + rowsIn t := by
  show i ∈ ((View.whole main_v0_2).slice (win0_6.rect t)).set ↔ _
  rw [View.set_slice_whole, Rect.mem_set_unit]
  have hi1 : (i 1).val < 4 := idx2_lt1 i
  refine ⟨fun h => ?_, fun h a => ?_⟩
  · have := h 0
    change win0_6.index t 0 * 3072 ≤ (i 0).val ∧ (i 0).val < win0_6.index t 0 * 3072 + win0_6.xsize (grid0.coords t) 0 at this
    rwa [(indices t).2.2.2.2.2.2.1.1, (xsizes t).2.2.2.2.2.2.1.1] at this
  · match a with
    | ⟨0, _⟩ =>
      change win0_6.index t 0 * 3072 ≤ (i 0).val ∧ (i 0).val < win0_6.index t 0 * 3072 + win0_6.xsize (grid0.coords t) 0
      rw [(indices t).2.2.2.2.2.2.1.1, (xsizes t).2.2.2.2.2.2.1.1]; exact h
    | ⟨1, _⟩ =>
      change win0_6.index t 1 * 4 ≤ (i 1).val ∧ (i 1).val < win0_6.index t 1 * 4 + win0_6.xsize (grid0.coords t) 1
      rw [(indices t).2.2.2.2.2.2.1.2, (xsizes t).2.2.2.2.2.2.1.2]; omega

/-- Every index of output 6's array lies in the block of the point its row divided by 3072 names, which writes back. -/
theorem cover6_arr (i : S1000000x4.Idx) :
    ∃ t : Fin cfg0.N, (cfg0.win 6).flush t = true ∧ i ∈ ((cfg0.win 6).blk t).view.set := by
  have hi0 : (i 0).val < 1000000 := idx2_lt0 i
  have ht : (i 0).val / 3072 < cfg0.N := by rw [show cfg0.N = 326 from N_0]; omega
  refine ⟨⟨(i 0).val / 3072, ht⟩, flush0_6 _, ?_⟩
  show i ∈ (win0_6.blk ⟨(i 0).val / 3072, ht⟩).view.set
  rw [mem_blk6]
  show (i 0).val / 3072 * 3072 ≤ (i 0).val ∧ (i 0).val < (i 0).val / 3072 * 3072 + rowsIn ⟨(i 0).val / 3072, ht⟩
  unfold rowsIn
  show (i 0).val / 3072 * 3072 ≤ (i 0).val ∧ (i 0).val < (i 0).val / 3072 * 3072 + (if (i 0).val / 3072 < 325 then 3072 else 1600)
  split <;> omega

/-- Contents of output window 7's buffer whose rows inside the array are the rows of `G` at the block's place are cut
    to `G` read through the block. -/
theorem cut7_eq_read (t : Fin cfg0.N) (X : S3072x14.Idx → Elt Ideal .f32) (G : S1000000x14.Idx → Elt Ideal .f32)
    (h : ∀ (r : Fin 3072) (k : Fin 14) (hr : r.val < rowsIn t),
      X (ix2 r k) = G (ix2 (⟨t.val * 3072 + r.val, row_lt t _ hr⟩ : Fin 1000000) k)) :
    win0_7.cut (grid0.coords t) X = (win0_7.blk t).view.read (Elt Ideal) G := by
  funext y
  have h0 : (y 0).val < rowsIn t := Nat.lt_of_lt_of_eq (y 0).isLt (xsizes t).2.2.2.2.2.2.2.1.1
  have h1 : (y 1).val < 14 := Nat.lt_of_lt_of_eq (y 1).isLt (xsizes t).2.2.2.2.2.2.2.1.2
  have e : win0_7.xinj (grid0.coords t) y = ix2 (⟨(y 0).val, Nat.lt_of_lt_of_le h0 (rowsIn_le t)⟩ : Fin 3072) (⟨(y 1).val, h1⟩ : Fin 14) := by
    funext a
    match a with
    | ⟨0, _⟩ => rfl
    | ⟨1, _⟩ => rfl
  rw [View.read_apply]
  show X (win0_7.xinj (grid0.coords t) y) = G ((win0_7.blk t).view.emb y)
  exact (congrArg X e).trans ((h _ _ h0).trans (congrArg G (emb7 t y h0 h1)).symm)

/-- An index of output 7's array lies in the block of point `t` iff its row is one of the block's rows inside the array. -/
theorem mem_blk7 (t : Fin cfg0.N) (i : S1000000x14.Idx) :
    i ∈ (win0_7.blk t).view.set ↔ t.val * 3072 ≤ (i 0).val ∧ (i 0).val < t.val * 3072 + rowsIn t := by
  show i ∈ ((View.whole main_v0_3).slice (win0_7.rect t)).set ↔ _
  rw [View.set_slice_whole, Rect.mem_set_unit]
  have hi1 : (i 1).val < 14 := idx2_lt1 i
  refine ⟨fun h => ?_, fun h a => ?_⟩
  · have := h 0
    change win0_7.index t 0 * 3072 ≤ (i 0).val ∧ (i 0).val < win0_7.index t 0 * 3072 + win0_7.xsize (grid0.coords t) 0 at this
    rwa [(indices t).2.2.2.2.2.2.2.1.1, (xsizes t).2.2.2.2.2.2.2.1.1] at this
  · match a with
    | ⟨0, _⟩ =>
      change win0_7.index t 0 * 3072 ≤ (i 0).val ∧ (i 0).val < win0_7.index t 0 * 3072 + win0_7.xsize (grid0.coords t) 0
      rw [(indices t).2.2.2.2.2.2.2.1.1, (xsizes t).2.2.2.2.2.2.2.1.1]; exact h
    | ⟨1, _⟩ =>
      change win0_7.index t 1 * 14 ≤ (i 1).val ∧ (i 1).val < win0_7.index t 1 * 14 + win0_7.xsize (grid0.coords t) 1
      rw [(indices t).2.2.2.2.2.2.2.1.2, (xsizes t).2.2.2.2.2.2.2.1.2]; omega

/-- Every index of output 7's array lies in the block of the point its row divided by 3072 names, which writes back. -/
theorem cover7_arr (i : S1000000x14.Idx) :
    ∃ t : Fin cfg0.N, (cfg0.win 7).flush t = true ∧ i ∈ ((cfg0.win 7).blk t).view.set := by
  have hi0 : (i 0).val < 1000000 := idx2_lt0 i
  have ht : (i 0).val / 3072 < cfg0.N := by rw [show cfg0.N = 326 from N_0]; omega
  refine ⟨⟨(i 0).val / 3072, ht⟩, flush0_7 _, ?_⟩
  show i ∈ (win0_7.blk ⟨(i 0).val / 3072, ht⟩).view.set
  rw [mem_blk7]
  show (i 0).val / 3072 * 3072 ≤ (i 0).val ∧ (i 0).val < (i 0).val / 3072 * 3072 + rowsIn ⟨(i 0).val / 3072, ht⟩
  unfold rowsIn
  show (i 0).val / 3072 * 3072 ≤ (i 0).val ∧ (i 0).val < (i 0).val / 3072 * 3072 + (if (i 0).val / 3072 < 325 then 3072 else 1600)
  split <;> omega

/-- Contents of output window 8's buffer whose rows inside the array are the rows of `G` at the block's place are cut
    to `G` read through the block. -/
theorem cut8_eq_read (t : Fin cfg0.N) (X : S3072x7.Idx → Elt Ideal .f32) (G : S1000000x7.Idx → Elt Ideal .f32)
    (h : ∀ (r : Fin 3072) (k : Fin 7) (hr : r.val < rowsIn t),
      X (ix2 r k) = G (ix2 (⟨t.val * 3072 + r.val, row_lt t _ hr⟩ : Fin 1000000) k)) :
    win0_8.cut (grid0.coords t) X = (win0_8.blk t).view.read (Elt Ideal) G := by
  funext y
  have h0 : (y 0).val < rowsIn t := Nat.lt_of_lt_of_eq (y 0).isLt (xsizes t).2.2.2.2.2.2.2.2.1.1
  have h1 : (y 1).val < 7 := Nat.lt_of_lt_of_eq (y 1).isLt (xsizes t).2.2.2.2.2.2.2.2.1.2
  have e : win0_8.xinj (grid0.coords t) y = ix2 (⟨(y 0).val, Nat.lt_of_lt_of_le h0 (rowsIn_le t)⟩ : Fin 3072) (⟨(y 1).val, h1⟩ : Fin 7) := by
    funext a
    match a with
    | ⟨0, _⟩ => rfl
    | ⟨1, _⟩ => rfl
  rw [View.read_apply]
  show X (win0_8.xinj (grid0.coords t) y) = G ((win0_8.blk t).view.emb y)
  exact (congrArg X e).trans ((h _ _ h0).trans (congrArg G (emb8 t y h0 h1)).symm)

/-- An index of output 8's array lies in the block of point `t` iff its row is one of the block's rows inside the array. -/
theorem mem_blk8 (t : Fin cfg0.N) (i : S1000000x7.Idx) :
    i ∈ (win0_8.blk t).view.set ↔ t.val * 3072 ≤ (i 0).val ∧ (i 0).val < t.val * 3072 + rowsIn t := by
  show i ∈ ((View.whole main_v0_4).slice (win0_8.rect t)).set ↔ _
  rw [View.set_slice_whole, Rect.mem_set_unit]
  have hi1 : (i 1).val < 7 := idx2_lt1 i
  refine ⟨fun h => ?_, fun h a => ?_⟩
  · have := h 0
    change win0_8.index t 0 * 3072 ≤ (i 0).val ∧ (i 0).val < win0_8.index t 0 * 3072 + win0_8.xsize (grid0.coords t) 0 at this
    rwa [(indices t).2.2.2.2.2.2.2.2.1.1, (xsizes t).2.2.2.2.2.2.2.2.1.1] at this
  · match a with
    | ⟨0, _⟩ =>
      change win0_8.index t 0 * 3072 ≤ (i 0).val ∧ (i 0).val < win0_8.index t 0 * 3072 + win0_8.xsize (grid0.coords t) 0
      rw [(indices t).2.2.2.2.2.2.2.2.1.1, (xsizes t).2.2.2.2.2.2.2.2.1.1]; exact h
    | ⟨1, _⟩ =>
      change win0_8.index t 1 * 7 ≤ (i 1).val ∧ (i 1).val < win0_8.index t 1 * 7 + win0_8.xsize (grid0.coords t) 1
      rw [(indices t).2.2.2.2.2.2.2.2.1.2, (xsizes t).2.2.2.2.2.2.2.2.1.2]; omega

/-- Every index of output 8's array lies in the block of the point its row divided by 3072 names, which writes back. -/
theorem cover8_arr (i : S1000000x7.Idx) :
    ∃ t : Fin cfg0.N, (cfg0.win 8).flush t = true ∧ i ∈ ((cfg0.win 8).blk t).view.set := by
  have hi0 : (i 0).val < 1000000 := idx2_lt0 i
  have ht : (i 0).val / 3072 < cfg0.N := by rw [show cfg0.N = 326 from N_0]; omega
  refine ⟨⟨(i 0).val / 3072, ht⟩, flush0_8 _, ?_⟩
  show i ∈ (win0_8.blk ⟨(i 0).val / 3072, ht⟩).view.set
  rw [mem_blk8]
  show (i 0).val / 3072 * 3072 ≤ (i 0).val ∧ (i 0).val < (i 0).val / 3072 * 3072 + rowsIn ⟨(i 0).val / 3072, ht⟩
  unfold rowsIn
  show (i 0).val / 3072 * 3072 ≤ (i 0).val ∧ (i 0).val < (i 0).val / 3072 * 3072 + (if (i 0).val / 3072 < 325 then 3072 else 1600)
  split <;> omega

/-- Contents of output window 9's buffer whose rows inside the array are the rows of `G` at the block's place are cut
    to `G` read through the block. -/
theorem cut9_eq_read (t : Fin cfg0.N) (X : S3072x7.Idx → Elt Ideal .f32) (G : S1000000x7.Idx → Elt Ideal .f32)
    (h : ∀ (r : Fin 3072) (k : Fin 7) (hr : r.val < rowsIn t),
      X (ix2 r k) = G (ix2 (⟨t.val * 3072 + r.val, row_lt t _ hr⟩ : Fin 1000000) k)) :
    win0_9.cut (grid0.coords t) X = (win0_9.blk t).view.read (Elt Ideal) G := by
  funext y
  have h0 : (y 0).val < rowsIn t := Nat.lt_of_lt_of_eq (y 0).isLt (xsizes t).2.2.2.2.2.2.2.2.2.1
  have h1 : (y 1).val < 7 := Nat.lt_of_lt_of_eq (y 1).isLt (xsizes t).2.2.2.2.2.2.2.2.2.2
  have e : win0_9.xinj (grid0.coords t) y = ix2 (⟨(y 0).val, Nat.lt_of_lt_of_le h0 (rowsIn_le t)⟩ : Fin 3072) (⟨(y 1).val, h1⟩ : Fin 7) := by
    funext a
    match a with
    | ⟨0, _⟩ => rfl
    | ⟨1, _⟩ => rfl
  rw [View.read_apply]
  show X (win0_9.xinj (grid0.coords t) y) = G ((win0_9.blk t).view.emb y)
  exact (congrArg X e).trans ((h _ _ h0).trans (congrArg G (emb9 t y h0 h1)).symm)

/-- An index of output 9's array lies in the block of point `t` iff its row is one of the block's rows inside the array. -/
theorem mem_blk9 (t : Fin cfg0.N) (i : S1000000x7.Idx) :
    i ∈ (win0_9.blk t).view.set ↔ t.val * 3072 ≤ (i 0).val ∧ (i 0).val < t.val * 3072 + rowsIn t := by
  show i ∈ ((View.whole main_v0_5).slice (win0_9.rect t)).set ↔ _
  rw [View.set_slice_whole, Rect.mem_set_unit]
  have hi1 : (i 1).val < 7 := idx2_lt1 i
  refine ⟨fun h => ?_, fun h a => ?_⟩
  · have := h 0
    change win0_9.index t 0 * 3072 ≤ (i 0).val ∧ (i 0).val < win0_9.index t 0 * 3072 + win0_9.xsize (grid0.coords t) 0 at this
    rwa [(indices t).2.2.2.2.2.2.2.2.2.1, (xsizes t).2.2.2.2.2.2.2.2.2.1] at this
  · match a with
    | ⟨0, _⟩ =>
      change win0_9.index t 0 * 3072 ≤ (i 0).val ∧ (i 0).val < win0_9.index t 0 * 3072 + win0_9.xsize (grid0.coords t) 0
      rw [(indices t).2.2.2.2.2.2.2.2.2.1, (xsizes t).2.2.2.2.2.2.2.2.2.1]; exact h
    | ⟨1, _⟩ =>
      change win0_9.index t 1 * 7 ≤ (i 1).val ∧ (i 1).val < win0_9.index t 1 * 7 + win0_9.xsize (grid0.coords t) 1
      rw [(indices t).2.2.2.2.2.2.2.2.2.2, (xsizes t).2.2.2.2.2.2.2.2.2.2]; omega

/-- Every index of output 9's array lies in the block of the point its row divided by 3072 names, which writes back. -/
theorem cover9_arr (i : S1000000x7.Idx) :
    ∃ t : Fin cfg0.N, (cfg0.win 9).flush t = true ∧ i ∈ ((cfg0.win 9).blk t).view.set := by
  have hi0 : (i 0).val < 1000000 := idx2_lt0 i
  have ht : (i 0).val / 3072 < cfg0.N := by rw [show cfg0.N = 326 from N_0]; omega
  refine ⟨⟨(i 0).val / 3072, ht⟩, flush0_9 _, ?_⟩
  show i ∈ (win0_9.blk ⟨(i 0).val / 3072, ht⟩).view.set
  rw [mem_blk9]
  show (i 0).val / 3072 * 3072 ≤ (i 0).val ∧ (i 0).val < (i 0).val / 3072 * 3072 + rowsIn ⟨(i 0).val / 3072, ht⟩
  unfold rowsIn
  show (i 0).val / 3072 * 3072 ≤ (i 0).val ∧ (i 0).val < (i 0).val / 3072 * 3072 + (if (i 0).val / 3072 < 325 then 3072 else 1600)
  split <;> omega

/-! ## The flattened matrices -/

open Cert.LegDynamics

/-- The Coriolis matrices of all rows with each 2 × 2 matrix laid out row-major along one axis of length 4:
    column 2a + b of row r is entry (a, b) of row r's matrix. -/
def CmatFlat (q qd : SB2.Idx → EReal) : S1000000x4.Idx → EReal := fun i =>
  cmat ⟨(i 1).val / 2, Nat.div_lt_of_lt_mul (idx2_lt1 i)⟩ ⟨(i 1).val % 2, Nat.mod_lt _ (by decide)⟩
    (q (ix2 (i 0) (0 : Fin 2))) (q (ix2 (i 0) (1 : Fin 2))) (qd (ix2 (i 0) (0 : Fin 2))) (qd (ix2 (i 0) (1 : Fin 2)))

/-- The mass matrices of all rows, flattened likewise. -/
def MmatFlat (q : SB2.Idx → EReal) : S1000000x4.Idx → EReal := fun i =>
  mmat ⟨(i 1).val / 2, Nat.div_lt_of_lt_mul (idx2_lt1 i)⟩ ⟨(i 1).val % 2, Nat.mod_lt _ (by decide)⟩
    (q (ix2 (i 0) (0 : Fin 2))) (q (ix2 (i 0) (1 : Fin 2)))

/-- The moment-arm matrices of all rows with each 2 × 7 matrix laid out row-major along one axis of length 14:
    column 7a + k of row r is entry (a, k) of row r's matrix. -/
def RmatFlat (q : SB2.Idx → EReal) : S1000000x14.Idx → EReal := fun i =>
  rmat ⟨(i 1).val / 7, Nat.div_lt_of_lt_mul (idx2_lt1 i)⟩ ⟨(i 1).val % 7, Nat.mod_lt _ (by decide)⟩
    (q (ix2 (i 0) (0 : Fin 2))) (q (ix2 (i 0) (1 : Fin 2)))

theorem CmatFlat_apply (q qd : SB2.Idx → EReal) (R : Fin 1000000) (j : Fin 4) :
    CmatFlat q qd (ix2 R j) = cmat ⟨j.val / 2, Nat.div_lt_of_lt_mul j.isLt⟩ ⟨j.val % 2, Nat.mod_lt _ (by decide)⟩
      (q (ix2 R (0 : Fin 2))) (q (ix2 R (1 : Fin 2))) (qd (ix2 R (0 : Fin 2))) (qd (ix2 R (1 : Fin 2))) := rfl

theorem MmatFlat_apply (q : SB2.Idx → EReal) (R : Fin 1000000) (j : Fin 4) :
    MmatFlat q (ix2 R j) = mmat ⟨j.val / 2, Nat.div_lt_of_lt_mul j.isLt⟩ ⟨j.val % 2, Nat.mod_lt _ (by decide)⟩
      (q (ix2 R (0 : Fin 2))) (q (ix2 R (1 : Fin 2))) := rfl

theorem RmatFlat_apply (q : SB2.Idx → EReal) (R : Fin 1000000) (j : Fin 14) :
    RmatFlat q (ix2 R j) = rmat ⟨j.val / 7, Nat.div_lt_of_lt_mul j.isLt⟩ ⟨j.val % 7, Nat.mod_lt _ (by decide)⟩
      (q (ix2 R (0 : Fin 2))) (q (ix2 R (1 : Fin 2))) := rfl

/-! ## The six output arrays after the run -/

variable (m : (ℓ : Loc nD τ sig) → Buf (Elt Ideal) ℓ)

/-- The gravity array: every block written back is the gravity vectors of its rows of the angle array, and the blocks
    cover the array. -/
theorem final4 (hE : RowFormulas) (c : Dev nD) :
    (dats (F := Ideal) m 0 c).arrAt 4 cfg0.N = Gq (V m c main_arg0) :=
  (dats (F := Ideal) m 0 c).arrAt_eq_of_cover 4 (Gq (V m c main_arg0))
    (fun t _ => by
      show win0_4.cut (grid0.coords t) ((dats m 0 c).after 4 t) = _
      rw [after0_4]
      exact cut4_eq_read t _ _ fun r k hr => by
        rw [hE.gq, in0_at m c t r 0 hr, in0_at m c t r 1 hr, Gq_apply])
    cover4_arr

/-- The flattened Coriolis array. -/
theorem final5 (hE : RowFormulas) (c : Dev nD) :
    (dats (F := Ideal) m 0 c).arrAt 5 cfg0.N = CmatFlat (V m c main_arg0) (V m c main_arg1) :=
  (dats (F := Ideal) m 0 c).arrAt_eq_of_cover 5 (CmatFlat (V m c main_arg0) (V m c main_arg1))
    (fun t _ => by
      show win0_5.cut (grid0.coords t) ((dats m 0 c).after 5 t) = _
      rw [after0_5]
      exact cut5_eq_read t _ _ fun r k hr => by
        rw [hE.cmat c t _ _ _ _ r ⟨k.val / 2, Nat.div_lt_of_lt_mul k.isLt⟩ ⟨k.val % 2, Nat.mod_lt _ (by decide)⟩ k
            (by show k.val = 2 * (k.val / 2) + k.val % 2; omega),
          in0_at m c t r 0 hr, in0_at m c t r 1 hr, in1_at m c t r 0 hr, in1_at m c t r 1 hr, CmatFlat_apply])
    cover5_arr

/-- The flattened mass array. -/
theorem final6 (hE : RowFormulas) (c : Dev nD) :
    (dats (F := Ideal) m 0 c).arrAt 6 cfg0.N = MmatFlat (V m c main_arg0) :=
  (dats (F := Ideal) m 0 c).arrAt_eq_of_cover 6 (MmatFlat (V m c main_arg0))
    (fun t _ => by
      show win0_6.cut (grid0.coords t) ((dats m 0 c).after 6 t) = _
      rw [after0_6]
      exact cut6_eq_read t _ _ fun r k hr => by
        rw [hE.mmat c t _ _ _ _ r ⟨k.val / 2, Nat.div_lt_of_lt_mul k.isLt⟩ ⟨k.val % 2, Nat.mod_lt _ (by decide)⟩ k
            (by show k.val = 2 * (k.val / 2) + k.val % 2; omega),
          in0_at m c t r 0 hr, in0_at m c t r 1 hr, MmatFlat_apply])
    cover6_arr

/-- The flattened moment-arm array. -/
theorem final7 (hE : RowFormulas) (c : Dev nD) :
    (dats (F := Ideal) m 0 c).arrAt 7 cfg0.N = RmatFlat (V m c main_arg0) :=
  (dats (F := Ideal) m 0 c).arrAt_eq_of_cover 7 (RmatFlat (V m c main_arg0))
    (fun t _ => by
      show win0_7.cut (grid0.coords t) ((dats m 0 c).after 7 t) = _
      rw [after0_7]
      exact cut7_eq_read t _ _ fun r k hr => by
        rw [hE.rmat c t _ _ _ _ r ⟨k.val / 7, Nat.div_lt_of_lt_mul k.isLt⟩ ⟨k.val % 7, Nat.mod_lt _ (by decide)⟩ k
            (by show k.val = 7 * (k.val / 7) + k.val % 7; omega),
          in0_at m c t r 0 hr, in0_at m c t r 1 hr, RmatFlat_apply])
    cover7_arr

/-- The length array. -/
theorem final8 (hE : RowFormulas) (c : Dev nD) :
    (dats (F := Ideal) m 0 c).arrAt 8 cfg0.N = Ltot (V m c main_arg0) :=
  (dats (F := Ideal) m 0 c).arrAt_eq_of_cover 8 (Ltot (V m c main_arg0))
    (fun t _ => by
      show win0_8.cut (grid0.coords t) ((dats m 0 c).after 8 t) = _
      rw [after0_8]
      exact cut8_eq_read t _ _ fun r k hr => by
        rw [hE.ltot, in0_at m c t r 0 hr, in0_at m c t r 1 hr, Ltot_apply])
    cover8_arr

/-- The activation-rate array. -/
theorem final9 (hE : RowFormulas) (c : Dev nD) :
    (dats (F := Ideal) m 0 c).arrAt 9 cfg0.N = Adot (V m c main_arg2) (V m c main_arg3) :=
  (dats (F := Ideal) m 0 c).arrAt_eq_of_cover 9 (Adot (V m c main_arg2) (V m c main_arg3))
    (fun t _ => by
      show win0_9.cut (grid0.coords t) ((dats m 0 c).after 9 t) = _
      rw [after0_9]
      exact cut9_eq_read t _ _ fun r k hr => by
        rw [hE.adot, in2_at m c t r k hr, in3_at m c t r k hr, Adot_apply])
    cover9_arr

end Cert.KernelIdeal.Body

end
-- ==== Proof.IdealResults.lean ====
/-
  The six results of the idealized program. After the region three reshapes give the two matrix results and the moment-arm
  result their small axes back: entry (r, a, b) of a [1000000, 2, 2] array has the row-major position of entry (r, 2a + b)
  of the [1000000, 4] array, and entry (r, a, k) of the [1000000, 2, 7] array that of entry (r, 7a + k) of the
  [1000000, 14] array, so the flattened arrays reshape to the leg's Coriolis, mass and moment-arm arrays. With the arrays
  the region leaves, the run: the program terminates with the six results at the leg's six arrays of the argument arrays,
  the argument arrays untouched.
-/
import proofs.«114054_j5351529251331_2_alg».proof.Proof.IdealArrays

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.ShloMosaic.Pipeline (Dat Cfg Window)
open Cert.LegDynamics

/-! ## The reshapes after the region -/

open Idealize.SL Idealize.SL.Sem

theorem cmat_congr {a a' b b' : Fin 2} (ha : a'.val = a.val) (hb : b'.val = b.val) (q0 q1 qd0 qd1 : EReal) :
    cmat a' b' q0 q1 qd0 qd1 = cmat a b q0 q1 qd0 qd1 := by
  obtain rfl := Fin.ext ha; obtain rfl := Fin.ext hb; rfl

theorem mmat_congr {a a' b b' : Fin 2} (ha : a'.val = a.val) (hb : b'.val = b.val) (q0 q1 : EReal) :
    mmat a' b' q0 q1 = mmat a b q0 q1 := by
  obtain rfl := Fin.ext ha; obtain rfl := Fin.ext hb; rfl

theorem rmat_congr {a a' : Fin 2} {k k' : Fin 7} (ha : a'.val = a.val) (hk : k'.val = k.val) (q0 q1 : EReal) :
    rmat a' k' q0 q1 = rmat a k q0 q1 := by
  obtain rfl := Fin.ext ha; obtain rfl := Fin.ext hk; rfl

/-- The flattened Coriolis array reshaped to [1000000, 2, 2] is the Coriolis array: entry (r, a, b) has the row-major
    position of entry (r, 2a + b). -/
theorem unflatten_cmat (q qd : SB2.Idx → EReal) (h : S1000000x4.ShapeCasts S1000000x2x2) :
    shapeCast S1000000x2x2 (CmatFlat q qd) h = Cmat q qd := by
  funext i
  obtain ⟨R, a, b, rfl⟩ : ∃ (R : Fin 1000000) (a : Fin 2) (b : Fin 2), i = ix3 R a b := ⟨i 0, i 1, i 2, eq_ix3 i⟩
  have ha := a.isLt; have hb := b.isLt
  refine (shapeCast_apply _ h (ix3 R a b) (ix2 R (⟨2 * a.val + b.val, by omega⟩ : Fin 4)) ?_).trans ?_
  · rw [Shape.rowMajor_val_two, Shape.rowMajor_val_three]
    show R.val * 4 + (2 * a.val + b.val) = (R.val * 2 + a.val) * 2 + b.val
    omega
  · rw [CmatFlat_apply, Cmat_apply]
    exact cmat_congr (by show (2 * a.val + b.val) / 2 = a.val; omega) (by show (2 * a.val + b.val) % 2 = b.val; omega) _ _ _ _

/-- The flattened mass array reshaped to [1000000, 2, 2] is the mass array. -/
theorem unflatten_mmat (q : SB2.Idx → EReal) (h : S1000000x4.ShapeCasts S1000000x2x2) :
    shapeCast S1000000x2x2 (MmatFlat q) h = Mmat q := by
  funext i
  obtain ⟨R, a, b, rfl⟩ : ∃ (R : Fin 1000000) (a : Fin 2) (b : Fin 2), i = ix3 R a b := ⟨i 0, i 1, i 2, eq_ix3 i⟩
  have ha := a.isLt; have hb := b.isLt
  refine (shapeCast_apply _ h (ix3 R a b) (ix2 R (⟨2 * a.val + b.val, by omega⟩ : Fin 4)) ?_).trans ?_
  · rw [Shape.rowMajor_val_two, Shape.rowMajor_val_three]
    show R.val * 4 + (2 * a.val + b.val) = (R.val * 2 + a.val) * 2 + b.val
    omega
  · rw [MmatFlat_apply, Mmat_apply]
    exact mmat_congr (by show (2 * a.val + b.val) / 2 = a.val; omega) (by show (2 * a.val + b.val) % 2 = b.val; omega) _ _

/-- The flattened moment-arm array reshaped to [1000000, 2, 7] is the moment-arm array: entry (r, a, k) has the row-major
    position of entry (r, 7a + k). -/
theorem unflatten_rmat (q : SB2.Idx → EReal) (h : S1000000x14.ShapeCasts S1000000x2x7) :
    shapeCast S1000000x2x7 (RmatFlat q) h = Rmat q := by
  funext i
  obtain ⟨R, a, k, rfl⟩ : ∃ (R : Fin 1000000) (a : Fin 2) (k : Fin 7), i = ix3 R a k := ⟨i 0, i 1, i 2, eq_ix3 i⟩
  have ha := a.isLt; have hk := k.isLt
  refine (shapeCast_apply _ h (ix3 R a k) (ix2 R (⟨7 * a.val + k.val, by omega⟩ : Fin 14)) ?_).trans ?_
  · rw [Shape.rowMajor_val_two, Shape.rowMajor_val_three]
    show R.val * 14 + (7 * a.val + k.val) = (R.val * 2 + a.val) * 7 + k.val
    omega
  · rw [RmatFlat_apply, Rmat_apply]
    exact rmat_congr (by show (7 * a.val + k.val) / 7 = a.val; omega) (by show (7 * a.val + k.val) % 7 = k.val; omega) _ _

section Tails

variable (m : (ℓ : Loc nD τ sig) → Buf (Elt Ideal) ℓ)

/-- After the reshapes that follow the region the Coriolis result holds the Coriolis array, -/
theorem tail_v1 (hE : RowFormulas) (c : Dev nD) :
    Pipeline.afterTail₀ cfgs (dats (F := Ideal) m) 0 (V0 m) [hostOps1] c main_v1 = Cmat (V m c main_arg0) (V m c main_arg1) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0_1)
      = CmatFlat (V m c main_arg0) (V m c main_arg1) :=
    (Pipeline.withArrays_arr spec0 launch0.win.arr_inj c _ _ 5).trans (final5 m hE c)
  rw [e]
  exact unflatten_cmat _ _ _

/-- the mass result the mass array, -/
theorem tail_v2 (hE : RowFormulas) (c : Dev nD) :
    Pipeline.afterTail₀ cfgs (dats (F := Ideal) m) 0 (V0 m) [hostOps1] c main_v2 = Mmat (V m c main_arg0) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0_2)
      = MmatFlat (V m c main_arg0) :=
    (Pipeline.withArrays_arr spec0 launch0.win.arr_inj c _ _ 6).trans (final6 m hE c)
  rw [e]
  exact unflatten_mmat _ _

/-- and the moment-arm result the moment-arm array. -/
theorem tail_v3 (hE : RowFormulas) (c : Dev nD) :
    Pipeline.afterTail₀ cfgs (dats (F := Ideal) m) 0 (V0 m) [hostOps1] c main_v3 = Rmat (V m c main_arg0) := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v0_3)
      = RmatFlat (V m c main_arg0) :=
    (Pipeline.withArrays_arr spec0 launch0.win.arr_inj c _ _ 7).trans (final7 m hE c)
  rw [e]
  exact unflatten_rmat _ _

end Tails

/-! ## The run -/

/-- Every weakly fair execution of the idealized program terminates, and every final state has the six results at the
    leg's six arrays of the argument arrays and the four argument arrays as they were. -/
theorem kernel_value (hE : RowFormulas) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = Gq (m ((c.tc : Thread nD τ).loc main_arg0))
      ∧ r.2.mem ((c.tc : Thread nD τ).loc main_v1) = Cmat (m ((c.tc : Thread nD τ).loc main_arg0)) (m ((c.tc : Thread nD τ).loc main_arg1))
      ∧ r.2.mem ((c.tc : Thread nD τ).loc main_v2) = Mmat (m ((c.tc : Thread nD τ).loc main_arg0))
      ∧ r.2.mem ((c.tc : Thread nD τ).loc main_v3) = Rmat (m ((c.tc : Thread nD τ).loc main_arg0))
      ∧ r.2.mem ((c.tc : Thread nD τ).loc main_v0_4) = Ltot (m ((c.tc : Thread nD τ).loc main_arg0))
      ∧ r.2.mem ((c.tc : Thread nD τ).loc main_v0_5) = Adot (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 4).trans ((final4 m hE c).trans (congrArg Gq (V_main_arg0 m c))),
     ((h c).2 main_v1 (Pipeline.mem_restRefs_of main_v1 (by decide) (by decide))).trans
       ((tail_v1 m hE c).trans (congrArg₂ Cmat (V_main_arg0 m c) (V_main_arg1 m c))),
     ((h c).2 main_v2 (Pipeline.mem_restRefs_of main_v2 (by decide) (by decide))).trans
       ((tail_v2 m hE c).trans (congrArg Mmat (V_main_arg0 m c))),
     ((h c).2 main_v3 (Pipeline.mem_restRefs_of main_v3 (by decide) (by decide))).trans
       ((tail_v3 m hE c).trans (congrArg Rmat (V_main_arg0 m c))),
     ((h c).1 8).trans ((final8 m hE c).trans (congrArg Ltot (V_main_arg0 m c))),
     ((h c).1 9).trans ((final9 m hE c).trans (congrArg₂ Adot (V_main_arg2 m c) (V_main_arg3 m c))),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).1 2).trans (((dats m 0 c).arrAt_in 2 rfl _).trans ((A_eq m c 2).trans (V_main_arg2 m c))),
     ((h c).1 3).trans (((dats m 0 c).arrAt_in 3 rfl _).trans ((A_eq m c 3).trans (V_main_arg3 m c)))⟩)
    (run_main m ρ (rowLocal hE m))

end Cert.KernelIdeal.Body

end
-- ==== Proof.Layout.lean ====
/-
  The layout operations the host program is made of — a column of a two-column array, a vector stood up as a
  one-column array, an array given a middle unit axis, and the concatenations that stack columns into an array and
  two arrays along a middle axis — each read at an index given by its coordinates.
-/
import Idealize.ShloMosaic.Lib.Pipeline.Value
import Idealize.ShloMosaic.Lib.IdealHost

noncomputable section

namespace Cert.LegDynamics

open Idealize.ShloMosaic Idealize.ShloMosaic.ValueIdx

variable {α : Type}

/-- [1000000]: one value per row. -/
abbrev SB : Shape := ⟨1, ![1000000]⟩
/-- [1000000, 1]: one value per row, as a column. -/
abbrev SB1 : Shape := ⟨2, ![1000000, 1]⟩

/-! ## A column of a two-column array -/

/-- Column 0 of a [1000000, 2] array, its unit axis dropped, at row r. -/
theorem col0_apply (x : (⟨2, ![1000000, 2]⟩ : Shape).Idx → α)
    (hs : (⟨2, ![1000000, 2]⟩ : Shape).Slices ![0, 0] SB1) (hc : SB1.ShapeCasts SB) (r : Fin 1000000) :
    shapeCast SB (extractStridedSlice SB1 ![0, 0] x hs) hc (ix1 r) = x (ix2 r (⟨0, by decide⟩ : Fin 2)) := by
  refine (shapeCast_apply _ hc (ix1 r) (ix2 r (⟨0, by decide⟩ : Fin 1)) ?_).trans ?_
  · rw [Shape.rowMajor_val_two, Shape.rowMajor_val_one]
    show r.val * 1 + 0 = r.val
    omega
  · exact extractStridedSlice_apply _ x hs _ _ (fun a => match a with
      | ⟨0, _⟩ => by show r.val = 0 + r.val; omega
      | ⟨1, _⟩ => by show 0 = 0 + 0; rfl)

/-- Column 1 of a [1000000, 2] array, its unit axis dropped, at row r. -/
theorem col1_apply (x : (⟨2, ![1000000, 2]⟩ : Shape).Idx → α)
    (hs : (⟨2, ![1000000, 2]⟩ : Shape).Slices ![0, 1] SB1) (hc : SB1.ShapeCasts SB) (r : Fin 1000000) :
    shapeCast SB (extractStridedSlice SB1 ![0, 1] x hs) hc (ix1 r) = x (ix2 r (⟨1, by decide⟩ : Fin 2)) := by
  refine (shapeCast_apply _ hc (ix1 r) (ix2 r (⟨0, by decide⟩ : Fin 1)) ?_).trans ?_
  · rw [Shape.rowMajor_val_two, Shape.rowMajor_val_one]
    show r.val * 1 + 0 = r.val
    omega
  · exact extractStridedSlice_apply _ x hs _ _ (fun a => match a with
      | ⟨0, _⟩ => by show r.val = 0 + r.val; omega
      | ⟨1, _⟩ => by show 1 = 1 + 0; rfl)

/-! ## Unit axes added by a broadcast -/

/-- A [1000000] vector stood up as a [1000000, 1] column reads its row. -/
theorem bcastCol_apply (x : SB.Idx → α) (h : SB.BroadcastsInDim SB1 ![0]) (r : Fin 1000000) (c : Fin 1) :
    broadcastInDim SB1 ![0] h x (ix2 r c) = x (ix1 r) :=
  broadcastInDim_apply _ h x _ (ix1 r) (fun a => match a with
    | ⟨0, _⟩ => by show r.val = if (1000000 : Nat) = 1 then 0 else r.val; rw [if_neg (by decide)])

/-- A [1000000, n] array given a middle unit axis reads its row and column. -/
theorem bcastMid_apply {n : Nat} (hn : n ≠ 1) (x : (⟨2, ![1000000, n]⟩ : Shape).Idx → α)
    (h : (⟨2, ![1000000, n]⟩ : Shape).BroadcastsInDim ⟨3, ![1000000, 1, n]⟩ ![0, 2]) (r : Fin 1000000) (c : Fin 1)
    (k : Fin n) :
    broadcastInDim ⟨3, ![1000000, 1, n]⟩ ![0, 2] h x (ix3 r c k) = x (ix2 r k) :=
  broadcastInDim_apply _ h x _ (ix2 r k) (fun a => match a with
    | ⟨0, _⟩ => by show r.val = if (1000000 : Nat) = 1 then 0 else r.val; rw [if_neg (by decide)]
    | ⟨1, _⟩ => by show k.val = if n = 1 then 0 else k.val; rw [if_neg hn])

/-! ## Concatenations -/

/-- Two columns side by side: column 0 is the first. -/
theorem concatCols2_apply0 (a b : SB1.Idx → α) (h : Shape.Concatenates [SB1, SB1] ⟨2, ![1000000, 2]⟩ 1)
    (r : Fin 1000000) (h0 : 0 < 2) :
    concatenate ⟨2, ![1000000, 2]⟩ 1 [⟨SB1, a⟩, ⟨SB1, b⟩] h (ix2 r (⟨0, h0⟩ : Fin 2)) = a (ix2 r (⟨0, by decide⟩ : Fin 1)) :=
  concatenate_pair_apply_left 1 a b h _ rfl _ (fun c => match c with
    | ⟨0, _⟩ => rfl
    | ⟨1, _⟩ => rfl)

/-- Two columns side by side: column 1 is the second. -/
theorem concatCols2_apply1 (a b : SB1.Idx → α) (h : Shape.Concatenates [SB1, SB1] ⟨2, ![1000000, 2]⟩ 1)
    (r : Fin 1000000) (h1 : 1 < 2) :
    concatenate ⟨2, ![1000000, 2]⟩ 1 [⟨SB1, a⟩, ⟨SB1, b⟩] h (ix2 r (⟨1, h1⟩ : Fin 2)) = b (ix2 r (⟨0, by decide⟩ : Fin 1)) :=
  concatenate_pair_apply_right 1 a b h _ rfl rfl _ (fun c => match c with
    | ⟨0, _⟩ => fun _ => rfl
    | ⟨1, _⟩ => fun hne => absurd rfl hne) rfl

/-- Two [1000000, 1, n] arrays stacked along the middle axis: row 0 is the first. -/
theorem concatMid_apply0 {n : Nat} (a b : (⟨3, ![1000000, 1, n]⟩ : Shape).Idx → α)
    (h : Shape.Concatenates [⟨3, ![1000000, 1, n]⟩, ⟨3, ![1000000, 1, n]⟩] ⟨3, ![1000000, 2, n]⟩ 1)
    (r : Fin 1000000) (h0 : 0 < 2) (k : Fin n) :
    concatenate ⟨3, ![1000000, 2, n]⟩ 1 [⟨⟨3, ![1000000, 1, n]⟩, a⟩, ⟨⟨3, ![1000000, 1, n]⟩, b⟩] h (ix3 r (⟨0, h0⟩ : Fin 2) k)
      = a (ix3 r (⟨0, by decide⟩ : Fin 1) k) :=
  concatenate_pair_apply_left 1 a b h _ rfl _ (fun c => match c with
    | ⟨0, _⟩ => rfl
    | ⟨1, _⟩ => rfl
    | ⟨2, _⟩ => rfl)

/-- Two [1000000, 1, n] arrays stacked along the middle axis: row 1 is the second. -/
theorem concatMid_apply1 {n : Nat} (a b : (⟨3, ![1000000, 1, n]⟩ : Shape).Idx → α)
    (h : Shape.Concatenates [⟨3, ![1000000, 1, n]⟩, ⟨3, ![1000000, 1, n]⟩] ⟨3, ![1000000, 2, n]⟩ 1)
    (r : Fin 1000000) (h1 : 1 < 2) (k : Fin n) :
    concatenate ⟨3, ![1000000, 2, n]⟩ 1 [⟨⟨3, ![1000000, 1, n]⟩, a⟩, ⟨⟨3, ![1000000, 1, n]⟩, b⟩] h (ix3 r (⟨1, h1⟩ : Fin 2) k)
      = b (ix3 r (⟨0, by decide⟩ : Fin 1) k) :=
  concatenate_pair_apply_right 1 a b h _ rfl rfl _ (fun c => match c with
    | ⟨0, _⟩ => fun _ => rfl
    | ⟨1, _⟩ => fun hne => absurd rfl hne
    | ⟨2, _⟩ => fun _ => rfl) rfl

/-! ### Seven columns side by side: column k is the k-th -/

theorem concatCols7_apply0 (u0 u1 u2 u3 u4 u5 u6 : SB1.Idx → α)
    (h : Shape.Concatenates [SB1, SB1, SB1, SB1, SB1, SB1, SB1] ⟨2, ![1000000, 7]⟩ 1) (r : Fin 1000000) (hk : 0 < 7) :
    concatenate ⟨2, ![1000000, 7]⟩ 1 [⟨SB1, u0⟩, ⟨SB1, u1⟩, ⟨SB1, u2⟩, ⟨SB1, u3⟩, ⟨SB1, u4⟩, ⟨SB1, u5⟩, ⟨SB1, u6⟩] h (ix2 r (⟨0, hk⟩ : Fin 7))
      = u0 (ix2 r (⟨0, by decide⟩ : Fin 1)) :=
  concatenate_apply_piece (t := ⟨2, ![1000000, 7]⟩) 1 [⟨SB1, u0⟩, ⟨SB1, u1⟩, ⟨SB1, u2⟩, ⟨SB1, u3⟩, ⟨SB1, u4⟩, ⟨SB1, u5⟩, ⟨SB1, u6⟩] h (ix2 r (⟨0, hk⟩ : Fin 7)) 0 hk SB1 u0 rfl rfl 0 rfl
    (ix2 r (⟨0, by decide⟩ : Fin 1)) (fun c => match c with
    | ⟨0, _⟩ => fun _ => rfl
    | ⟨1, _⟩ => fun hne => absurd rfl hne) rfl

theorem concatCols7_apply1 (u0 u1 u2 u3 u4 u5 u6 : SB1.Idx → α)
    (h : Shape.Concatenates [SB1, SB1, SB1, SB1, SB1, SB1, SB1] ⟨2, ![1000000, 7]⟩ 1) (r : Fin 1000000) (hk : 1 < 7) :
    concatenate ⟨2, ![1000000, 7]⟩ 1 [⟨SB1, u0⟩, ⟨SB1, u1⟩, ⟨SB1, u2⟩, ⟨SB1, u3⟩, ⟨SB1, u4⟩, ⟨SB1, u5⟩, ⟨SB1, u6⟩] h (ix2 r (⟨1, hk⟩ : Fin 7))
      = u1 (ix2 r (⟨0, by decide⟩ : Fin 1)) :=
  concatenate_apply_piece (t := ⟨2, ![1000000, 7]⟩) 1 [⟨SB1, u0⟩, ⟨SB1, u1⟩, ⟨SB1, u2⟩, ⟨SB1, u3⟩, ⟨SB1, u4⟩, ⟨SB1, u5⟩, ⟨SB1, u6⟩] h (ix2 r (⟨1, hk⟩ : Fin 7)) 1 hk SB1 u1 rfl rfl 1 rfl
    (ix2 r (⟨0, by decide⟩ : Fin 1)) (fun c => match c with
    | ⟨0, _⟩ => fun _ => rfl
    | ⟨1, _⟩ => fun hne => absurd rfl hne) rfl

theorem concatCols7_apply2 (u0 u1 u2 u3 u4 u5 u6 : SB1.Idx → α)
    (h : Shape.Concatenates [SB1, SB1, SB1, SB1, SB1, SB1, SB1] ⟨2, ![1000000, 7]⟩ 1) (r : Fin 1000000) (hk : 2 < 7) :
    concatenate ⟨2, ![1000000, 7]⟩ 1 [⟨SB1, u0⟩, ⟨SB1, u1⟩, ⟨SB1, u2⟩, ⟨SB1, u3⟩, ⟨SB1, u4⟩, ⟨SB1, u5⟩, ⟨SB1, u6⟩] h (ix2 r (⟨2, hk⟩ : Fin 7))
      = u2 (ix2 r (⟨0, by decide⟩ : Fin 1)) :=
  concatenate_apply_piece (t := ⟨2, ![1000000, 7]⟩) 1 [⟨SB1, u0⟩, ⟨SB1, u1⟩, ⟨SB1, u2⟩, ⟨SB1, u3⟩, ⟨SB1, u4⟩, ⟨SB1, u5⟩, ⟨SB1, u6⟩] h (ix2 r (⟨2, hk⟩ : Fin 7)) 2 hk SB1 u2 rfl rfl 2 rfl
    (ix2 r (⟨0, by decide⟩ : Fin 1)) (fun c => match c with
    | ⟨0, _⟩ => fun _ => rfl
    | ⟨1, _⟩ => fun hne => absurd rfl hne) rfl

theorem concatCols7_apply3 (u0 u1 u2 u3 u4 u5 u6 : SB1.Idx → α)
    (h : Shape.Concatenates [SB1, SB1, SB1, SB1, SB1, SB1, SB1] ⟨2, ![1000000, 7]⟩ 1) (r : Fin 1000000) (hk : 3 < 7) :
    concatenate ⟨2, ![1000000, 7]⟩ 1 [⟨SB1, u0⟩, ⟨SB1, u1⟩, ⟨SB1, u2⟩, ⟨SB1, u3⟩, ⟨SB1, u4⟩, ⟨SB1, u5⟩, ⟨SB1, u6⟩] h (ix2 r (⟨3, hk⟩ : Fin 7))
      = u3 (ix2 r (⟨0, by decide⟩ : Fin 1)) :=
  concatenate_apply_piece (t := ⟨2, ![1000000, 7]⟩) 1 [⟨SB1, u0⟩, ⟨SB1, u1⟩, ⟨SB1, u2⟩, ⟨SB1, u3⟩, ⟨SB1, u4⟩, ⟨SB1, u5⟩, ⟨SB1, u6⟩] h (ix2 r (⟨3, hk⟩ : Fin 7)) 3 hk SB1 u3 rfl rfl 3 rfl
    (ix2 r (⟨0, by decide⟩ : Fin 1)) (fun c => match c with
    | ⟨0, _⟩ => fun _ => rfl
    | ⟨1, _⟩ => fun hne => absurd rfl hne) rfl

theorem concatCols7_apply4 (u0 u1 u2 u3 u4 u5 u6 : SB1.Idx → α)
    (h : Shape.Concatenates [SB1, SB1, SB1, SB1, SB1, SB1, SB1] ⟨2, ![1000000, 7]⟩ 1) (r : Fin 1000000) (hk : 4 < 7) :
    concatenate ⟨2, ![1000000, 7]⟩ 1 [⟨SB1, u0⟩, ⟨SB1, u1⟩, ⟨SB1, u2⟩, ⟨SB1, u3⟩, ⟨SB1, u4⟩, ⟨SB1, u5⟩, ⟨SB1, u6⟩] h (ix2 r (⟨4, hk⟩ : Fin 7))
      = u4 (ix2 r (⟨0, by decide⟩ : Fin 1)) :=
  concatenate_apply_piece (t := ⟨2, ![1000000, 7]⟩) 1 [⟨SB1, u0⟩, ⟨SB1, u1⟩, ⟨SB1, u2⟩, ⟨SB1, u3⟩, ⟨SB1, u4⟩, ⟨SB1, u5⟩, ⟨SB1, u6⟩] h (ix2 r (⟨4, hk⟩ : Fin 7)) 4 hk SB1 u4 rfl rfl 4 rfl
    (ix2 r (⟨0, by decide⟩ : Fin 1)) (fun c => match c with
    | ⟨0, _⟩ => fun _ => rfl
    | ⟨1, _⟩ => fun hne => absurd rfl hne) rfl

theorem concatCols7_apply5 (u0 u1 u2 u3 u4 u5 u6 : SB1.Idx → α)
    (h : Shape.Concatenates [SB1, SB1, SB1, SB1, SB1, SB1, SB1] ⟨2, ![1000000, 7]⟩ 1) (r : Fin 1000000) (hk : 5 < 7) :
    concatenate ⟨2, ![1000000, 7]⟩ 1 [⟨SB1, u0⟩, ⟨SB1, u1⟩, ⟨SB1, u2⟩, ⟨SB1, u3⟩, ⟨SB1, u4⟩, ⟨SB1, u5⟩, ⟨SB1, u6⟩] h (ix2 r (⟨5, hk⟩ : Fin 7))
      = u5 (ix2 r (⟨0, by decide⟩ : Fin 1)) :=
  concatenate_apply_piece (t := ⟨2, ![1000000, 7]⟩) 1 [⟨SB1, u0⟩, ⟨SB1, u1⟩, ⟨SB1, u2⟩, ⟨SB1, u3⟩, ⟨SB1, u4⟩, ⟨SB1, u5⟩, ⟨SB1, u6⟩] h (ix2 r (⟨5, hk⟩ : Fin 7)) 5 hk SB1 u5 rfl rfl 5 rfl
    (ix2 r (⟨0, by decide⟩ : Fin 1)) (fun c => match c with
    | ⟨0, _⟩ => fun _ => rfl
    | ⟨1, _⟩ => fun hne => absurd rfl hne) rfl

theorem concatCols7_apply6 (u0 u1 u2 u3 u4 u5 u6 : SB1.Idx → α)
    (h : Shape.Concatenates [SB1, SB1, SB1, SB1, SB1, SB1, SB1] ⟨2, ![1000000, 7]⟩ 1) (r : Fin 1000000) (hk : 6 < 7) :
    concatenate ⟨2, ![1000000, 7]⟩ 1 [⟨SB1, u0⟩, ⟨SB1, u1⟩, ⟨SB1, u2⟩, ⟨SB1, u3⟩, ⟨SB1, u4⟩, ⟨SB1, u5⟩, ⟨SB1, u6⟩] h (ix2 r (⟨6, hk⟩ : Fin 7))
      = u6 (ix2 r (⟨0, by decide⟩ : Fin 1)) :=
  concatenate_apply_piece (t := ⟨2, ![1000000, 7]⟩) 1 [⟨SB1, u0⟩, ⟨SB1, u1⟩, ⟨SB1, u2⟩, ⟨SB1, u3⟩, ⟨SB1, u4⟩, ⟨SB1, u5⟩, ⟨SB1, u6⟩] h (ix2 r (⟨6, hk⟩ : Fin 7)) 6 hk SB1 u6 rfl rfl 6 rfl
    (ix2 r (⟨0, by decide⟩ : Fin 1)) (fun c => match c with
    | ⟨0, _⟩ => fun _ => rfl
    | ⟨1, _⟩ => fun hne => absurd rfl hne) rfl

end Cert.LegDynamics

end
-- ==== Proof.RefCols.lean ====
/-
  The two columns of the joint-angle argument as the host program reads them — a slice of the column, its unit axis
  dropped — are, at row r, the argument's entries (r, 0) and (r, 1); likewise the joint velocities'.
-/
import proofs.«114054_j5351529251331_2_alg».proof.Proof.Gen.ReferenceIdeal.Run
import proofs.«114054_j5351529251331_2_alg».proof.Proof.Spec
import proofs.«114054_j5351529251331_2_alg».proof.Proof.Layout

noncomputable section

namespace Cert.LegDynamics.Ref

open Idealize.ShloMosaic Idealize.ShloMosaic.TcCoe Idealize.SL.Sem Idealize.ShloMosaic.ValueIdx
open Cert.ReferenceIdeal Cert.ReferenceIdeal.Gen Cert.ReferenceIdeal.Value Cert.LegDynamics

/-- The hip angle of row r. -/
theorem q0_read (V0 : Valuation τ sig (Elt Ideal)) (r : Fin 1000000) :
    res_main_v1 (F := Ideal) V0 (ix1 r) = V0 (Proc.devRef .tc main_arg0) (ix2 r (0 : Fin 2)) :=
  col0_apply _ _ _ r

/-- The knee angle of row r. -/
theorem q1_read (V0 : Valuation τ sig (Elt Ideal)) (r : Fin 1000000) :
    res_main_v3 (F := Ideal) V0 (ix1 r) = V0 (Proc.devRef .tc main_arg0) (ix2 r (1 : Fin 2)) :=
  col1_apply _ _ _ r

/-- Column 0 of any [1000000, 2] array of the program, at row r. -/
theorem c0_read (x : FVec Ideal S1000000x2 .f32) (r : Fin 1000000) :
    (shapeCast S1000000 (extractStridedSlice S1000000x1 ![0, 0] x slices_S1000000x2_S1000000x1_0_0)
      shapeCasts_S1000000x1_S1000000 : FVec Ideal S1000000 .f32) (ix1 r) = x (ix2 r (0 : Fin 2)) :=
  col0_apply _ _ _ r

/-- Column 1 of any [1000000, 2] array of the program, at row r. -/
theorem c1_read (x : FVec Ideal S1000000x2 .f32) (r : Fin 1000000) :
    (shapeCast S1000000 (extractStridedSlice S1000000x1 ![0, 1] x slices_S1000000x2_S1000000x1_0_1)
      shapeCasts_S1000000x1_S1000000 : FVec Ideal S1000000 .f32) (ix1 r) = x (ix2 r (1 : Fin 2)) :=
  col1_apply _ _ _ r

end Cert.LegDynamics.Ref

end
-- ==== Proof.RefGq.lean ====
/-
  The host program's gravity vector: the two columns c₀ · sin q₀ and c₁ · sin q₁ side by side, read entry by entry.
-/
import proofs.«114054_j5351529251331_2_alg».proof.Proof.Gen.ReferenceIdeal.Run
import proofs.«114054_j5351529251331_2_alg».proof.Proof.Spec
import proofs.«114054_j5351529251331_2_alg».proof.Proof.Layout
import proofs.«114054_j5351529251331_2_alg».proof.Proof.RefCols

noncomputable section

namespace Cert.LegDynamics.Ref

open Idealize.ShloMosaic Idealize.ShloMosaic.TcCoe Idealize.SL.Sem Idealize.ShloMosaic.ValueIdx
open Cert.ReferenceIdeal Cert.ReferenceIdeal.Gen Cert.ReferenceIdeal.Value Cert.LegDynamics

/-- After the host program's run the first result holds the gravity vectors of the arguments' rows. -/
theorem ref_gq (V0 : Valuation τ sig (Elt Ideal)) :
    val7 (F := Ideal) V0 (Proc.devRef .tc main_v16) = Gq (V0 (Proc.devRef .tc main_arg0)) := by
  refine (val7_main_v16 V0).trans ?_
  funext j
  obtain ⟨r, k, rfl⟩ : ∃ r k, j = ix2 r k := ⟨j 0, j 1, eq_ix2 j⟩
  match k with
  | ⟨0, h0⟩ =>
    rw [concatCols2_apply0, bcastCol_apply]
    simp only [mulf, Host.sin, q0_read, Gq_apply, gq, broadcastInDim, constant, Ideal.mulf_def, Ideal.hostUnary_sin_def,
      Ideal.ofBits_def]
  | ⟨1, h1⟩ =>
    rw [concatCols2_apply1, bcastCol_apply]
    simp only [mulf, Host.sin, q1_read, Gq_apply, gq, broadcastInDim, constant, Ideal.mulf_def, Ideal.hostUnary_sin_def,
      Ideal.ofBits_def]

end Cert.LegDynamics.Ref

end
-- ==== Proof.RefCmat.lean ====
/-
  The host program's Coriolis matrix: two rows, each two columns side by side, stacked along a middle axis; its
  entries are zero on the diagonal and ∓k · sin (q₀ − q₁) times a joint velocity off it.
-/
import proofs.«114054_j5351529251331_2_alg».proof.Proof.Gen.ReferenceIdeal.Run
import proofs.«114054_j5351529251331_2_alg».proof.Proof.Spec
import proofs.«114054_j5351529251331_2_alg».proof.Proof.Layout
import proofs.«114054_j5351529251331_2_alg».proof.Proof.RefCols

noncomputable section

namespace Cert.LegDynamics.Ref

open Idealize.ShloMosaic Idealize.ShloMosaic.TcCoe Idealize.SL.Sem Idealize.ShloMosaic.ValueIdx
open Cert.ReferenceIdeal Cert.ReferenceIdeal.Gen Cert.ReferenceIdeal.Value Cert.LegDynamics

/-- After the host program's run the second result holds the Coriolis matrices of the arguments' rows. -/
theorem ref_cmat (V0 : Valuation τ sig (Elt Ideal)) :
    val7 (F := Ideal) V0 (Proc.devRef .tc main_v34)
      = Cmat (V0 (Proc.devRef .tc main_arg0)) (V0 (Proc.devRef .tc main_arg1)) := by
  refine (val7_main_v34 V0).trans ?_
  funext j
  obtain ⟨r, a, b, rfl⟩ : ∃ r a b, j = ix3 r a b := ⟨j 0, j 1, j 2, eq_ix3 j⟩
  match a, b with
  | ⟨0, _⟩, ⟨0, _⟩ =>
    rw [concatMid_apply0, bcastMid_apply (by decide), concatCols2_apply0, bcastCol_apply]
    simp only [res_main_v25, Cmat_apply, cmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨1, _⟩ =>
    rw [concatMid_apply0, bcastMid_apply (by decide), concatCols2_apply1, bcastCol_apply]
    simp only [mulf, addf, subf, Host.sin, Host.cos, Host.sqrt, Host.exp, Host.negf, Host.divf, res_main_v18, q0_read, q1_read, c1_read, Cmat_apply, cmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨0, _⟩ =>
    rw [concatMid_apply1, bcastMid_apply (by decide), concatCols2_apply0, bcastCol_apply]
    simp only [mulf, addf, subf, Host.sin, Host.cos, Host.sqrt, Host.exp, Host.negf, Host.divf, res_main_v18, q0_read, q1_read, c0_read, Cmat_apply, cmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨1, _⟩ =>
    rw [concatMid_apply1, bcastMid_apply (by decide), concatCols2_apply1, bcastCol_apply]
    simp only [res_main_v25, Cmat_apply, cmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]

end Cert.LegDynamics.Ref

end
-- ==== Proof.RefMmat.lean ====
/-
  The host program's mass matrix: the two constant inertias on the diagonal, k · cos (q₀ − q₁) off it, assembled
  as two rows of two columns.
-/
import proofs.«114054_j5351529251331_2_alg».proof.Proof.Gen.ReferenceIdeal.Run
import proofs.«114054_j5351529251331_2_alg».proof.Proof.Spec
import proofs.«114054_j5351529251331_2_alg».proof.Proof.Layout
import proofs.«114054_j5351529251331_2_alg».proof.Proof.RefCols

noncomputable section

namespace Cert.LegDynamics.Ref

open Idealize.ShloMosaic Idealize.ShloMosaic.TcCoe Idealize.SL.Sem Idealize.ShloMosaic.ValueIdx
open Cert.ReferenceIdeal Cert.ReferenceIdeal.Gen Cert.ReferenceIdeal.Value Cert.LegDynamics

/-- After the host program's run the third result holds the mass matrices of the arguments' rows. -/
theorem ref_mmat (V0 : Valuation τ sig (Elt Ideal)) :
    val7 (F := Ideal) V0 (Proc.devRef .tc main_v49) = Mmat (V0 (Proc.devRef .tc main_arg0)) := by
  refine (val7_main_v49 V0).trans ?_
  funext j
  obtain ⟨r, a, b, rfl⟩ : ∃ r a b, j = ix3 r a b := ⟨j 0, j 1, j 2, eq_ix3 j⟩
  match a, b with
  | ⟨0, _⟩, ⟨0, _⟩ =>
    rw [concatMid_apply0, bcastMid_apply (by decide), concatCols2_apply0, bcastCol_apply]
    simp only [Mmat_apply, mmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨1, _⟩ =>
    rw [concatMid_apply0, bcastMid_apply (by decide), concatCols2_apply1, bcastCol_apply]
    simp only [mulf, addf, subf, Host.sin, Host.cos, Host.sqrt, Host.exp, Host.negf, Host.divf, res_main_v38, q0_read, q1_read, Mmat_apply, mmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨0, _⟩ =>
    rw [concatMid_apply1, bcastMid_apply (by decide), concatCols2_apply0, bcastCol_apply]
    simp only [mulf, addf, subf, Host.sin, Host.cos, Host.sqrt, Host.exp, Host.negf, Host.divf, res_main_v38, q0_read, q1_read, Mmat_apply, mmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨1, _⟩ =>
    rw [concatMid_apply1, bcastMid_apply (by decide), concatCols2_apply1, bcastCol_apply]
    simp only [Mmat_apply, mmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]

end Cert.LegDynamics.Ref

end
-- ==== Proof.RefRmat.lean ====
/-
  The host program's moment-arm matrix: for each of the two joints, seven columns side by side — a constant times the
  cosine of an affine function of the joint's angle, or zero where the muscle does not cross the joint — the two rows
  stacked along a middle axis.
-/
import proofs.«114054_j5351529251331_2_alg».proof.Proof.Gen.ReferenceIdeal.Run
import proofs.«114054_j5351529251331_2_alg».proof.Proof.Spec
import proofs.«114054_j5351529251331_2_alg».proof.Proof.Layout
import proofs.«114054_j5351529251331_2_alg».proof.Proof.RefCols

noncomputable section

namespace Cert.LegDynamics.Ref

open Idealize.ShloMosaic Idealize.ShloMosaic.TcCoe Idealize.SL.Sem Idealize.ShloMosaic.ValueIdx
open Cert.ReferenceIdeal Cert.ReferenceIdeal.Gen Cert.ReferenceIdeal.Value Cert.LegDynamics

/-- After the host program's run the fourth result holds the moment-arm matrices of the arguments' rows. -/
theorem ref_rmat (V0 : Valuation τ sig (Elt Ideal)) :
    val7 (F := Ideal) V0 (Proc.devRef .tc main_v123) = Rmat (V0 (Proc.devRef .tc main_arg0)) := by
  refine (val7_main_v123 V0).trans ?_
  funext j
  obtain ⟨r, a, k, rfl⟩ : ∃ r a k, j = ix3 r a k := ⟨j 0, j 1, j 2, eq_ix3 j⟩
  match a, k with
  | ⟨0, _⟩, ⟨0, _⟩ =>
    rw [concatMid_apply0, bcastMid_apply (by decide), concatCols7_apply0, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨1, _⟩ =>
    rw [concatMid_apply0, bcastMid_apply (by decide), concatCols7_apply1, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨2, _⟩ =>
    rw [concatMid_apply0, bcastMid_apply (by decide), concatCols7_apply2, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨3, _⟩ =>
    rw [concatMid_apply0, bcastMid_apply (by decide), concatCols7_apply3, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨4, _⟩ =>
    rw [concatMid_apply0, bcastMid_apply (by decide), concatCols7_apply4, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨5, _⟩ =>
    rw [concatMid_apply0, bcastMid_apply (by decide), concatCols7_apply5, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨0, _⟩, ⟨6, _⟩ =>
    rw [concatMid_apply0, bcastMid_apply (by decide), concatCols7_apply6, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨0, _⟩ =>
    rw [concatMid_apply1, bcastMid_apply (by decide), concatCols7_apply0, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨1, _⟩ =>
    rw [concatMid_apply1, bcastMid_apply (by decide), concatCols7_apply1, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨2, _⟩ =>
    rw [concatMid_apply1, bcastMid_apply (by decide), concatCols7_apply2, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨3, _⟩ =>
    rw [concatMid_apply1, bcastMid_apply (by decide), concatCols7_apply3, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨4, _⟩ =>
    rw [concatMid_apply1, bcastMid_apply (by decide), concatCols7_apply4, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨5, _⟩ =>
    rw [concatMid_apply1, bcastMid_apply (by decide), concatCols7_apply5, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩, ⟨6, _⟩ =>
    rw [concatMid_apply1, bcastMid_apply (by decide), concatCols7_apply6, bcastCol_apply]
    simp only [mulf, addf, subf, Host.sin, Host.cos, Host.sqrt, Host.exp, Host.negf, Host.divf, res_main_v25, q0_read, q1_read, Rmat_apply, rmat, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]

end Cert.LegDynamics.Ref

end
-- ==== Proof.RefLtot.lean ====
/-
  The host program's muscle-tendon lengths: seven columns side by side, each a length — affine in the joint
  angles, but for the rectus femoris — passed through the soft lower clamp. The host spells the clamp's logistic
  weight as 1 / (1 + exp (−x)) with the float constant 1.0, which is the extended real 1.
-/
import proofs.«114054_j5351529251331_2_alg».proof.Proof.Gen.ReferenceIdeal.Run
import proofs.«114054_j5351529251331_2_alg».proof.Proof.Spec
import proofs.«114054_j5351529251331_2_alg».proof.Proof.Layout
import proofs.«114054_j5351529251331_2_alg».proof.Proof.RefCols

noncomputable section

namespace Cert.LegDynamics.Ref

open Idealize.ShloMosaic Idealize.ShloMosaic.TcCoe Idealize.SL.Sem Idealize.ShloMosaic.ValueIdx
open Cert.ReferenceIdeal Cert.ReferenceIdeal.Gen Cert.ReferenceIdeal.Value Cert.LegDynamics

/-- After the host program's run the fifth result holds the clamped muscle-tendon lengths of the arguments' rows. -/
theorem ref_ltot (V0 : Valuation τ sig (Elt Ideal)) :
    val7 (F := Ideal) V0 (Proc.devRef .tc main_v308) = Ltot (V0 (Proc.devRef .tc main_arg0)) := by
  refine (val7_main_v308 V0).trans ?_
  funext j
  obtain ⟨r, k, rfl⟩ : ∃ r k, j = ix2 r k := ⟨j 0, j 1, eq_ix2 j⟩
  match k with
  | ⟨0, _⟩ =>
    rw [concatCols7_apply0, bcastCol_apply]
    simp only [mulf, addf, subf, Host.sin, Host.cos, Host.sqrt, Host.exp, Host.negf, Host.divf, res_main_v129, res_main_v141, q0_read, q1_read, Ltot_apply, ltot, blend, clampWeight, len,
      Ideal.logistic, Ideal.ofBits_one_f32, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨1, _⟩ =>
    rw [concatCols7_apply1, bcastCol_apply]
    simp only [mulf, addf, subf, Host.sin, Host.cos, Host.sqrt, Host.exp, Host.negf, Host.divf, res_main_v153, res_main_v165, q0_read, q1_read, Ltot_apply, ltot, blend, clampWeight, len,
      Ideal.logistic, Ideal.ofBits_one_f32, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨2, _⟩ =>
    rw [concatCols7_apply2, bcastCol_apply]
    simp only [mulf, addf, subf, Host.sin, Host.cos, Host.sqrt, Host.exp, Host.negf, Host.divf, res_main_v185, res_main_v197, q0_read, q1_read, Ltot_apply, ltot, blend, clampWeight, len,
      Ideal.logistic, Ideal.ofBits_one_f32, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨3, _⟩ =>
    rw [concatCols7_apply3, bcastCol_apply]
    simp only [mulf, addf, subf, Host.sin, Host.cos, Host.sqrt, Host.exp, Host.negf, Host.divf, res_main_v213, res_main_v225, q0_read, q1_read, Ltot_apply, ltot, blend, clampWeight, len,
      Ideal.logistic, Ideal.ofBits_one_f32, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨4, _⟩ =>
    rw [concatCols7_apply4, bcastCol_apply]
    simp only [mulf, addf, subf, Host.sin, Host.cos, Host.sqrt, Host.exp, Host.negf, Host.divf, res_main_v236, res_main_v248, q0_read, q1_read, Ltot_apply, ltot, blend, clampWeight, len,
      Ideal.logistic, Ideal.ofBits_one_f32, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨5, _⟩ =>
    rw [concatCols7_apply5, bcastCol_apply]
    simp only [mulf, addf, subf, Host.sin, Host.cos, Host.sqrt, Host.exp, Host.negf, Host.divf, res_main_v259, res_main_v271, q0_read, q1_read, Ltot_apply, ltot, blend, clampWeight, len,
      Ideal.logistic, Ideal.ofBits_one_f32, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]
  | ⟨6, _⟩ =>
    rw [concatCols7_apply6, bcastCol_apply]
    simp only [mulf, addf, subf, Host.sin, Host.cos, Host.sqrt, Host.exp, Host.negf, Host.divf, res_main_v282, res_main_v294, q0_read, q1_read, Ltot_apply, ltot, blend, clampWeight, len,
      Ideal.logistic, Ideal.ofBits_one_f32, broadcastInDim, constant, Ideal.mulf_def, Ideal.addf_def, Ideal.subf_def, Ideal.negf_def, Ideal.hostNegf_def, Ideal.hostDivf_def, Ideal.hostUnary_sin_def, Ideal.hostUnary_cos_def, Ideal.hostUnary_sqrt_def, Ideal.hostUnary_exp_def, Ideal.ofBits_def]

end Cert.LegDynamics.Ref

end
-- ==== Proof.RefAdot.lean ====
/-
  The host program's activation rates: the quotient of the difference of the two [1000000, 7] arguments by the
  broadcast time constant is, entry by entry, (u − a) / τ.
-/
import proofs.«114054_j5351529251331_2_alg».proof.Proof.Gen.ReferenceIdeal.Run
import proofs.«114054_j5351529251331_2_alg».proof.Proof.Spec
import proofs.«114054_j5351529251331_2_alg».proof.Proof.Layout

noncomputable section

namespace Cert.LegDynamics.Ref

open Idealize.ShloMosaic Idealize.ShloMosaic.TcCoe Idealize.SL.Sem Idealize.ShloMosaic.ValueIdx
open Cert.ReferenceIdeal Cert.ReferenceIdeal.Gen Cert.ReferenceIdeal.Value Cert.LegDynamics

/-- The host's term for the activation rates is the specification's array. -/
theorem adot_term (A U : FVec Ideal S1000000x7 .f32) :
    Host.divf (subf U A) (broadcastInDim S1000000x7 ![] bcast_S_S1000000x7 (constant S_ .f32 0x3DF5C28F#32)) = Adot A U := by
  funext i
  simp only [Host.divf, subf, broadcastInDim, constant, Adot, adot, Ideal.hostDivf_def, Ideal.subf_def, Ideal.ofBits_def]

/-- After the host program's run the sixth result holds the activation rates of the arguments. -/
theorem ref_adot (V0 : Valuation τ sig (Elt Ideal)) :
    val7 (F := Ideal) V0 (Proc.devRef .tc main_v311)
      = Adot (V0 (Proc.devRef .tc main_arg2)) (V0 (Proc.devRef .tc main_arg3)) :=
  (val7_main_v311 V0).trans (adot_term _ _)

end Cert.LegDynamics.Ref

end
-- ==== Proof.RefResults.lean ====
/-
  The host program's run, its six results stated by the specification: every weakly fair execution terminates with
  the gravity vector, the Coriolis, mass and moment-arm matrices, the clamped muscle-tendon lengths and the
  activation rates of the launch contents of the four arguments, and leaves the arguments as they were.
-/
import proofs.«114054_j5351529251331_2_alg».proof.Proof.RefGq
import proofs.«114054_j5351529251331_2_alg».proof.Proof.RefCmat
import proofs.«114054_j5351529251331_2_alg».proof.Proof.RefMmat
import proofs.«114054_j5351529251331_2_alg».proof.Proof.RefRmat
import proofs.«114054_j5351529251331_2_alg».proof.Proof.RefLtot
import proofs.«114054_j5351529251331_2_alg».proof.Proof.RefAdot

noncomputable section

namespace Cert.LegDynamics.Ref

open Idealize.ShloMosaic Idealize.ShloMosaic.TcCoe Idealize.SL.Sem Idealize.ShloMosaic.StableHlo
open Cert.ReferenceIdeal Cert.ReferenceIdeal.Gen Cert.ReferenceIdeal.Value Cert.LegDynamics

set_option maxRecDepth 8192 in
/-- On every device, from any memory with zero counters: every weakly fair execution of the host program terminates
    with each result the specification's array of the arguments' launch contents, the arguments unchanged. -/
theorem ref_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v16) = Gq (m ((c.tc : Thread nD τ).loc main_arg0))
      ∧ r.2.mem ((c.tc : Thread nD τ).loc main_v34) = Cmat (m ((c.tc : Thread nD τ).loc main_arg0)) (m ((c.tc : Thread nD τ).loc main_arg1))
      ∧ r.2.mem ((c.tc : Thread nD τ).loc main_v49) = Mmat (m ((c.tc : Thread nD τ).loc main_arg0))
      ∧ r.2.mem ((c.tc : Thread nD τ).loc main_v123) = Rmat (m ((c.tc : Thread nD τ).loc main_arg0))
      ∧ r.2.mem ((c.tc : Thread nD τ).loc main_v308) = Ltot (m ((c.tc : Thread nD τ).loc main_arg0))
      ∧ r.2.mem ((c.tc : Thread nD τ).loc main_v311) = Adot (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v16).trans (by simp only [after_ops]; exact ref_gq (launchContents m c)),
      (h c main_v34).trans (by simp only [after_ops]; exact ref_cmat (launchContents m c)),
      (h c main_v49).trans (by simp only [after_ops]; exact ref_mmat (launchContents m c)),
      (h c main_v123).trans (by simp only [after_ops]; exact ref_rmat (launchContents m c)),
      (h c main_v308).trans (by simp only [after_ops]; exact ref_ltot (launchContents m c)),
      (h c main_v311).trans (by simp only [after_ops]; exact ref_adot (launchContents m c)),
      (h c main_arg0).trans (by simp only [after_ops]; exact val7_main_arg0 (launchContents m c)),
      (h c main_arg1).trans (by simp only [after_ops]; exact val7_main_arg1 (launchContents m c)),
      (h c main_arg2).trans (by simp only [after_ops]; exact val7_main_arg2 (launchContents m c)),
      (h c main_arg3).trans (by simp only [after_ops]; exact val7_main_arg3 (launchContents m c))⟩)
    (run_seq scopedRefs_eq scopedSems_eq defs main (fun _ => ops) main_eq (fun _ => ops_sub) m ρ)

end Cert.LegDynamics.Ref

end
-- ==== Proof.lean ====
/-
  The kernel computes, for each of 1,000,000 rows of joint angles q, joint velocities q̇, activations A and neural inputs U
  of a planar two-link leg, its gravity vector, Coriolis matrix, mass matrix, moment-arm matrix, clamped muscle-tendon
  lengths and activation rates, in blocks of 3072 rows: each block is transposed to lanes, the row formulas are evaluated
  lane-wise, the results are gathered row by row in scratch buffers, transposed back and stored; the three matrix results
  are stored with their small axes flattened and reshaped afterwards. The reference evaluates the same formulas on whole
  columns and stacks them. Over the extended reals the two agree entry by entry with no algebra at all: both sides apply
  the same operations to the same constants in the same order (the kernel's logistic IS the reference's 1 / (1 + exp (−x))),
  so no finiteness of the inputs is used. What needs proof is the bookkeeping: that every result row is the row's formula
  of the same input row (kernel: through the transposes and the scratch round trips; reference: through the slices, the
  broadcasts and the stacks), that the last block, which overhangs the arrays by 1472 rows, writes back only its rows inside
  the arrays and that those do not depend on what its buffers hold past the arrays' end, and that the blocks tile the arrays.
  The frames: the kernel as printed and its idealization run to the end on any whole buffers (the same body run, at either
  reading of the floats), the argument arrays being inputs of the pipeline that no write-back touches; the reference is a
  straight line of host operations.
-/
import proofs.«114054_j5351529251331_2_alg».proof.Defs
import proofs.«114054_j5351529251331_2_alg».proof.Proof.Gen.Kernel
import proofs.«114054_j5351529251331_2_alg».proof.Proof.Gen.KernelIdeal
import proofs.«114054_j5351529251331_2_alg».proof.Proof.Gen.ReferenceIdeal
import proofs.«114054_j5351529251331_2_alg».proof.Proof.Gen.ReferenceIdeal.Run
import proofs.«114054_j5351529251331_2_alg».proof.Proof.Gen.Pre_finite_inputs
import proofs.«114054_j5351529251331_2_alg».proof.Proof.BitsFrame
import proofs.«114054_j5351529251331_2_alg».proof.Proof.IdealFrame
import proofs.«114054_j5351529251331_2_alg».proof.Proof.IdealRows
import proofs.«114054_j5351529251331_2_alg».proof.Proof.IdealEntries
import proofs.«114054_j5351529251331_2_alg».proof.Proof.IdealLocal
import proofs.«114054_j5351529251331_2_alg».proof.Proof.IdealResults
import proofs.«114054_j5351529251331_2_alg».proof.Proof.RefResults
import Idealize.ShloMosaic.Adequacy
import Idealize.ShloMosaic.Init

set_option maxRecDepth 16384

noncomputable section

namespace Cert.Proof

open Idealize.ShloMosaic Idealize.SL.Sem Cert.LegDynamics

/-- The kernel as printed runs to the end and leaves its arguments as they were. -/
theorem frame_kernel : Cert.frame_Kernel := fun m ρ _ => Cert.Kernel.Body.frame (F := Bits) m ρ

/-- So does its idealization: the same run, with the outputs named. -/
theorem frame_kernelIdeal : Cert.frame_KernelIdeal := fun m ρ _ =>
  Cert.KernelIdeal.Body.frame (F := Ideal) m ρ (Cert.KernelIdeal.Body.rowLocal Cert.KernelIdeal.Body.rowFormulas m)

/-- So does the reference: its run, the results dropped. -/
theorem frame_reference : Cert.frame_ReferenceIdeal := fun m ρ _ =>
  (θ_run Cert.ReferenceIdeal.defs _ _).mono (fun _ h c => (h c).2.2.2.2.2.2) (Cert.LegDynamics.Ref.ref_value m ρ)

/-- Run from memories that agree on the arguments, the idealized kernel and the idealized reference both end with the
    six arrays of the row formulas of the arguments. -/
theorem algebraic : Cert.algebraic_KernelIdeal_ReferenceIdeal := fun m ρ m' ρ' _ hagree =>
  ⟨_, _, _, _, _, _, Cert.KernelIdeal.Body.kernel_value Cert.KernelIdeal.Body.rowFormulas m ρ,
    (θ_run Cert.ReferenceIdeal.defs _ _).mono (fun _ h c => by
      obtain ⟨h1, h2, h3, h4, h5, h6, h7⟩ := h c
      obtain ⟨a0, a1, a2, a3⟩ := hagree c
      refine ⟨?_, ?_, ?_, ?_, ?_, ?_, h7⟩
      · rw [h1, a0]
      · rw [h2, a0, a1]
      · rw [h3, a0]
      · rw [h4, a0]
      · rw [h5, a0]
      · rw [h6, a2, a3]) (Cert.LegDynamics.Ref.ref_value m' ρ')⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
